-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048 : Shape := ⟨2, ![8, 2048]⟩
abbrev S4x768 : Shape := ⟨2, ![4, 768]⟩
abbrev S1001x256 : Shape := ⟨2, ![1001, 256]⟩
abbrev S10001x256 : Shape := ⟨2, ![10001, 256]⟩
abbrev S50001x256 : Shape := ⟨2, ![50001, 256]⟩
abbrev S50000x12 : Shape := ⟨2, ![50000, 12]⟩
abbrev S50000x11 : Shape := ⟨2, ![50000, 11]⟩
abbrev S50000x10 : Shape := ⟨2, ![50000, 10]⟩
abbrev S50000 : Shape := ⟨1, ![50000]⟩
abbrev S_ : Shape := ⟨0, ![]⟩

class Facts : Prop where
  bcast_S_S4x768 : S_.BroadcastsInDim S4x768 (![] : Fin 0 → Fin S4x768.rank)
  reducesTo_S4x768_S_d0_1 : S4x768.ReducesTo [0, 1] S_
  h_S_ : 0 < S_.numel
  bcast_S_S1001x256 : S_.BroadcastsInDim S1001x256 (![] : Fin 0 → Fin S1001x256.rank)
  reducesTo_S1001x256_S_d0_1 : S1001x256.ReducesTo [0, 1] S_
  bcast_S_S10001x256 : S_.BroadcastsInDim S10001x256 (![] : Fin 0 → Fin S10001x256.rank)
  reducesTo_S10001x256_S_d0_1 : S10001x256.ReducesTo [0, 1] S_
  bcast_S_S50001x256 : S_.BroadcastsInDim S50001x256 (![] : Fin 0 → Fin S50001x256.rank)
  reducesTo_S50001x256_S_d0_1 : S50001x256.ReducesTo [0, 1] S_

variable [Facts]

def fn_part1 {F : FTy → Type} [FloatOps F] (main_v13 : IVec S_ 1) (main_v16 : IVec S50001x256 1) : IVec S_ 1 :=
  let main_c_5 : IVec S_ 1 := constantI S_ 1 1#1
  let main_v17 : IVec S_ 1 := (fun x v => Host.reduce IntOp.andi x v reducesTo_S50001x256_S_d0_1 h_S_) main_v16 main_c_5
  let main_v18 : IVec S_ 1 := andi main_v13 main_v17
  main_v18

def fn {F : FTy → Type} [FloatOps F] (main_arg0 : IVec S8x2048 32) (main_arg1 : FVec F S4x768 .f32) (main_arg2 : FVec F S1001x256 .f32) (main_arg3 : FVec F S10001x256 .f32) (main_arg4 : FVec F S50001x256 .f32) (main_arg5 : IVec S50000x12 32) (main_arg6 : IVec S50000x11 32) (main_arg7 : IVec S50000x10 32) (main_arg8 : IVec S50000 32) (main_arg9 : IVec S50000 32) (main_arg10 : IVec S50000 32) : IVec S_ 1 :=
  let main_v0 : FVec F S4x768 .f32 := Host.absf main_arg1
  let main_cst : FVec F S_ .f32 := constant S_ .f32 0x7F800000#32
  let main_v1 : FVec F S4x768 .f32 := broadcastInDim S4x768 ![] bcast_S_S4x768 main_cst
  let main_v2 : IVec S4x768 1 := cmpf .olt main_v0 main_v1
  let main_c : IVec S_ 1 := constantI S_ 1 1#1
  let main_v3 : IVec S_ 1 := (fun x v => Host.reduce IntOp.andi x v reducesTo_S4x768_S_d0_1 h_S_) main_v2 main_c
  let main_v4 : FVec F S1001x256 .f32 := Host.absf main_arg2
  let main_cst_0 : FVec F S_ .f32 := constant S_ .f32 0x7F800000#32
  let main_v5 : FVec F S1001x256 .f32 := broadcastInDim S1001x256 ![] bcast_S_S1001x256 main_cst_0
  let main_v6 : IVec S1001x256 1 := cmpf .olt main_v4 main_v5
  let main_c_1 : IVec S_ 1 := constantI S_ 1 1#1
  let main_v7 : IVec S_ 1 := (fun x v => Host.reduce IntOp.andi x v reducesTo_S1001x256_S_d0_1 h_S_) main_v6 main_c_1
  let main_v8 : IVec S_ 1 := andi main_v3 main_v7
  let main_v9 : FVec F S10001x256 .f32 := Host.absf main_arg3
  let main_cst_2 : FVec F S_ .f32 := constant S_ .f32 0x7F800000#32
  let main_v10 : FVec F S10001x256 .f32 := broadcastInDim S10001x256 ![] bcast_S_S10001x256 main_cst_2
  let main_v11 : IVec S10001x256 1 := cmpf .olt main_v9 main_v10
  let main_c_3 : IVec S_ 1 := constantI S_ 1 1#1
  let main_v12 : IVec S_ 1 := (fun x v => Host.reduce IntOp.andi x v reducesTo_S10001x256_S_d0_1 h_S_) main_v11 main_c_3
  let main_v13 : IVec S_ 1 := andi main_v8 main_v12
  let main_v14 : FVec F S50001x256 .f32 := Host.absf main_arg4
  let main_cst_4 : FVec F S_ .f32 := constant S_ .f32 0x7F800000#32
  let main_v15 : FVec F S50001x256 .f32 := broadcastInDim S50001x256 ![] bcast_S_S50001x256 main_cst_4
  let main_v16 : IVec S50001x256 1 := cmpf .olt main_v14 main_v15
  fn_part1 (F := F) main_v13 main_v16
-- ==== Kernel.lean ====
abbrev S8x2048 : Shape := ⟨2, ![8, 2048]⟩
abbrev S4x768 : Shape := ⟨2, ![4, 768]⟩
abbrev S1001x256 : Shape := ⟨2, ![1001, 256]⟩
abbrev S10001x256 : Shape := ⟨2, ![10001, 256]⟩
abbrev S50001x256 : Shape := ⟨2, ![50001, 256]⟩
abbrev S50000x12 : Shape := ⟨2, ![50000, 12]⟩
abbrev S50000x11 : Shape := ⟨2, ![50000, 11]⟩
abbrev S50000x10 : Shape := ⟨2, ![50000, 10]⟩
abbrev S50000 : Shape := ⟨1, ![50000]⟩
abbrev S_ : Shape := ⟨0, ![]⟩
abbrev S8x2048x1 : Shape := ⟨3, ![8, 2048, 1]⟩
abbrev S8x2048x12 : Shape := ⟨3, ![8, 2048, 12]⟩
abbrev S8x2048x12x1 : Shape := ⟨4, ![8, 2048, 12, 1]⟩
abbrev S8x2048x12x256 : Shape := ⟨4, ![8, 2048, 12, 256]⟩
abbrev S8x2048x11 : Shape := ⟨3, ![8, 2048, 11]⟩
abbrev S8x2048x11x1 : Shape := ⟨4, ![8, 2048, 11, 1]⟩
abbrev S8x2048x11x256 : Shape := ⟨4, ![8, 2048, 11, 256]⟩
abbrev S8x2048x10 : Shape := ⟨3, ![8, 2048, 10]⟩
abbrev S8x2048x10x1 : Shape := ⟨4, ![8, 2048, 10, 1]⟩
abbrev S8x2048x10x256 : Shape := ⟨4, ![8, 2048, 10, 256]⟩
abbrev S8x2048x256 : Shape := ⟨3, ![8, 2048, 256]⟩
abbrev S8x128x12x256 : Shape := ⟨4, ![8, 128, 12, 256]⟩
abbrev S8x128 : Shape := ⟨2, ![8, 128]⟩
abbrev S8x128x256 : Shape := ⟨3, ![8, 128, 256]⟩
abbrev S8x128x1 : Shape := ⟨3, ![8, 128, 1]⟩
abbrev S8x128x1x256 : Shape := ⟨4, ![8, 128, 1, 256]⟩
abbrev S8x128x11x256 : Shape := ⟨4, ![8, 128, 11, 256]⟩
abbrev S8x128x10x256 : Shape := ⟨4, ![8, 128, 10, 256]⟩
abbrev S8x2048x768 : Shape := ⟨3, ![8, 2048, 768]⟩

abbrev nBuf : Space → Nat
  | .hbm => 119
  | .vmem => 18
  | .smem => 0
  | _ => 0

abbrev bufTy : (tb : Table) → Fin (tcTables nBuf tb) → BufTy
  | .hbm, ⟨0, _⟩ => ⟨S8x2048, .i32⟩
  | .hbm, ⟨1, _⟩ => ⟨S4x768, .f32⟩
  | .hbm, ⟨2, _⟩ => ⟨S1001x256, .f32⟩
  | .hbm, ⟨3, _⟩ => ⟨S10001x256, .f32⟩
  | .hbm, ⟨4, _⟩ => ⟨S50001x256, .f32⟩
  | .hbm, ⟨5, _⟩ => ⟨S50000x12, .i32⟩
  | .hbm, ⟨6, _⟩ => ⟨S50000x11, .i32⟩
  | .hbm, ⟨7, _⟩ => ⟨S50000x10, .i32⟩
  | .hbm, ⟨8, _⟩ => ⟨S50000, .i32⟩
  | .hbm, ⟨9, _⟩ => ⟨S50000, .i32⟩
  | .hbm, ⟨10, _⟩ => ⟨S50000, .i32⟩
  | .hbm, ⟨11, _⟩ => ⟨S_, .i32⟩
  | .hbm, ⟨12, _⟩ => ⟨S8x2048, .i32⟩
  | .hbm, ⟨13, _⟩ => ⟨S8x2048, .i1⟩
  | .hbm, ⟨14, _⟩ => ⟨S_, .i32⟩
  | .hbm, ⟨15, _⟩ => ⟨S8x2048, .i32⟩
  | .hbm, ⟨16, _⟩ => ⟨S8x2048, .i32⟩
  | .hbm, ⟨17, _⟩ => ⟨S8x2048, .i32⟩
  | .hbm, ⟨18, _⟩ => ⟨S8x2048x1, .i32⟩
  | .hbm, ⟨19, _⟩ => ⟨S8x2048x12, .i32⟩
  | .hbm, ⟨20, _⟩ => ⟨S_, .i32⟩
  | .hbm, ⟨21, _⟩ => ⟨S8x2048, .i32⟩
  | .hbm, ⟨22, _⟩ => ⟨S8x2048, .i1⟩
  | .hbm, ⟨23, _⟩ => ⟨S_, .i32⟩
  | .hbm, ⟨24, _⟩ => ⟨S8x2048, .i32⟩
  | .hbm, ⟨25, _⟩ => ⟨S8x2048, .i32⟩
  | .hbm, ⟨26, _⟩ => ⟨S8x2048, .i32⟩
  | .hbm, ⟨27, _⟩ => ⟨S8x2048x1, .i32⟩
  | .hbm, ⟨28, _⟩ => ⟨S8x2048, .i32⟩
  | .hbm, ⟨29, _⟩ => ⟨S_, .i32⟩
  | .hbm, ⟨30, _⟩ => ⟨S8x2048x12, .i32⟩
  | .hbm, ⟨31, _⟩ => ⟨S8x2048x12, .i1⟩
  | .hbm, ⟨32, _⟩ => ⟨S_, .i32⟩
  | .hbm, ⟨33, _⟩ => ⟨S8x2048x12, .i32⟩
  | .hbm, ⟨34, _⟩ => ⟨S8x2048x12, .i32⟩
  | .hbm, ⟨35, _⟩ => ⟨S8x2048x12, .i32⟩
  | .hbm, ⟨36, _⟩ => ⟨S8x2048x12x1, .i32⟩
  | .hbm, ⟨37, _⟩ => ⟨S8x2048x12x256, .f32⟩
  | .hbm, ⟨38, _⟩ => ⟨S_, .i32⟩
  | .hbm, ⟨39, _⟩ => ⟨S8x2048, .i32⟩
  | .hbm, ⟨40, _⟩ => ⟨S8x2048, .i1⟩
  | .hbm, ⟨41, _⟩ => ⟨S_, .i32⟩
  | .hbm, ⟨42, _⟩ => ⟨S8x2048, .i32⟩
  | .hbm, ⟨43, _⟩ => ⟨S8x2048, .i32⟩
  | .hbm, ⟨44, _⟩ => ⟨S8x2048, .i32⟩
  | .hbm, ⟨45, _⟩ => ⟨S8x2048x1, .i32⟩
  | .hbm, ⟨46, _⟩ => ⟨S8x2048x11, .i32⟩
  | .hbm, ⟨47, _⟩ => ⟨S_, .i32⟩
  | .hbm, ⟨48, _⟩ => ⟨S8x2048, .i32⟩
  | .hbm, ⟨49, _⟩ => ⟨S8x2048, .i1⟩
  | .hbm, ⟨50, _⟩ => ⟨S_, .i32⟩
  | .hbm, ⟨51, _⟩ => ⟨S8x2048, .i32⟩
  | .hbm, ⟨52, _⟩ => ⟨S8x2048, .i32⟩
  | .hbm, ⟨53, _⟩ => ⟨S8x2048, .i32⟩
  | .hbm, ⟨54, _⟩ => ⟨S8x2048x1, .i32⟩
  | .hbm, ⟨55, _⟩ => ⟨S8x2048, .i32⟩
  | .hbm, ⟨56, _⟩ => ⟨S_, .i32⟩
  | .hbm, ⟨57, _⟩ => ⟨S8x2048x11, .i32⟩
  | .hbm, ⟨58, _⟩ => ⟨S8x2048x11, .i1⟩
  | .hbm, ⟨59, _⟩ => ⟨S_, .i32⟩
  | .hbm, ⟨60, _⟩ => ⟨S8x2048x11, .i32⟩
  | .hbm, ⟨61, _⟩ => ⟨S8x2048x11, .i32⟩
  | .hbm, ⟨62, _⟩ => ⟨S8x2048x11, .i32⟩
  | .hbm, ⟨63, _⟩ => ⟨S8x2048x11x1, .i32⟩
  | .hbm, ⟨64, _⟩ => ⟨S8x2048x11x256, .f32⟩
  | .hbm, ⟨65, _⟩ => ⟨S_, .i32⟩
  | .hbm, ⟨66, _⟩ => ⟨S8x2048, .i32⟩
  | .hbm, ⟨67, _⟩ => ⟨S8x2048, .i1⟩
  | .hbm, ⟨68, _⟩ => ⟨S_, .i32⟩
  | .hbm, ⟨69, _⟩ => ⟨S8x2048, .i32⟩
  | .hbm, ⟨70, _⟩ => ⟨S8x2048, .i32⟩
  | .hbm, ⟨71, _⟩ => ⟨S8x2048, .i32⟩
  | .hbm, ⟨72, _⟩ => ⟨S8x2048x1, .i32⟩
  | .hbm, ⟨73, _⟩ => ⟨S8x2048x10, .i32⟩
  | .hbm, ⟨74, _⟩ => ⟨S_, .i32⟩
  | .hbm, ⟨75, _⟩ => ⟨S8x2048, .i32⟩
  | .hbm, ⟨76, _⟩ => ⟨S8x2048, .i1⟩
  | .hbm, ⟨77, _⟩ => ⟨S_, .i32⟩
  | .hbm, ⟨78, _⟩ => ⟨S8x2048, .i32⟩
  | .hbm, ⟨79, _⟩ => ⟨S8x2048, .i32⟩
  | .hbm, ⟨80, _⟩ => ⟨S8x2048, .i32⟩
  | .hbm, ⟨81, _⟩ => ⟨S8x2048x1, .i32⟩
  | .hbm, ⟨82, _⟩ => ⟨S8x2048, .i32⟩
  | .hbm, ⟨83, _⟩ => ⟨S_, .i32⟩
  | .hbm, ⟨84, _⟩ => ⟨S8x2048x10, .i32⟩
  | .hbm, ⟨85, _⟩ => ⟨S8x2048x10, .i1⟩
  | .hbm, ⟨86, _⟩ => ⟨S_, .i32⟩
  | .hbm, ⟨87, _⟩ => ⟨S8x2048x10, .i32⟩
  | .hbm, ⟨88, _⟩ => ⟨S8x2048x10, .i32⟩
  | .hbm, ⟨89, _⟩ => ⟨S8x2048x10, .i32⟩
  | .hbm, ⟨90, _⟩ => ⟨S8x2048x10x1, .i32⟩
  | .hbm, ⟨91, _⟩ => ⟨S8x2048x10x256, .f32⟩
  | .hbm, ⟨92, _⟩ => ⟨S8x2048x256, .f32⟩
  | .hbm, ⟨93, _⟩ => ⟨S8x2048x256, .f32⟩
  | .hbm, ⟨94, _⟩ => ⟨S8x2048x256, .f32⟩
  | .hbm, ⟨95, _⟩ => ⟨S8x2048x768, .f32⟩
  | .hbm, ⟨96, _⟩ => ⟨S_, .i32⟩
  | .hbm, ⟨97, _⟩ => ⟨S_, .i32⟩
  | .hbm, ⟨98, _⟩ => ⟨S_, .i32⟩
  | .hbm, ⟨99, _⟩ => ⟨S8x2048, .i32⟩
  | .hbm, ⟨100, _⟩ => ⟨S8x2048, .i32⟩
  | .hbm, ⟨101, _⟩ => ⟨S_, .i32⟩
  | .hbm, ⟨102, _⟩ => ⟨S8x2048, .i32⟩
  | .hbm, ⟨103, _⟩ => ⟨S8x2048, .i32⟩
  | .hbm, ⟨104, _⟩ => ⟨S_, .i32⟩
  | .hbm, ⟨105, _⟩ => ⟨S8x2048, .i32⟩
  | .hbm, ⟨106, _⟩ => ⟨S8x2048, .i1⟩
  | .hbm, ⟨107, _⟩ => ⟨S_, .i32⟩
  | .hbm, ⟨108, _⟩ => ⟨S8x2048, .i32⟩
  | .hbm, ⟨109, _⟩ => ⟨S8x2048, .i32⟩
  | .hbm, ⟨110, _⟩ => ⟨S8x2048, .i32⟩
  | .hbm, ⟨111, _⟩ => ⟨S8x2048x1, .i32⟩
  | .hbm, ⟨112, _⟩ => ⟨S8x2048x768, .f32⟩
  | .hbm, ⟨113, _⟩ => ⟨S_, .i32⟩
  | .hbm, ⟨114, _⟩ => ⟨S8x2048, .i32⟩
  | .hbm, ⟨115, _⟩ => ⟨S8x2048, .i1⟩
  | .hbm, ⟨116, _⟩ => ⟨S8x2048x1, .i1⟩
  | .hbm, ⟨117, _⟩ => ⟨S8x2048x768, .i1⟩
  | .hbm, ⟨118, _⟩ => ⟨S8x2048x768, .f32⟩
  | .local _ .vmem, ⟨0, _⟩ => ⟨S8x128x12x256, .f32⟩
  | .local _ .vmem, ⟨1, _⟩ => ⟨S8x128x12x256, .f32⟩
  | .local _ .vmem, ⟨2, _⟩ => ⟨S8x128, .i32⟩
  | .local _ .vmem, ⟨3, _⟩ => ⟨S8x128, .i32⟩
  | .local _ .vmem, ⟨4, _⟩ => ⟨S8x128x256, .f32⟩
  | .local _ .vmem, ⟨5, _⟩ => ⟨S8x128x256, .f32⟩
  | .local _ .vmem, ⟨6, _⟩ => ⟨S8x128x11x256, .f32⟩
  | .local _ .vmem, ⟨7, _⟩ => ⟨S8x128x11x256, .f32⟩
  | .local _ .vmem, ⟨8, _⟩ => ⟨S8x128, .i32⟩
  | .local _ .vmem, ⟨9, _⟩ => ⟨S8x128, .i32⟩
  | .local _ .vmem, ⟨10, _⟩ => ⟨S8x128x256, .f32⟩
  | .local _ .vmem, ⟨11, _⟩ => ⟨S8x128x256, .f32⟩
  | .local _ .vmem, ⟨12, _⟩ => ⟨S8x128x10x256, .f32⟩
  | .local _ .vmem, ⟨13, _⟩ => ⟨S8x128x10x256, .f32⟩
  | .local _ .vmem, ⟨14, _⟩ => ⟨S8x128, .i32⟩
  | .local _ .vmem, ⟨15, _⟩ => ⟨S8x128, .i32⟩
  | .local _ .vmem, ⟨16, _⟩ => ⟨S8x128x256, .f32⟩
  | .local _ .vmem, ⟨17, _⟩ => ⟨S8x128x256, .f32⟩
  | _, _ => ⟨S8x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_7 : Ref sig .tc := ⟨.hbm, 47, rfl⟩
abbrev main_v28 : Ref sig .tc := ⟨.hbm, 48, rfl⟩
abbrev main_v29 : Ref sig .tc := ⟨.hbm, 49, rfl⟩
abbrev main_c_8 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_9 : Ref sig .tc := ⟨.hbm, 56, rfl⟩
abbrev main_v35 : Ref sig .tc := ⟨.hbm, 57, rfl⟩
abbrev main_v36 : Ref sig .tc := ⟨.hbm, 58, rfl⟩
abbrev main_c_10 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_11 : Ref sig .tc := ⟨.hbm, 65, rfl⟩
abbrev main_v42 : Ref sig .tc := ⟨.hbm, 66, rfl⟩
abbrev main_v43 : Ref sig .tc := ⟨.hbm, 67, rfl⟩
abbrev main_c_12 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_13 : Ref sig .tc := ⟨.hbm, 74, rfl⟩
abbrev main_v49 : Ref sig .tc := ⟨.hbm, 75, rfl⟩
abbrev main_v50 : Ref sig .tc := ⟨.hbm, 76, rfl⟩
abbrev main_c_14 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_c_15 : Ref sig .tc := ⟨.hbm, 83, rfl⟩
abbrev main_v56 : Ref sig .tc := ⟨.hbm, 84, rfl⟩
abbrev main_v57 : Ref sig .tc := ⟨.hbm, 85, rfl⟩
abbrev main_c_16 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_17 : Ref sig .tc := ⟨.hbm, 96, rfl⟩
abbrev main_c_18 : Ref sig .tc := ⟨.hbm, 97, rfl⟩
abbrev main_call0_v0 : Ref sig .tc := ⟨.hbm, 98, rfl⟩
abbrev main_call0_v1 : Ref sig .tc := ⟨.hbm, 99, rfl⟩
abbrev main_call0_v2 : Ref sig .tc := ⟨.hbm, 100, rfl⟩
abbrev main_call0_v3 : Ref sig .tc := ⟨.hbm, 101, rfl⟩
abbrev main_call0_v4 : Ref sig .tc := ⟨.hbm, 102, rfl⟩
abbrev main_v67 : Ref sig .tc := ⟨.hbm, 103, rfl⟩
abbrev main_c_19 : Ref sig .tc := ⟨.hbm, 104, rfl⟩
abbrev main_v68 : Ref sig .tc := ⟨.hbm, 105, rfl⟩
abbrev main_v69 : Ref sig .tc := ⟨.hbm, 106, rfl⟩
abbrev main_c_20 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_c_21 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_call1_v0 : Ref sig .tc := ⟨.hbm, 117, rfl⟩
abbrev main_v78 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x128x12x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S8x128x11x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x128 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x128x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![16], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage2_0 : Fin 2 → Memref sig .tc .vmem S8x128x10x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8x128 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8x128x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S_S8x2048x12 : S_.BroadcastsInDim S8x2048x12 (![] : Fin 0 → Fin S8x2048x12.rank)
  bcast_S8x2048x12_S8x2048x12x1_0_1_2 : S8x2048x12.BroadcastsInDim S8x2048x12x1 (![0, 1, 2] : Fin 3 → Fin S8x2048x12x1.rank)
  bcast_S_S8x2048x11 : S_.BroadcastsInDim S8x2048x11 (![] : Fin 0 → Fin S8x2048x11.rank)
  bcast_S8x2048x11_S8x2048x11x1_0_1_2 : S8x2048x11.BroadcastsInDim S8x2048x11x1 (![0, 1, 2] : Fin 3 → Fin S8x2048x11x1.rank)
  bcast_S_S8x2048x10 : S_.BroadcastsInDim S8x2048x10 (![] : Fin 0 → Fin S8x2048x10.rank)
  bcast_S8x2048x10_S8x2048x10x1_0_1_2 : S8x2048x10.BroadcastsInDim S8x2048x10x1 (![0, 1, 2] : Fin 3 → Fin S8x2048x10x1.rank)
  inb_S8x128_S8x128_0_0 : ∀ a, (![0, 0] : Fin 2 → Nat) a + S8x128.size a ≤ S8x128.size a
  h_S8x128 : 0 < S8x128.numel
  shapeCasts_S8x128_S8x128 : S8x128.ShapeCasts S8x128
  natLt_1_32 : 1 < 32
  shapeCasts_S8x128_S8x128x1 : S8x128.ShapeCasts S8x128x1
  inb_S8x128x12x256_S8x128x1x256_0_0_0_0 : ∀ a, (![0, 0, 0, 0] : Fin 4 → Nat) a + S8x128x1x256.size a ≤ S8x128x12x256.size a
  h_S8x128x1x256 : 0 < S8x128x1x256.numel
  shapeCasts_S8x128x1x256_S8x128x256 : S8x128x1x256.ShapeCasts S8x128x256
  broadcasts_S8x128x1_S8x128x256 : S8x128x1.Broadcasts S8x128x256
  inb_S8x128x12x256_S8x128x1x256_0_0_1_0 : ∀ a, (![0, 0, 1, 0] : Fin 4 → Nat) a + S8x128x1x256.size a ≤ S8x128x12x256.size a
  inb_S8x128x12x256_S8x128x1x256_0_0_2_0 : ∀ a, (![0, 0, 2, 0] : Fin 4 → Nat) a + S8x128x1x256.size a ≤ S8x128x12x256.size a
  inb_S8x128x12x256_S8x128x1x256_0_0_3_0 : ∀ a, (![0, 0, 3, 0] : Fin 4 → Nat) a + S8x128x1x256.size a ≤ S8x128x12x256.size a
  inb_S8x128x12x256_S8x128x1x256_0_0_4_0 : ∀ a, (![0, 0, 4, 0] : Fin 4 → Nat) a + S8x128x1x256.size a ≤ S8x128x12x256.size a
  inb_S8x128x12x256_S8x128x1x256_0_0_5_0 : ∀ a, (![0, 0, 5, 0] : Fin 4 → Nat) a + S8x128x1x256.size a ≤ S8x128x12x256.size a
  inb_S8x128x12x256_S8x128x1x256_0_0_6_0 : ∀ a, (![0, 0, 6, 0] : Fin 4 → Nat) a + S8x128x1x256.size a ≤ S8x128x12x256.size a
  inb_S8x128x12x256_S8x128x1x256_0_0_7_0 : ∀ a, (![0, 0, 7, 0] : Fin 4 → Nat) a + S8x128x1x256.size a ≤ S8x128x12x256.size a
  inb_S8x128x12x256_S8x128x1x256_0_0_8_0 : ∀ a, (![0, 0, 8, 0] : Fin 4 → Nat) a + S8x128x1x256.size a ≤ S8x128x12x256.size a
  inb_S8x128x12x256_S8x128x1x256_0_0_9_0 : ∀ a, (![0, 0, 9, 0] : Fin 4 → Nat) a + S8x128x1x256.size a ≤ S8x128x12x256.size a
  inb_S8x128x12x256_S8x128x1x256_0_0_10_0 : ∀ a, (![0, 0, 10, 0] : Fin 4 → Nat) a + S8x128x1x256.size a ≤ S8x128x12x256.size a
  inb_S8x128x12x256_S8x128x1x256_0_0_11_0 : ∀ a, (![0, 0, 11, 0] : Fin 4 → Nat) a + S8x128x1x256.size a ≤ S8x128x12x256.size a
  inb_S8x128x256_S8x128x256_0_0_0 : ∀ a, (![0, 0, 0] : Fin 3 → Nat) a + S8x128x256.size a ≤ S8x128x256.size a
  h_S8x128x256 : 0 < S8x128x256.numel
  inb_S8x128x11x256_S8x128x1x256_0_0_0_0 : ∀ a, (![0, 0, 0, 0] : Fin 4 → Nat) a + S8x128x1x256.size a ≤ S8x128x11x256.size a
  inb_S8x128x11x256_S8x128x1x256_0_0_1_0 : ∀ a, (![0, 0, 1, 0] : Fin 4 → Nat) a + S8x128x1x256.size a ≤ S8x128x11x256.size a
  inb_S8x128x11x256_S8x128x1x256_0_0_2_0 : ∀ a, (![0, 0, 2, 0] : Fin 4 → Nat) a + S8x128x1x256.size a ≤ S8x128x11x256.size a
  inb_S8x128x11x256_S8x128x1x256_0_0_3_0 : ∀ a, (![0, 0, 3, 0] : Fin 4 → Nat) a + S8x128x1x256.size a ≤ S8x128x11x256.size a
  inb_S8x128x11x256_S8x128x1x256_0_0_4_0 : ∀ a, (![0, 0, 4, 0] : Fin 4 → Nat) a + S8x128x1x256.size a ≤ S8x128x11x256.size a
  inb_S8x128x11x256_S8x128x1x256_0_0_5_0 : ∀ a, (![0, 0, 5, 0] : Fin 4 → Nat) a + S8x128x1x256.size a ≤ S8x128x11x256.size a
  inb_S8x128x11x256_S8x128x1x256_0_0_6_0 : ∀ a, (![0, 0, 6, 0] : Fin 4 → Nat) a + S8x128x1x256.size a ≤ S8x128x11x256.size a
  inb_S8x128x11x256_S8x128x1x256_0_0_7_0 : ∀ a, (![0, 0, 7, 0] : Fin 4 → Nat) a + S8x128x1x256.size a ≤ S8x128x11x256.size a
  inb_S8x128x11x256_S8x128x1x256_0_0_8_0 : ∀ a, (![0, 0, 8, 0] : Fin 4 → Nat) a + S8x128x1x256.size a ≤ S8x128x11x256.size a
  inb_S8x128x11x256_S8x128x1x256_0_0_9_0 : ∀ a, (![0, 0, 9, 0] : Fin 4 → Nat) a + S8x128x1x256.size a ≤ S8x128x11x256.size a
  inb_S8x128x11x256_S8x128x1x256_0_0_10_0 : ∀ a, (![0, 0, 10, 0] : Fin 4 → Nat) a + S8x128x1x256.size a ≤ S8x128x11x256.size a
  inb_S8x128x10x256_S8x128x1x256_0_0_0_0 : ∀ a, (![0, 0, 0, 0] : Fin 4 → Nat) a + S8x128x1x256.size a ≤ S8x128x10x256.size a
  inb_S8x128x10x256_S8x128x1x256_0_0_1_0 : ∀ a, (![0, 0, 1, 0] : Fin 4 → Nat) a + S8x128x1x256.size a ≤ S8x128x10x256.size a
  inb_S8x128x10x256_S8x128x1x256_0_0_2_0 : ∀ a, (![0, 0, 2, 0] : Fin 4 → Nat) a + S8x128x1x256.size a ≤ S8x128x10x256.size a
  inb_S8x128x10x256_S8x128x1x256_0_0_3_0 : ∀ a, (![0, 0, 3, 0] : Fin 4 → Nat) a + S8x128x1x256.size a ≤ S8x128x10x256.size a
  inb_S8x128x10x256_S8x128x1x256_0_0_4_0 : ∀ a, (![0, 0, 4, 0] : Fin 4 → Nat) a + S8x128x1x256.size a ≤ S8x128x10x256.size a
  inb_S8x128x10x256_S8x128x1x256_0_0_5_0 : ∀ a, (![0, 0, 5, 0] : Fin 4 → Nat) a + S8x128x1x256.size a ≤ S8x128x10x256.size a
  inb_S8x128x10x256_S8x128x1x256_0_0_6_0 : ∀ a, (![0, 0, 6, 0] : Fin 4 → Nat) a + S8x128x1x256.size a ≤ S8x128x10x256.size a
  inb_S8x128x10x256_S8x128x1x256_0_0_7_0 : ∀ a, (![0, 0, 7, 0] : Fin 4 → Nat) a + S8x128x1x256.size a ≤ S8x128x10x256.size a
  inb_S8x128x10x256_S8x128x1x256_0_0_8_0 : ∀ a, (![0, 0, 8, 0] : Fin 4 → Nat) a + S8x128x1x256.size a ≤ S8x128x10x256.size a
  inb_S8x128x10x256_S8x128x1x256_0_0_9_0 : ∀ a, (![0, 0, 9, 0] : Fin 4 → Nat) a + S8x128x1x256.size a ≤ S8x128x10x256.size a
  concatenates_S8x2048x256_S8x2048x256_S8x2048x256_S8x2048x768_d2 : Shape.Concatenates [S8x2048x256, S8x2048x256, S8x2048x256] S8x2048x768 2
  bcast_S8x2048x1_S8x2048x768_0_1_2 : S8x2048x1.BroadcastsInDim S8x2048x768 (![0, 1, 2] : Fin 3 → Fin S8x2048x768.rank)
  gather_S50000x12_S8x2048x1_S8x2048x12_2_0_n_n_0_2_112_wf : GatherDims.WF S50000x12 S8x2048x1 S8x2048x12 [2] [0] [] [0] [] 2 ![1, 12]
  gather_S50000_S8x2048x1_S8x2048_n_0_n_n_0_2_1_wf : GatherDims.WF S50000 S8x2048x1 S8x2048 [] [0] [] [0] [] 2 ![1]
  gather_S1001x256_S8x2048x12x1_S8x2048x12x256_3_0_n_n_0_3_1256_wf : GatherDims.WF S1001x256 S8x2048x12x1 S8x2048x12x256 [3] [0] [] [0] [] 3 ![1, 256]
  gather_S50000x11_S8x2048x1_S8x2048x11_2_0_n_n_0_2_111_wf : GatherDims.WF S50000x11 S8x2048x1 S8x2048x11 [2] [0] [] [0] [] 2 ![1, 11]
  gather_S10001x256_S8x2048x11x1_S8x2048x11x256_3_0_n_n_0_3_1256_wf : GatherDims.WF S10001x256 S8x2048x11x1 S8x2048x11x256 [3] [0] [] [0] [] 3 ![1, 256]
  gather_S50000x10_S8x2048x1_S8x2048x10_2_0_n_n_0_2_110_wf : GatherDims.WF S50000x10 S8x2048x1 S8x2048x10 [2] [0] [] [0] [] 2 ![1, 10]
  gather_S50001x256_S8x2048x10x1_S8x2048x10x256_3_0_n_n_0_3_1256_wf : GatherDims.WF S50001x256 S8x2048x10x1 S8x2048x10x256 [3] [0] [] [0] [] 3 ![1, 256]
  gather_S4x768_S8x2048x1_S8x2048x768_2_0_n_n_0_2_1768_wf : GatherDims.WF S4x768 S8x2048x1 S8x2048x768 [2] [0] [] [0] [] 2 ![1, 768]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x12x256.size a ≤ S8x2048x12x256.size a
  hwx0_0 : ∀ i : grid0.Coords, EltTy.bits .f32 = 32 ∨ (Rect.block (s := S8x2048x12x256) S8x128x12x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S8x2048.size a
  hwx0_1 : ∀ i : grid0.Coords, EltTy.bits .i32 = 32 ∨ (Rect.block (s := S8x2048) S8x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128x256.size a ≤ S8x2048x256.size a
  hwx0_2 : ∀ i : grid0.Coords, EltTy.bits .f32 = 32 ∨ (Rect.block (s := S8x2048x256) S8x128x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x128x11x256.size a ≤ S8x2048x11x256.size a
  hwx1_0 : ∀ i : grid1.Coords, EltTy.bits .f32 = 32 ∨ (Rect.block (s := S8x2048x11x256) S8x128x11x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x128.size a ≤ S8x2048.size a
  hwx1_1 : ∀ i : grid1.Coords, EltTy.bits .i32 = 32 ∨ (Rect.block (s := S8x2048) S8x128.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x128x256.size a ≤ S8x2048x256.size a
  hwx1_2 : ∀ i : grid1.Coords, EltTy.bits .f32 = 32 ∨ (Rect.block (s := S8x2048x256) S8x128x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8x128x10x256.size a ≤ S8x2048x10x256.size a
  hwx2_0 : ∀ i : grid2.Coords, EltTy.bits .f32 = 32 ∨ (Rect.block (s := S8x2048x10x256) S8x128x10x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8x128.size a ≤ S8x2048.size a
  hwx2_1 : ∀ i : grid2.Coords, EltTy.bits .i32 = 32 ∨ (Rect.block (s := S8x2048) S8x128.size (cc2_transform_1 i) (hinb2_1 i)).WholeWords (EltTy.packing .i32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8x128x256.size a ≤ S8x2048x256.size a
  hwx2_2 : ∀ i : grid2.Coords, EltTy.bits .f32 = 32 ∨ (Rect.block (s := S8x2048x256) S8x128x256.size (cc2_transform_2 i) (hinb2_2 i)).WholeWords (EltTy.packing .f32)

variable [Facts₀]

def gather_S50000x12_S8x2048x1_S8x2048x12_2_0_n_n_0_2_112 : GatherDims S50000x12 S8x2048x1 S8x2048x12 where
  offsetDims := [2]
  collapsedSliceDims := [0]
  operandBatchingDims := []
  startIndicesBatchingDims := []
  startIndexMap := [0]
  indexVectorDim := 2
  sliceSizes := ![1, 12]
  wf := gather_S50000x12_S8x2048x1_S8x2048x12_2_0_n_n_0_2_112_wf
def gather_S50000_S8x2048x1_S8x2048_n_0_n_n_0_2_1 : GatherDims S50000 S8x2048x1 S8x2048 where
  offsetDims := []
  collapsedSliceDims := [0]
  operandBatchingDims := []
  startIndicesBatchingDims := []
  startIndexMap := [0]
  indexVectorDim := 2
  sliceSizes := ![1]
  wf := gather_S50000_S8x2048x1_S8x2048_n_0_n_n_0_2_1_wf
def gather_S1001x256_S8x2048x12x1_S8x2048x12x256_3_0_n_n_0_3_1256 : GatherDims S1001x256 S8x2048x12x1 S8x2048x12x256 where
  offsetDims := [3]
  collapsedSliceDims := [0]
  operandBatchingDims := []
  startIndicesBatchingDims := []
  startIndexMap := [0]
  indexVectorDim := 3
  sliceSizes := ![1, 256]
  wf := gather_S1001x256_S8x2048x12x1_S8x2048x12x256_3_0_n_n_0_3_1256_wf
def gather_S50000x11_S8x2048x1_S8x2048x11_2_0_n_n_0_2_111 : GatherDims S50000x11 S8x2048x1 S8x2048x11 where
  offsetDims := [2]
  collapsedSliceDims := [0]
  operandBatchingDims := []
  startIndicesBatchingDims := []
  startIndexMap := [0]
  indexVectorDim := 2
  sliceSizes := ![1, 11]
  wf := gather_S50000x11_S8x2048x1_S8x2048x11_2_0_n_n_0_2_111_wf
def gather_S10001x256_S8x2048x11x1_S8x2048x11x256_3_0_n_n_0_3_1256 : GatherDims S10001x256 S8x2048x11x1 S8x2048x11x256 where
  offsetDims := [3]
  collapsedSliceDims := [0]
  operandBatchingDims := []
  startIndicesBatchingDims := []
  startIndexMap := [0]
  indexVectorDim := 3
  sliceSizes := ![1, 256]
  wf := gather_S10001x256_S8x2048x11x1_S8x2048x11x256_3_0_n_n_0_3_1256_wf
def gather_S50000x10_S8x2048x1_S8x2048x10_2_0_n_n_0_2_110 : GatherDims S50000x10 S8x2048x1 S8x2048x10 where
  offsetDims := [2]
  collapsedSliceDims := [0]
  operandBatchingDims := []
  startIndicesBatchingDims := []
  startIndexMap := [0]
  indexVectorDim := 2
  sliceSizes := ![1, 10]
  wf := gather_S50000x10_S8x2048x1_S8x2048x10_2_0_n_n_0_2_110_wf
def gather_S50001x256_S8x2048x10x1_S8x2048x10x256_3_0_n_n_0_3_1256 : GatherDims S50001x256 S8x2048x10x1 S8x2048x10x256 where
  offsetDims := [3]
  collapsedSliceDims := [0]
  operandBatchingDims := []
  startIndicesBatchingDims := []
  startIndexMap := [0]
  indexVectorDim := 3
  sliceSizes := ![1, 256]
  wf := gather_S50001x256_S8x2048x10x1_S8x2048x10x256_3_0_n_n_0_3_1256_wf
def gather_S4x768_S8x2048x1_S8x2048x768_2_0_n_n_0_2_1768 : GatherDims S4x768 S8x2048x1 S8x2048x768 where
  offsetDims := [2]
  collapsedSliceDims := [0]
  operandBatchingDims := []
  startIndicesBatchingDims := []
  startIndexMap := [0]
  indexVectorDim := 2
  sliceSizes := ![1, 768]
  wf := gather_S4x768_S8x2048x1_S8x2048x768_2_0_n_n_0_2_1768_wf

abbrev win0_0 : Pipeline.Window sig grid0 :=
  Pipeline.Window.ofSpec (Memref.whole main_v20) S8x128x12x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S8x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v63) S8x128x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S8x128x11x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S8x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v64) S8x128x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v62) S8x128x10x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S8x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v65) S8x128x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8x2048 : Shape := ⟨2, ![8, 2048]⟩
abbrev S4x768 : Shape := ⟨2, ![4, 768]⟩
abbrev S1001x256 : Shape := ⟨2, ![1001, 256]⟩
abbrev S10001x256 : Shape := ⟨2, ![10001, 256]⟩
abbrev S50001x256 : Shape := ⟨2, ![50001, 256]⟩
abbrev S50000x12 : Shape := ⟨2, ![50000, 12]⟩
abbrev S50000x11 : Shape := ⟨2, ![50000, 11]⟩
abbrev S50000x10 : Shape := ⟨2, ![50000, 10]⟩
abbrev S50000 : Shape := ⟨1, ![50000]⟩
abbrev S_ : Shape := ⟨0, ![]⟩
abbrev S8x2048x1 : Shape := ⟨3, ![8, 2048, 1]⟩
abbrev S8x2048x12 : Shape := ⟨3, ![8, 2048, 12]⟩
abbrev S8x2048x12x1 : Shape := ⟨4, ![8, 2048, 12, 1]⟩
abbrev S8x2048x12x256 : Shape := ⟨4, ![8, 2048, 12, 256]⟩
abbrev S12 : Shape := ⟨1, ![12]⟩
abbrev S1x1x12 : Shape := ⟨3, ![1, 1, 12]⟩
abbrev S8x2048x256 : Shape := ⟨3, ![8, 2048, 256]⟩
abbrev S8x2048x11 : Shape := ⟨3, ![8, 2048, 11]⟩
abbrev S8x2048x11x1 : Shape := ⟨4, ![8, 2048, 11, 1]⟩
abbrev S8x2048x11x256 : Shape := ⟨4, ![8, 2048, 11, 256]⟩
abbrev S11 : Shape := ⟨1, ![11]⟩
abbrev S1x1x11 : Shape := ⟨3, ![1, 1, 11]⟩
abbrev S8x2048x10 : Shape := ⟨3, ![8, 2048, 10]⟩
abbrev S8x2048x10x1 : Shape := ⟨4, ![8, 2048, 10, 1]⟩
abbrev S8x2048x10x256 : Shape := ⟨4, ![8, 2048, 10, 256]⟩
abbrev S10 : Shape := ⟨1, ![10]⟩
abbrev S1x1x10 : Shape := ⟨3, ![1, 1, 10]⟩
abbrev S8x2048x768 : Shape := ⟨3, ![8, 2048, 768]⟩

abbrev nBuf : Space → Nat
  | .hbm => 164
  | .vmem => 0
  | .smem => 0
  | _ => 0

abbrev hbmTy0_0 (i : Nat) : BufTy := match i % 128 with
  | 0 => ⟨S8x2048, .i32⟩
  | 1 => ⟨S4x768, .f32⟩
  | 2 => ⟨S1001x256, .f32⟩
  | 3 => ⟨S10001x256, .f32⟩
  | 4 => ⟨S50001x256, .f32⟩
  | 5 => ⟨S50000x12, .i32⟩
  | 6 => ⟨S50000x11, .i32⟩
  | 7 => ⟨S50000x10, .i32⟩
  | 8 => ⟨S50000, .i32⟩
  | 9 => ⟨S50000, .i32⟩
  | 10 => ⟨S50000, .i32⟩
  | 11 => ⟨S_, .i32⟩
  | 12 => ⟨S8x2048, .i32⟩
  | 13 => ⟨S8x2048, .i1⟩
  | 14 => ⟨S_, .i32⟩
  | 15 => ⟨S8x2048, .i32⟩
  | 16 => ⟨S8x2048, .i32⟩
  | 17 => ⟨S8x2048, .i32⟩
  | 18 => ⟨S8x2048x1, .i32⟩
  | 19 => ⟨S8x2048x12, .i32⟩
  | 20 => ⟨S_, .i32⟩
  | 21 => ⟨S8x2048, .i32⟩
  | 22 => ⟨S8x2048, .i1⟩
  | 23 => ⟨S_, .i32⟩
  | 24 => ⟨S8x2048, .i32⟩
  | 25 => ⟨S8x2048, .i32⟩
  | 26 => ⟨S8x2048, .i32⟩
  | 27 => ⟨S8x2048x1, .i32⟩
  | 28 => ⟨S8x2048, .i32⟩
  | 29 => ⟨S_, .i32⟩
  | 30 => ⟨S8x2048x12, .i32⟩
  | 31 => ⟨S8x2048x12, .i1⟩
  | 32 => ⟨S_, .i32⟩
  | 33 => ⟨S8x2048x12, .i32⟩
  | 34 => ⟨S8x2048x12, .i32⟩
  | 35 => ⟨S8x2048x12, .i32⟩
  | 36 => ⟨S8x2048x12x1, .i32⟩
  | 37 => ⟨S8x2048x12x256, .f32⟩
  | 38 => ⟨S12, .i32⟩
  | 39 => ⟨S8x2048x1, .i32⟩
  | 40 => ⟨S1x1x12, .i32⟩
  | 41 => ⟨S8x2048x12, .i32⟩
  | 42 => ⟨S8x2048x12, .i32⟩
  | 43 => ⟨S8x2048x12, .i1⟩
  | 44 => ⟨S8x2048x12, .f32⟩
  | 45 => ⟨S8x2048x12x1, .f32⟩
  | 46 => ⟨S8x2048x12x256, .f32⟩
  | 47 => ⟨S8x2048x12x256, .f32⟩
  | 48 => ⟨S_, .f32⟩
  | 49 => ⟨S8x2048x256, .f32⟩
  | 50 => ⟨S8x2048x1, .i32⟩
  | 51 => ⟨S8x2048x1, .f32⟩
  | 52 => ⟨S8x2048x256, .f32⟩
  | 53 => ⟨S8x2048x256, .f32⟩
  | 54 => ⟨S_, .i32⟩
  | 55 => ⟨S8x2048, .i32⟩
  | 56 => ⟨S8x2048, .i1⟩
  | 57 => ⟨S_, .i32⟩
  | 58 => ⟨S8x2048, .i32⟩
  | 59 => ⟨S8x2048, .i32⟩
  | 60 => ⟨S8x2048, .i32⟩
  | 61 => ⟨S8x2048x1, .i32⟩
  | 62 => ⟨S8x2048x11, .i32⟩
  | 63 => ⟨S_, .i32⟩
  | 64 => ⟨S8x2048, .i32⟩
  | 65 => ⟨S8x2048, .i1⟩
  | 66 => ⟨S_, .i32⟩
  | 67 => ⟨S8x2048, .i32⟩
  | 68 => ⟨S8x2048, .i32⟩
  | 69 => ⟨S8x2048, .i32⟩
  | 70 => ⟨S8x2048x1, .i32⟩
  | 71 => ⟨S8x2048, .i32⟩
  | 72 => ⟨S_, .i32⟩
  | 73 => ⟨S8x2048x11, .i32⟩
  | 74 => ⟨S8x2048x11, .i1⟩
  | 75 => ⟨S_, .i32⟩
  | 76 => ⟨S8x2048x11, .i32⟩
  | 77 => ⟨S8x2048x11, .i32⟩
  | 78 => ⟨S8x2048x11, .i32⟩
  | 79 => ⟨S8x2048x11x1, .i32⟩
  | 80 => ⟨S8x2048x11x256, .f32⟩
  | 81 => ⟨S11, .i32⟩
  | 82 => ⟨S8x2048x1, .i32⟩
  | 83 => ⟨S1x1x11, .i32⟩
  | 84 => ⟨S8x2048x11, .i32⟩
  | 85 => ⟨S8x2048x11, .i32⟩
  | 86 => ⟨S8x2048x11, .i1⟩
  | 87 => ⟨S8x2048x11, .f32⟩
  | 88 => ⟨S8x2048x11x1, .f32⟩
  | 89 => ⟨S8x2048x11x256, .f32⟩
  | 90 => ⟨S8x2048x11x256, .f32⟩
  | 91 => ⟨S_, .f32⟩
  | 92 => ⟨S8x2048x256, .f32⟩
  | 93 => ⟨S8x2048x1, .i32⟩
  | 94 => ⟨S8x2048x1, .f32⟩
  | 95 => ⟨S8x2048x256, .f32⟩
  | 96 => ⟨S8x2048x256, .f32⟩
  | 97 => ⟨S_, .i32⟩
  | 98 => ⟨S8x2048, .i32⟩
  | 99 => ⟨S8x2048, .i1⟩
  | 100 => ⟨S_, .i32⟩
  | 101 => ⟨S8x2048, .i32⟩
  | 102 => ⟨S8x2048, .i32⟩
  | 103 => ⟨S8x2048, .i32⟩
  | 104 => ⟨S8x2048x1, .i32⟩
  | 105 => ⟨S8x2048x10, .i32⟩
  | 106 => ⟨S_, .i32⟩
  | 107 => ⟨S8x2048, .i32⟩
  | 108 => ⟨S8x2048, .i1⟩
  | 109 => ⟨S_, .i32⟩
  | 110 => ⟨S8x2048, .i32⟩
  | 111 => ⟨S8x2048, .i32⟩
  | 112 => ⟨S8x2048, .i32⟩
  | 113 => ⟨S8x2048x1, .i32⟩
  | 114 => ⟨S8x2048, .i32⟩
  | 115 => ⟨S_, .i32⟩
  | 116 => ⟨S8x2048x10, .i32⟩
  | 117 => ⟨S8x2048x10, .i1⟩
  | 118 => ⟨S_, .i32⟩
  | 119 => ⟨S8x2048x10, .i32⟩
  | 120 => ⟨S8x2048x10, .i32⟩
  | 121 => ⟨S8x2048x10, .i32⟩
  | 122 => ⟨S8x2048x10x1, .i32⟩
  | 123 => ⟨S8x2048x10x256, .f32⟩
  | 124 => ⟨S10, .i32⟩
  | 125 => ⟨S8x2048x1, .i32⟩
  | 126 => ⟨S1x1x10, .i32⟩
  | 127 => ⟨S8x2048x10, .i32⟩
  | _ => ⟨S8x2048, .i32⟩

abbrev hbmTy0_1 (i : Nat) : BufTy := match i % 128 with
  | 0 => ⟨S8x2048x10, .i32⟩
  | 1 => ⟨S8x2048x10, .i1⟩
  | 2 => ⟨S8x2048x10, .f32⟩
  | 3 => ⟨S8x2048x10x1, .f32⟩
  | 4 => ⟨S8x2048x10x256, .f32⟩
  | 5 => ⟨S8x2048x10x256, .f32⟩
  | 6 => ⟨S_, .f32⟩
  | 7 => ⟨S8x2048x256, .f32⟩
  | 8 => ⟨S8x2048x1, .i32⟩
  | 9 => ⟨S8x2048x1, .f32⟩
  | 10 => ⟨S8x2048x256, .f32⟩
  | 11 => ⟨S8x2048x256, .f32⟩
  | 12 => ⟨S8x2048x768, .f32⟩
  | 13 => ⟨S_, .i32⟩
  | 14 => ⟨S_, .i32⟩
  | 15 => ⟨S_, .i32⟩
  | 16 => ⟨S8x2048, .i32⟩
  | 17 => ⟨S8x2048, .i32⟩
  | 18 => ⟨S_, .i32⟩
  | 19 => ⟨S8x2048, .i32⟩
  | 20 => ⟨S8x2048, .i32⟩
  | 21 => ⟨S_, .i32⟩
  | 22 => ⟨S8x2048, .i32⟩
  | 23 => ⟨S8x2048, .i1⟩
  | 24 => ⟨S_, .i32⟩
  | 25 => ⟨S8x2048, .i32⟩
  | 26 => ⟨S8x2048, .i32⟩
  | 27 => ⟨S8x2048, .i32⟩
  | 28 => ⟨S8x2048x1, .i32⟩
  | 29 => ⟨S8x2048x768, .f32⟩
  | 30 => ⟨S_, .i32⟩
  | 31 => ⟨S8x2048, .i32⟩
  | 32 => ⟨S8x2048, .i1⟩
  | 33 => ⟨S8x2048x1, .i1⟩
  | 34 => ⟨S8x2048x768, .i1⟩
  | 35 => ⟨S8x2048x768, .f32⟩
  | _ => ⟨S8x2048, .i32⟩

abbrev hbmTy (i : Nat) : BufTy := match i / 128 with
  | 0 => hbmTy0_0 i
  | 1 => hbmTy0_1 i
  | _ => ⟨S8x2048, .i32⟩

abbrev bufTy : (tb : Table) → Fin (tcTables nBuf tb) → BufTy
  | .hbm, ⟨i, _⟩ => hbmTy i
  | _, _ => ⟨S8x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_5 : Ref sig .tc := ⟨.hbm, 54, rfl⟩
abbrev main_v36 : Ref sig .tc := ⟨.hbm, 55, rfl⟩
abbrev main_v37 : Ref sig .tc := ⟨.hbm, 56, rfl⟩
abbrev main_c_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_7 : Ref sig .tc := ⟨.hbm, 63, rfl⟩
abbrev main_v43 : Ref sig .tc := ⟨.hbm, 64, rfl⟩
abbrev main_v44 : Ref sig .tc := ⟨.hbm, 65, rfl⟩
abbrev main_c_8 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_9 : Ref sig .tc := ⟨.hbm, 72, rfl⟩
abbrev main_v50 : Ref sig .tc := ⟨.hbm, 73, rfl⟩
abbrev main_v51 : Ref sig .tc := ⟨.hbm, 74, rfl⟩
abbrev main_c_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_11 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_12 : Ref sig .tc := ⟨.hbm, 97, rfl⟩
abbrev main_v72 : Ref sig .tc := ⟨.hbm, 98, rfl⟩
abbrev main_v73 : Ref sig .tc := ⟨.hbm, 99, rfl⟩
abbrev main_c_13 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_c_14 : Ref sig .tc := ⟨.hbm, 106, rfl⟩
abbrev main_v79 : Ref sig .tc := ⟨.hbm, 107, rfl⟩
abbrev main_v80 : Ref sig .tc := ⟨.hbm, 108, rfl⟩
abbrev main_c_15 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_c_16 : Ref sig .tc := ⟨.hbm, 115, rfl⟩
abbrev main_v86 : Ref sig .tc := ⟨.hbm, 116, rfl⟩
abbrev main_v87 : Ref sig .tc := ⟨.hbm, 117, rfl⟩
abbrev main_c_17 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_cst_18 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_c_19 : Ref sig .tc := ⟨.hbm, 141, rfl⟩
abbrev main_c_20 : Ref sig .tc := ⟨.hbm, 142, rfl⟩
abbrev main_call0_v0 : Ref sig .tc := ⟨.hbm, 143, rfl⟩
abbrev main_call0_v1 : Ref sig .tc := ⟨.hbm, 144, rfl⟩
abbrev main_call0_v2 : Ref sig .tc := ⟨.hbm, 145, rfl⟩
abbrev main_call0_v3 : Ref sig .tc := ⟨.hbm, 146, rfl⟩
abbrev main_call0_v4 : Ref sig .tc := ⟨.hbm, 147, rfl⟩
abbrev main_v109 : Ref sig .tc := ⟨.hbm, 148, rfl⟩
abbrev main_c_21 : Ref sig .tc := ⟨.hbm, 149, rfl⟩
abbrev main_v110 : Ref sig .tc := ⟨.hbm, 150, rfl⟩
abbrev main_v111 : Ref sig .tc := ⟨.hbm, 151, rfl⟩
abbrev main_c_22 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_c_23 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_call1_v0 : Ref sig .tc := ⟨.hbm, 162, rfl⟩
abbrev main_v120 : Ref sig .tc := ⟨.hbm, 163, rfl⟩

abbrev nD : Nat := 1
abbrev τ : Topo := Topo.v7x

variable {F : FTy → Type} [FloatOps F]

class Facts₀ : Prop where
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S_S8x2048x12 : S_.BroadcastsInDim S8x2048x12 (![] : Fin 0 → Fin S8x2048x12.rank)
  bcast_S8x2048x12_S8x2048x12x1_0_1_2 : S8x2048x12.BroadcastsInDim S8x2048x12x1 (![0, 1, 2] : Fin 3 → Fin S8x2048x12x1.rank)
  bcast_S12_S1x1x12_2 : S12.BroadcastsInDim S1x1x12 (![2] : Fin 1 → Fin S1x1x12.rank)
  bcast_S1x1x12_S8x2048x12_0_1_2 : S1x1x12.BroadcastsInDim S8x2048x12 (![0, 1, 2] : Fin 3 → Fin S8x2048x12.rank)
  bcast_S8x2048x1_S8x2048x12_0_1_2 : S8x2048x1.BroadcastsInDim S8x2048x12 (![0, 1, 2] : Fin 3 → Fin S8x2048x12.rank)
  bcast_S8x2048x12x1_S8x2048x12x256_0_1_2_3 : S8x2048x12x1.BroadcastsInDim S8x2048x12x256 (![0, 1, 2, 3] : Fin 4 → Fin S8x2048x12x256.rank)
  reducesTo_S8x2048x12x256_S8x2048x256_d2 : S8x2048x12x256.ReducesTo [2] S8x2048x256
  h_S_ : 0 < S_.numel
  bcast_S8x2048x1_S8x2048x256_0_1_2 : S8x2048x1.BroadcastsInDim S8x2048x256 (![0, 1, 2] : Fin 3 → Fin S8x2048x256.rank)
  bcast_S_S8x2048x11 : S_.BroadcastsInDim S8x2048x11 (![] : Fin 0 → Fin S8x2048x11.rank)
  bcast_S8x2048x11_S8x2048x11x1_0_1_2 : S8x2048x11.BroadcastsInDim S8x2048x11x1 (![0, 1, 2] : Fin 3 → Fin S8x2048x11x1.rank)
  bcast_S11_S1x1x11_2 : S11.BroadcastsInDim S1x1x11 (![2] : Fin 1 → Fin S1x1x11.rank)
  bcast_S1x1x11_S8x2048x11_0_1_2 : S1x1x11.BroadcastsInDim S8x2048x11 (![0, 1, 2] : Fin 3 → Fin S8x2048x11.rank)
  bcast_S8x2048x1_S8x2048x11_0_1_2 : S8x2048x1.BroadcastsInDim S8x2048x11 (![0, 1, 2] : Fin 3 → Fin S8x2048x11.rank)
  bcast_S8x2048x11x1_S8x2048x11x256_0_1_2_3 : S8x2048x11x1.BroadcastsInDim S8x2048x11x256 (![0, 1, 2, 3] : Fin 4 → Fin S8x2048x11x256.rank)
  reducesTo_S8x2048x11x256_S8x2048x256_d2 : S8x2048x11x256.ReducesTo [2] S8x2048x256
  bcast_S_S8x2048x10 : S_.BroadcastsInDim S8x2048x10 (![] : Fin 0 → Fin S8x2048x10.rank)
  bcast_S8x2048x10_S8x2048x10x1_0_1_2 : S8x2048x10.BroadcastsInDim S8x2048x10x1 (![0, 1, 2] : Fin 3 → Fin S8x2048x10x1.rank)
  bcast_S10_S1x1x10_2 : S10.BroadcastsInDim S1x1x10 (![2] : Fin 1 → Fin S1x1x10.rank)
  bcast_S1x1x10_S8x2048x10_0_1_2 : S1x1x10.BroadcastsInDim S8x2048x10 (![0, 1, 2] : Fin 3 → Fin S8x2048x10.rank)
  bcast_S8x2048x1_S8x2048x10_0_1_2 : S8x2048x1.BroadcastsInDim S8x2048x10 (![0, 1, 2] : Fin 3 → Fin S8x2048x10.rank)
  bcast_S8x2048x10x1_S8x2048x10x256_0_1_2_3 : S8x2048x10x1.BroadcastsInDim S8x2048x10x256 (![0, 1, 2, 3] : Fin 4 → Fin S8x2048x10x256.rank)
  reducesTo_S8x2048x10x256_S8x2048x256_d2 : S8x2048x10x256.ReducesTo [2] S8x2048x256
  concatenates_S8x2048x256_S8x2048x256_S8x2048x256_S8x2048x768_d2 : Shape.Concatenates [S8x2048x256, S8x2048x256, S8x2048x256] S8x2048x768 2
  bcast_S8x2048x1_S8x2048x768_0_1_2 : S8x2048x1.BroadcastsInDim S8x2048x768 (![0, 1, 2] : Fin 3 → Fin S8x2048x768.rank)
  gather_S50000x12_S8x2048x1_S8x2048x12_2_0_n_n_0_2_112_wf : GatherDims.WF S50000x12 S8x2048x1 S8x2048x12 [2] [0] [] [0] [] 2 ![1, 12]
  gather_S50000_S8x2048x1_S8x2048_n_0_n_n_0_2_1_wf : GatherDims.WF S50000 S8x2048x1 S8x2048 [] [0] [] [0] [] 2 ![1]
  gather_S1001x256_S8x2048x12x1_S8x2048x12x256_3_0_n_n_0_3_1256_wf : GatherDims.WF S1001x256 S8x2048x12x1 S8x2048x12x256 [3] [0] [] [0] [] 3 ![1, 256]
  gather_S50000x11_S8x2048x1_S8x2048x11_2_0_n_n_0_2_111_wf : GatherDims.WF S50000x11 S8x2048x1 S8x2048x11 [2] [0] [] [0] [] 2 ![1, 11]
  gather_S10001x256_S8x2048x11x1_S8x2048x11x256_3_0_n_n_0_3_1256_wf : GatherDims.WF S10001x256 S8x2048x11x1 S8x2048x11x256 [3] [0] [] [0] [] 3 ![1, 256]
  gather_S50000x10_S8x2048x1_S8x2048x10_2_0_n_n_0_2_110_wf : GatherDims.WF S50000x10 S8x2048x1 S8x2048x10 [2] [0] [] [0] [] 2 ![1, 10]
  gather_S50001x256_S8x2048x10x1_S8x2048x10x256_3_0_n_n_0_3_1256_wf : GatherDims.WF S50001x256 S8x2048x10x1 S8x2048x10x256 [3] [0] [] [0] [] 3 ![1, 256]
  gather_S4x768_S8x2048x1_S8x2048x768_2_0_n_n_0_2_1768_wf : GatherDims.WF S4x768 S8x2048x1 S8x2048x768 [2] [0] [] [0] [] 2 ![1, 768]

variable [Facts₀]

def gather_S50000x12_S8x2048x1_S8x2048x12_2_0_n_n_0_2_112 : GatherDims S50000x12 S8x2048x1 S8x2048x12 where
  offsetDims := [2]
  collapsedSliceDims := [0]
  operandBatchingDims := []
  startIndicesBatchingDims := []
  startIndexMap := [0]
  indexVectorDim := 2
  sliceSizes := ![1, 12]
  wf := gather_S50000x12_S8x2048x1_S8x2048x12_2_0_n_n_0_2_112_wf
def gather_S50000_S8x2048x1_S8x2048_n_0_n_n_0_2_1 : GatherDims S50000 S8x2048x1 S8x2048 where
  offsetDims := []
  collapsedSliceDims := [0]
  operandBatchingDims := []
  startIndicesBatchingDims := []
  startIndexMap := [0]
  indexVectorDim := 2
  sliceSizes := ![1]
  wf := gather_S50000_S8x2048x1_S8x2048_n_0_n_n_0_2_1_wf
def gather_S1001x256_S8x2048x12x1_S8x2048x12x256_3_0_n_n_0_3_1256 : GatherDims S1001x256 S8x2048x12x1 S8x2048x12x256 where
  offsetDims := [3]
  collapsedSliceDims := [0]
  operandBatchingDims := []
  startIndicesBatchingDims := []
  startIndexMap := [0]
  indexVectorDim := 3
  sliceSizes := ![1, 256]
  wf := gather_S1001x256_S8x2048x12x1_S8x2048x12x256_3_0_n_n_0_3_1256_wf
def gather_S50000x11_S8x2048x1_S8x2048x11_2_0_n_n_0_2_111 : GatherDims S50000x11 S8x2048x1 S8x2048x11 where
  offsetDims := [2]
  collapsedSliceDims := [0]
  operandBatchingDims := []
  startIndicesBatchingDims := []
  startIndexMap := [0]
  indexVectorDim := 2
  sliceSizes := ![1, 11]
  wf := gather_S50000x11_S8x2048x1_S8x2048x11_2_0_n_n_0_2_111_wf
def gather_S10001x256_S8x2048x11x1_S8x2048x11x256_3_0_n_n_0_3_1256 : GatherDims S10001x256 S8x2048x11x1 S8x2048x11x256 where
  offsetDims := [3]
  collapsedSliceDims := [0]
  operandBatchingDims := []
  startIndicesBatchingDims := []
  startIndexMap := [0]
  indexVectorDim := 3
  sliceSizes := ![1, 256]
  wf := gather_S10001x256_S8x2048x11x1_S8x2048x11x256_3_0_n_n_0_3_1256_wf
def gather_S50000x10_S8x2048x1_S8x2048x10_2_0_n_n_0_2_110 : GatherDims S50000x10 S8x2048x1 S8x2048x10 where
  offsetDims := [2]
  collapsedSliceDims := [0]
  operandBatchingDims := []
  startIndicesBatchingDims := []
  startIndexMap := [0]
  indexVectorDim := 2
  sliceSizes := ![1, 10]
  wf := gather_S50000x10_S8x2048x1_S8x2048x10_2_0_n_n_0_2_110_wf
def gather_S50001x256_S8x2048x10x1_S8x2048x10x256_3_0_n_n_0_3_1256 : GatherDims S50001x256 S8x2048x10x1 S8x2048x10x256 where
  offsetDims := [3]
  collapsedSliceDims := [0]
  operandBatchingDims := []
  startIndicesBatchingDims := []
  startIndexMap := [0]
  indexVectorDim := 3
  sliceSizes := ![1, 256]
  wf := gather_S50001x256_S8x2048x10x1_S8x2048x10x256_3_0_n_n_0_3_1256_wf
def gather_S4x768_S8x2048x1_S8x2048x768_2_0_n_n_0_2_1768 : GatherDims S4x768 S8x2048x1 S8x2048x768 where
  offsetDims := [2]
  collapsedSliceDims := [0]
  operandBatchingDims := []
  startIndicesBatchingDims := []
  startIndexMap := [0]
  indexVectorDim := 2
  sliceSizes := ![1, 768]
  wf := gather_S4x768_S8x2048x1_S8x2048x768_2_0_n_n_0_2_1768_wf

class Facts : Prop extends Facts₀ where

variable [Facts]
-- ==== Proof.K.Pay.lean ====
/-
  The value each of the three kernels stores into its output block, as one closed term over the two input blocks.

  Each kernel body reads the count block once and the gram block one gram position at a time (the slice
  `e[:, :, l, :]`), and stores one value into the whole output block. Following the data flow of the body's parts,
  the stored value is the skeleton's payloads composed: every value a part loads is what the load reads of the
  input block through its rectangle (`View.ld`), every value a part is handed is the payload of the part before.
-/
import proofs.«140809_j7954279432569_2_alg».proof.Proof.Gen.Kernel.Skeleton
import Idealize.ShloMosaic.Lib.Pipeline.FrameBody

noncomputable section

namespace Cert.Kernel.Hand

open Idealize.ShloMosaic Idealize.SL.Sem
open Cert.Kernel Cert.Kernel.Gen

variable {F : FTy → Type} [FloatOps F]

/-! ## Order 12 (`cc0_kernel`) -/

/-- The whole count block. -/
abbrev rc0 : Rect S8x128 := Rect.unit (s := S8x128) ![0, 0] S8x128.size inb_S8x128_S8x128_0_0
/-- The whole output block. -/
abbrev ro0 : Rect S8x128x256 := Rect.unit (s := S8x128x256) ![0, 0, 0] S8x128x256.size inb_S8x128x256_S8x128x256_0_0_0
/- Gram position `l` of the gram block. -/
abbrev re0_0 : Rect S8x128x12x256 := Rect.unit (s := S8x128x12x256) ![0, 0, 0, 0] S8x128x1x256.size inb_S8x128x12x256_S8x128x1x256_0_0_0_0
abbrev re0_1 : Rect S8x128x12x256 := Rect.unit (s := S8x128x12x256) ![0, 0, 1, 0] S8x128x1x256.size inb_S8x128x12x256_S8x128x1x256_0_0_1_0
abbrev re0_2 : Rect S8x128x12x256 := Rect.unit (s := S8x128x12x256) ![0, 0, 2, 0] S8x128x1x256.size inb_S8x128x12x256_S8x128x1x256_0_0_2_0
abbrev re0_3 : Rect S8x128x12x256 := Rect.unit (s := S8x128x12x256) ![0, 0, 3, 0] S8x128x1x256.size inb_S8x128x12x256_S8x128x1x256_0_0_3_0
abbrev re0_4 : Rect S8x128x12x256 := Rect.unit (s := S8x128x12x256) ![0, 0, 4, 0] S8x128x1x256.size inb_S8x128x12x256_S8x128x1x256_0_0_4_0
abbrev re0_5 : Rect S8x128x12x256 := Rect.unit (s := S8x128x12x256) ![0, 0, 5, 0] S8x128x1x256.size inb_S8x128x12x256_S8x128x1x256_0_0_5_0
abbrev re0_6 : Rect S8x128x12x256 := Rect.unit (s := S8x128x12x256) ![0, 0, 6, 0] S8x128x1x256.size inb_S8x128x12x256_S8x128x1x256_0_0_6_0
abbrev re0_7 : Rect S8x128x12x256 := Rect.unit (s := S8x128x12x256) ![0, 0, 7, 0] S8x128x1x256.size inb_S8x128x12x256_S8x128x1x256_0_0_7_0
abbrev re0_8 : Rect S8x128x12x256 := Rect.unit (s := S8x128x12x256) ![0, 0, 8, 0] S8x128x1x256.size inb_S8x128x12x256_S8x128x1x256_0_0_8_0
abbrev re0_9 : Rect S8x128x12x256 := Rect.unit (s := S8x128x12x256) ![0, 0, 9, 0] S8x128x1x256.size inb_S8x128x12x256_S8x128x1x256_0_0_9_0
abbrev re0_10 : Rect S8x128x12x256 := Rect.unit (s := S8x128x12x256) ![0, 0, 10, 0] S8x128x1x256.size inb_S8x128x12x256_S8x128x1x256_0_0_10_0
abbrev re0_11 : Rect S8x128x12x256 := Rect.unit (s := S8x128x12x256) ![0, 0, 11, 0] S8x128x1x256.size inb_S8x128x12x256_S8x128x1x256_0_0_11_0

/-- What `cc0_kernel` stores, from the gram block `x0` and the count block `x1`. -/
def pay0 (x0 : Vec F S8x128x12x256 .f32) (x1 : Vec F S8x128 .i32) : FVec F S8x128x256 .f32 :=
  k0_pay1 (k0_pay2 (View.ld x1 rc0))
    (k0_pay7 (k0_pay2 (View.ld x1 rc0))
      (k0_pay5 (k0_pay2 (View.ld x1 rc0))
        (k0_pay3 (View.ld x1 rc0) (View.ld x0 re0_0) (View.ld x0 re0_1) (View.ld x0 re0_2))
        (k0_pay4 (View.ld x1 rc0))
        (View.ld x0 re0_3) (View.ld x0 re0_4) (View.ld x0 re0_5) (View.ld x0 re0_6))
      (k0_pay6 (k0_pay2 (View.ld x1 rc0)))
      (View.ld x0 re0_7) (View.ld x0 re0_8) (View.ld x0 re0_9) (View.ld x0 re0_10))
    (k0_pay8 (k0_pay2 (View.ld x1 rc0)))
    (View.ld x0 re0_11)

/-! ## Order 11 (`cc1_kernel`) -/

abbrev rc1 : Rect S8x128 := Rect.unit (s := S8x128) ![0, 0] S8x128.size inb_S8x128_S8x128_0_0
abbrev ro1 : Rect S8x128x256 := Rect.unit (s := S8x128x256) ![0, 0, 0] S8x128x256.size inb_S8x128x256_S8x128x256_0_0_0
abbrev re1_0 : Rect S8x128x11x256 := Rect.unit (s := S8x128x11x256) ![0, 0, 0, 0] S8x128x1x256.size inb_S8x128x11x256_S8x128x1x256_0_0_0_0
abbrev re1_1 : Rect S8x128x11x256 := Rect.unit (s := S8x128x11x256) ![0, 0, 1, 0] S8x128x1x256.size inb_S8x128x11x256_S8x128x1x256_0_0_1_0
abbrev re1_2 : Rect S8x128x11x256 := Rect.unit (s := S8x128x11x256) ![0, 0, 2, 0] S8x128x1x256.size inb_S8x128x11x256_S8x128x1x256_0_0_2_0
abbrev re1_3 : Rect S8x128x11x256 := Rect.unit (s := S8x128x11x256) ![0, 0, 3, 0] S8x128x1x256.size inb_S8x128x11x256_S8x128x1x256_0_0_3_0
abbrev re1_4 : Rect S8x128x11x256 := Rect.unit (s := S8x128x11x256) ![0, 0, 4, 0] S8x128x1x256.size inb_S8x128x11x256_S8x128x1x256_0_0_4_0
abbrev re1_5 : Rect S8x128x11x256 := Rect.unit (s := S8x128x11x256) ![0, 0, 5, 0] S8x128x1x256.size inb_S8x128x11x256_S8x128x1x256_0_0_5_0
abbrev re1_6 : Rect S8x128x11x256 := Rect.unit (s := S8x128x11x256) ![0, 0, 6, 0] S8x128x1x256.size inb_S8x128x11x256_S8x128x1x256_0_0_6_0
abbrev re1_7 : Rect S8x128x11x256 := Rect.unit (s := S8x128x11x256) ![0, 0, 7, 0] S8x128x1x256.size inb_S8x128x11x256_S8x128x1x256_0_0_7_0
abbrev re1_8 : Rect S8x128x11x256 := Rect.unit (s := S8x128x11x256) ![0, 0, 8, 0] S8x128x1x256.size inb_S8x128x11x256_S8x128x1x256_0_0_8_0
abbrev re1_9 : Rect S8x128x11x256 := Rect.unit (s := S8x128x11x256) ![0, 0, 9, 0] S8x128x1x256.size inb_S8x128x11x256_S8x128x1x256_0_0_9_0
abbrev re1_10 : Rect S8x128x11x256 := Rect.unit (s := S8x128x11x256) ![0, 0, 10, 0] S8x128x1x256.size inb_S8x128x11x256_S8x128x1x256_0_0_10_0

/-- What `cc1_kernel` stores, from the gram block `x0` and the count block `x1`. -/
def pay1 (x0 : Vec F S8x128x11x256 .f32) (x1 : Vec F S8x128 .i32) : FVec F S8x128x256 .f32 :=
  k1_pay6 (k1_pay1 (View.ld x1 rc1))
    (k1_pay4 (k1_pay1 (View.ld x1 rc1))
      (k1_pay2 (View.ld x1 rc1) (View.ld x0 re1_0) (View.ld x0 re1_1) (View.ld x0 re1_2))
      (k1_pay3 (View.ld x1 rc1))
      (View.ld x0 re1_3) (View.ld x0 re1_4) (View.ld x0 re1_5) (View.ld x0 re1_6))
    (k1_pay5 (k1_pay1 (View.ld x1 rc1)))
    (View.ld x0 re1_7) (View.ld x0 re1_8) (View.ld x0 re1_9) (View.ld x0 re1_10)

/-! ## Order 10 (`cc2_kernel`) -/

abbrev rc2 : Rect S8x128 := Rect.unit (s := S8x128) ![0, 0] S8x128.size inb_S8x128_S8x128_0_0
abbrev ro2 : Rect S8x128x256 := Rect.unit (s := S8x128x256) ![0, 0, 0] S8x128x256.size inb_S8x128x256_S8x128x256_0_0_0
abbrev re2_0 : Rect S8x128x10x256 := Rect.unit (s := S8x128x10x256) ![0, 0, 0, 0] S8x128x1x256.size inb_S8x128x10x256_S8x128x1x256_0_0_0_0
abbrev re2_1 : Rect S8x128x10x256 := Rect.unit (s := S8x128x10x256) ![0, 0, 1, 0] S8x128x1x256.size inb_S8x128x10x256_S8x128x1x256_0_0_1_0
abbrev re2_2 : Rect S8x128x10x256 := Rect.unit (s := S8x128x10x256) ![0, 0, 2, 0] S8x128x1x256.size inb_S8x128x10x256_S8x128x1x256_0_0_2_0
abbrev re2_3 : Rect S8x128x10x256 := Rect.unit (s := S8x128x10x256) ![0, 0, 3, 0] S8x128x1x256.size inb_S8x128x10x256_S8x128x1x256_0_0_3_0
abbrev re2_4 : Rect S8x128x10x256 := Rect.unit (s := S8x128x10x256) ![0, 0, 4, 0] S8x128x1x256.size inb_S8x128x10x256_S8x128x1x256_0_0_4_0
abbrev re2_5 : Rect S8x128x10x256 := Rect.unit (s := S8x128x10x256) ![0, 0, 5, 0] S8x128x1x256.size inb_S8x128x10x256_S8x128x1x256_0_0_5_0
abbrev re2_6 : Rect S8x128x10x256 := Rect.unit (s := S8x128x10x256) ![0, 0, 6, 0] S8x128x1x256.size inb_S8x128x10x256_S8x128x1x256_0_0_6_0
abbrev re2_7 : Rect S8x128x10x256 := Rect.unit (s := S8x128x10x256) ![0, 0, 7, 0] S8x128x1x256.size inb_S8x128x10x256_S8x128x1x256_0_0_7_0
abbrev re2_8 : Rect S8x128x10x256 := Rect.unit (s := S8x128x10x256) ![0, 0, 8, 0] S8x128x1x256.size inb_S8x128x10x256_S8x128x1x256_0_0_8_0
abbrev re2_9 : Rect S8x128x10x256 := Rect.unit (s := S8x128x10x256) ![0, 0, 9, 0] S8x128x1x256.size inb_S8x128x10x256_S8x128x1x256_0_0_9_0

/-- What `cc2_kernel` stores, from the gram block `x0` and the count block `x1`. -/
def pay2 (x0 : Vec F S8x128x10x256 .f32) (x1 : Vec F S8x128 .i32) : FVec F S8x128x256 .f32 :=
  k2_pay1 (k2_pay2 (View.ld x1 rc2))
    (k2_pay5 (k2_pay2 (View.ld x1 rc2))
      (k2_pay3 (View.ld x1 rc2) (View.ld x0 re2_0) (View.ld x0 re2_1) (View.ld x0 re2_2))
      (k2_pay4 (View.ld x1 rc2))
      (View.ld x0 re2_3) (View.ld x0 re2_4) (View.ld x0 re2_5) (View.ld x0 re2_6))
    (k2_pay6 (k2_pay2 (View.ld x1 rc2)))
    (View.ld x0 re2_7) (View.ld x0 re2_8) (View.ld x0 re2_9)

end Cert.Kernel.Hand

end
-- ==== Proof.K.Body0.lean ====
/-
  The kernel of n-gram order 1 (12 gram positions) on one block of 128 tokens.

  Its three windows are the gathered embeddings (block 8 x 128 x 12 x 256), the gram counts (block 8 x 128) and the
  result (block 8 x 128 x 256). At every grid point the body reads the two input blocks, which the pipeline has placed in
  its staging buffers, and overwrites the whole result block with one value, a pure function of the two input blocks
  (`pay0`); it keeps nothing between points and changes neither input. So after the body at point `t` the result's
  staging buffer holds `out0` of the blocks of the two input arrays at `t`, whatever it held before.
  Everything is stated at a parameter `V`: the contents of the core's buffers when the region is entered.
-/
import proofs.«140809_j7954279432569_2_alg».proof.Proof.Gen.Kernel.Launch
import proofs.«140809_j7954279432569_2_alg».proof.Proof.Gen.Kernel.Skeleton
import proofs.«140809_j7954279432569_2_alg».proof.Proof.Gen.Kernel.Points
import proofs.«140809_j7954279432569_2_alg».proof.Proof.K.Pay
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the part of its array (as the region finds it) that the point's index
    map selects, token rows `128 t … 128 t + 127`. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The embeddings' staging buffer holds the point's block when the body starts, for any proof data over `V`'s arrays whose
    body leaves that block in place: an input window is never written, and each point's block is fetched before its body. -/
theorem held0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The same for the counts' staging buffer. -/
theorem held0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-! ## What the body leaves in the result's buffer -/

/-- The result block after the body: its one store covers the block, so the block is the stored value `pay0` of the
    two input blocks. -/
def out0 (x0 : Vec F S8x128x12x256 .f32) (x1 : Vec F S8x128 .i32) : Vec F S8x128x256 .f32 :=
  View.canon [⟨ro0, pay0 x0 x1⟩]

/-- The store's rectangle is the whole block. -/
theorem cover0 (p0 : Vec F S8x128x256 .f32) (y : S8x128x256.Idx) :
    ∃ pc ∈ ([⟨ro0, p0⟩] : List (View.Piece (Elt F) S8x128x256 .f32)), y ∈ pc.1.set :=
  View.cover_of_tiled [⟨ro0, p0⟩] S8x128x256.size (by rfl) y

/-! ## The body's triple -/

set_option maxHeartbeats 4000000 in
/-- The body on whole staging buffers — the inputs' holding `x0`, `x1`, the result's anything — runs to the end without a
    fault, leaves the inputs' as they were and the result's at `out0 x0 x1`: its loads read `x0` and `x1` through fixed
    rectangles (one gram position of every token at a time), and its single store writes the whole result block. -/
theorem sound_kernel0 (c : Dev nD) (E : Set ℕ) (i : grid0.Coords) (arg1 : Memref sig .tc .vmem S8x128x12x256 .f32) (harg1 : arg1.IsWhole)
    (arg2 : Memref sig .tc .vmem S8x128 .i32) (harg2 : arg2.IsWhole) (arg3 : Memref sig .tc .vmem S8x128x256 .f32) (harg3 : arg3.IsWhole)
    (x0 : Vec F S8x128x12x256 .f32) (x1 : Vec F S8x128 .i32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0 x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  simp only [k0_part1_eq_skeleton, k0_part2_eq_skeleton, k0_part3_eq_skeleton]
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

/-! ## The pipeline's proof data -/

/-- What the pipeline of this region knows on core `c`: its three arrays as the region finds them; after the body at
    point `t` the inputs' buffers still at their blocks and the result's at `out0` of those blocks; the body uses and
    needs nothing else (the scoped rest and the generator register pass through); nothing is owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => out0 (blk0 V c 0 t) (blk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = out0 (blk0 V c 0 t) (blk0 V c 1 t) := by dsimp only [dat0]

theorem held0_0 (c : Dev nD) (t : Fin cfg0.N) (d) : (dat0 V c).before 0 t d = blk0 V c 0 t :=
  held0_0_of V (dat0 V c) (A_eq0 V c 0) (after0_0 V c) t d
theorem held0_1 (c : Dev nD) (t : Fin cfg0.N) (d) : (dat0 V c).before 1 t d = blk0 V c 1 t :=
  held0_1_of V (dat0 V c) (A_eq0 V c 1) (after0_1 V c) t d

/-! ## The body obligation at a generic point -/

/-- What the body is entered with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the two input buffers hold the point's blocks, so the body's triple applies; the rest passes
    through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [held0_0, held0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline library, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
/-
  The kernel of n-gram order 2 (11 gram positions) on one block of 128 tokens.

  Its three windows are the gathered embeddings (block 8 x 128 x 11 x 256), the gram counts (block 8 x 128) and the
  result (block 8 x 128 x 256). At every grid point the body reads the two input blocks, which the pipeline has placed in
  its staging buffers, and overwrites the whole result block with one value, a pure function of the two input blocks
  (`pay1`); it keeps nothing between points and changes neither input. So after the body at point `t` the result's
  staging buffer holds `out1` of the blocks of the two input arrays at `t`, whatever it held before.
  Everything is stated at a parameter `V`: the contents of the core's buffers when the region is entered.
-/
import proofs.«140809_j7954279432569_2_alg».proof.Proof.Gen.Kernel.Launch
import proofs.«140809_j7954279432569_2_alg».proof.Proof.Gen.Kernel.Skeleton
import proofs.«140809_j7954279432569_2_alg».proof.Proof.Gen.Kernel.Points
import proofs.«140809_j7954279432569_2_alg».proof.Proof.K.Pay
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the part of its array (as the region finds it) that the point's index
    map selects, token rows `128 t … 128 t + 127`. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The embeddings' staging buffer holds the point's block when the body starts, for any proof data over `V`'s arrays whose
    body leaves that block in place: an input window is never written, and each point's block is fetched before its body. -/
theorem held1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The same for the counts' staging buffer. -/
theorem held1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-! ## What the body leaves in the result's buffer -/

/-- The result block after the body: its one store covers the block, so the block is the stored value `pay1` of the
    two input blocks. -/
def out1 (x0 : Vec F S8x128x11x256 .f32) (x1 : Vec F S8x128 .i32) : Vec F S8x128x256 .f32 :=
  View.canon [⟨ro1, pay1 x0 x1⟩]

/-- The store's rectangle is the whole block. -/
theorem cover1 (p0 : Vec F S8x128x256 .f32) (y : S8x128x256.Idx) :
    ∃ pc ∈ ([⟨ro1, p0⟩] : List (View.Piece (Elt F) S8x128x256 .f32)), y ∈ pc.1.set :=
  View.cover_of_tiled [⟨ro1, p0⟩] S8x128x256.size (by rfl) y

/-! ## The body's triple -/

set_option maxHeartbeats 4000000 in
/-- The body on whole staging buffers — the inputs' holding `x0`, `x1`, the result's anything — runs to the end without a
    fault, leaves the inputs' as they were and the result's at `out1 x0 x1`: its loads read `x0` and `x1` through fixed
    rectangles (one gram position of every token at a time), and its single store writes the whole result block. -/
theorem sound_kernel1 (c : Dev nD) (E : Set ℕ) (i : grid1.Coords) (arg1 : Memref sig .tc .vmem S8x128x11x256 .f32) (harg1 : arg1.IsWhole)
    (arg2 : Memref sig .tc .vmem S8x128 .i32) (harg2 : arg2.IsWhole) (arg3 : Memref sig .tc .vmem S8x128x256 .f32) (harg3 : arg3.IsWhole)
    (x0 : Vec F S8x128x11x256 .f32) (x1 : Vec F S8x128 .i32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1 x0 x1)) -∗ K ⟨⟩))
      ⊢ wp frame (wpE (defs₀ (F := F)) Variants.none c none) E (cc1_kernel i arg1 harg1 arg2 harg2 arg3 harg3) K := by
  simp only [cc1_kernel_eq_skeleton]; unfold cc1_kernel_skel
  simp only [k1_part1_eq_skeleton, k1_part2_eq_skeleton, k1_part3_eq_skeleton]
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1 _)

/-! ## The pipeline's proof data -/

/-- What the pipeline of this region knows on core `c`: its three arrays as the region finds them; after the body at
    point `t` the inputs' buffers still at their blocks and the result's at `out1` of those blocks; the body uses and
    needs nothing else (the scoped rest and the generator register pass through); nothing is owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => out1 (blk1 V c 0 t) (blk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = out1 (blk1 V c 0 t) (blk1 V c 1 t) := by dsimp only [dat1]

theorem held1_0 (c : Dev nD) (t : Fin cfg1.N) (d) : (dat1 V c).before 0 t d = blk1 V c 0 t :=
  held1_0_of V (dat1 V c) (A_eq1 V c 0) (after1_0 V c) t d
theorem held1_1 (c : Dev nD) (t : Fin cfg1.N) (d) : (dat1 V c).before 1 t d = blk1 V c 1 t :=
  held1_1_of V (dat1 V c) (A_eq1 V c 1) (after1_1 V c) t d

/-! ## The body obligation at a generic point -/

/-- What the body is entered with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the two input buffers hold the point's blocks, so the body's triple applies; the rest passes
    through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [held1_0, held1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline library, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Body2.lean ====
/-
  The kernel of n-gram order 3 (10 gram positions) on one block of 128 tokens.

  Its three windows are the gathered embeddings (block 8 x 128 x 10 x 256), the gram counts (block 8 x 128) and the
  result (block 8 x 128 x 256). At every grid point the body reads the two input blocks, which the pipeline has placed in
  its staging buffers, and overwrites the whole result block with one value, a pure function of the two input blocks
  (`pay2`); it keeps nothing between points and changes neither input. So after the body at point `t` the result's
  staging buffer holds `out2` of the blocks of the two input arrays at `t`, whatever it held before.
  Everything is stated at a parameter `V`: the contents of the core's buffers when the region is entered.
-/
import proofs.«140809_j7954279432569_2_alg».proof.Proof.Gen.Kernel.Launch
import proofs.«140809_j7954279432569_2_alg».proof.Proof.Gen.Kernel.Skeleton
import proofs.«140809_j7954279432569_2_alg».proof.Proof.Gen.Kernel.Points
import proofs.«140809_j7954279432569_2_alg».proof.Proof.K.Pay
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the part of its array (as the region finds it) that the point's index
    map selects, token rows `128 t … 128 t + 127`. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The embeddings' staging buffer holds the point's block when the body starts, for any proof data over `V`'s arrays whose
    body leaves that block in place: an input window is never written, and each point's block is fetched before its body. -/
theorem held2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- The same for the counts' staging buffer. -/
theorem held2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-! ## What the body leaves in the result's buffer -/

/-- The result block after the body: its one store covers the block, so the block is the stored value `pay2` of the
    two input blocks. -/
def out2 (x0 : Vec F S8x128x10x256 .f32) (x1 : Vec F S8x128 .i32) : Vec F S8x128x256 .f32 :=
  View.canon [⟨ro2, pay2 x0 x1⟩]

/-- The store's rectangle is the whole block. -/
theorem cover2 (p0 : Vec F S8x128x256 .f32) (y : S8x128x256.Idx) :
    ∃ pc ∈ ([⟨ro2, p0⟩] : List (View.Piece (Elt F) S8x128x256 .f32)), y ∈ pc.1.set :=
  View.cover_of_tiled [⟨ro2, p0⟩] S8x128x256.size (by rfl) y

/-! ## The body's triple -/

set_option maxHeartbeats 4000000 in
/-- The body on whole staging buffers — the inputs' holding `x0`, `x1`, the result's anything — runs to the end without a
    fault, leaves the inputs' as they were and the result's at `out2 x0 x1`: its loads read `x0` and `x1` through fixed
    rectangles (one gram position of every token at a time), and its single store writes the whole result block. -/
theorem sound_kernel2 (c : Dev nD) (E : Set ℕ) (i : grid2.Coords) (arg1 : Memref sig .tc .vmem S8x128x10x256 .f32) (harg1 : arg1.IsWhole)
    (arg2 : Memref sig .tc .vmem S8x128 .i32) (harg2 : arg2.IsWhole) (arg3 : Memref sig .tc .vmem S8x128x256 .f32) (harg3 : arg3.IsWhole)
    (x0 : Vec F S8x128x10x256 .f32) (x1 : Vec F S8x128 .i32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2 x0 x1)) -∗ K ⟨⟩))
      ⊢ wp frame (wpE (defs₀ (F := F)) Variants.none c none) E (cc2_kernel i arg1 harg1 arg2 harg2 arg3 harg3) K := by
  simp only [cc2_kernel_eq_skeleton]; unfold cc2_kernel_skel
  simp only [k2_part1_eq_skeleton, k2_part2_eq_skeleton]
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-! ## The pipeline's proof data -/

/-- What the pipeline of this region knows on core `c`: its three arrays as the region finds them; after the body at
    point `t` the inputs' buffers still at their blocks and the result's at `out2` of those blocks; the body uses and
    needs nothing else (the scoped rest and the generator register pass through); nothing is owed; full shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => out2 (blk2 V c 0 t) (blk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = out2 (blk2 V c 0 t) (blk2 V c 1 t) := by dsimp only [dat2]

theorem held2_0 (c : Dev nD) (t : Fin cfg2.N) (d) : (dat2 V c).before 0 t d = blk2 V c 0 t :=
  held2_0_of V (dat2 V c) (A_eq2 V c 0) (after2_0 V c) t d
theorem held2_1 (c : Dev nD) (t : Fin cfg2.N) (d) : (dat2 V c).before 1 t d = blk2 V c 1 t :=
  held2_1_of V (dat2 V c) (A_eq2 V c 1) (after2_1 V c) t d

/-! ## The body obligation at a generic point -/

/-- What the body is entered with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the two input buffers hold the point's blocks, so the body's triple applies; the rest passes
    through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [held2_0, held2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (blk2 V c 0 t) (blk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline library, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Run.lean ====
/-
  The run of the whole program: eighty-one host operations (the index wrapping and the nine gathers), the three kernel
  regions one after the other, and the host operations after them (the concatenation, the clipped lookup of the four
  special rows, the selection between the two).

  The contents of the core's unscoped buffers are followed from the launch to the return as a fold: a stretch of host
  operations is `StableHlo.after`; a region leaves its three arrays at what its pipeline leaves — the two inputs as
  entered, the result at the write-backs of all sixteen points — and every other buffer as entered. No host operation
  and no region writes an argument of the program, so the fold read at an argument is the launch memory. The run is
  the launch theorem for a program of several regions, over eight segments.
-/
import proofs.«140809_j7954279432569_2_alg».proof.Proof.K.Body0
import proofs.«140809_j7954279432569_2_alg».proof.Proof.K.Body1
import proofs.«140809_j7954279432569_2_alg».proof.Proof.K.Body2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host operations before the regions: region 0's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (each input as entered, the result's write-backs
    folded over the grid), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the core's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (each input as entered, the result's write-backs
    folded over the grid), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the core's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (each input as entered, the result's write-backs
    folded over the grid), every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the core's references. -/
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After the concatenation and the two constants, -/
abbrev W5 : Dev nD → Valuation τ sig (Elt F) := fun c => StableHlo.after hostOps3 (W4 m ρ c)
/-- the clipping of the token ids, -/
abbrev W6 : Dev nD → Valuation τ sig (Elt F) := fun c => StableHlo.after hostOps3_1 (W5 m ρ c)
/-- the lookup of the special rows and the mask of special tokens, -/
abbrev W7 : Dev nD → Valuation τ sig (Elt F) := fun c => StableHlo.after hostOps3_2 (W6 m ρ c)
/-- and the selection: the contents at the return. -/
abbrev W8 : Dev nD → Valuation τ sig (Elt F) := fun c => StableHlo.after hostOps3_3 (W7 m ρ c)

/-! ## The arguments end as launched -/

/-- The program's eleven arguments. -/
abbrev argRefs : List (Ref sig .tc) := [main_arg0, main_arg1, main_arg2, main_arg3, main_arg4, main_arg5, main_arg6, main_arg7, main_arg8, main_arg9, main_arg10]

theorem kept_before (V : Valuation τ sig (Elt F)) (b : Ref sig .tc) (hb : b ∈ argRefs) :
    StableHlo.after (hostOps0 (F := F)) V (Proc.devRef .tc b) = V (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (fun e => absurd (e ▸ hb) (by decide))))

theorem kept_concat (V : Valuation τ sig (Elt F)) (b : Ref sig .tc) (hb : b ∈ argRefs) :
    StableHlo.after (hostOps3 (F := F)) V (Proc.devRef .tc b) = V (Proc.devRef .tc b) :=
  StableHlo.after_of_forall_not_mem (b := Proc.devRef .tc b) _ _ (List.forall_iff_forall_mem.mp (by
    simp only [hostOps3, List.Forall, StableHlo.nullary_writes, StableHlo.unary_writes, StableHlo.binary_writes,
      StableHlo.ternary_writes, StableHlo.nary_writes, Finset.mem_singleton]
    repeat' apply And.intro
    all_goals exact StableHlo.devRef_ne_of_ne (fun e => absurd (e ▸ hb) (by decide))))

theorem kept_clip (V : Valuation τ sig (Elt F)) (b : Ref sig .tc) (hb : b ∈ argRefs) :
    StableHlo.after (hostOps3_1 (F := F)) V (Proc.devRef .tc b) = V (Proc.devRef .tc b) :=
  StableHlo.after_of_forall_not_mem (b := Proc.devRef .tc b) _ _ (List.forall_iff_forall_mem.mp (by
    simp only [hostOps3_1, List.Forall, StableHlo.nullary_writes, StableHlo.unary_writes, StableHlo.binary_writes,
      StableHlo.ternary_writes, StableHlo.nary_writes, Finset.mem_singleton]
    repeat' apply And.intro
    all_goals exact StableHlo.devRef_ne_of_ne (fun e => absurd (e ▸ hb) (by decide))))

theorem kept_special (V : Valuation τ sig (Elt F)) (b : Ref sig .tc) (hb : b ∈ argRefs) :
    StableHlo.after (hostOps3_2 (F := F)) V (Proc.devRef .tc b) = V (Proc.devRef .tc b) :=
  StableHlo.after_of_forall_not_mem (b := Proc.devRef .tc b) _ _ (List.forall_iff_forall_mem.mp (by
    simp only [hostOps3_2, List.Forall, StableHlo.nullary_writes, StableHlo.unary_writes, StableHlo.binary_writes,
      StableHlo.ternary_writes, StableHlo.nary_writes, Finset.mem_singleton]
    repeat' apply And.intro
    all_goals exact StableHlo.devRef_ne_of_ne (fun e => absurd (e ▸ hb) (by decide))))

theorem kept_select (V : Valuation τ sig (Elt F)) (b : Ref sig .tc) (hb : b ∈ argRefs) :
    StableHlo.after (hostOps3_3 (F := F)) V (Proc.devRef .tc b) = V (Proc.devRef .tc b) :=
  StableHlo.after_of_forall_not_mem (b := Proc.devRef .tc b) _ _ (List.forall_iff_forall_mem.mp (by
    simp only [hostOps3_3, List.Forall, StableHlo.nullary_writes, StableHlo.unary_writes, StableHlo.binary_writes,
      StableHlo.ternary_writes, StableHlo.nary_writes, Finset.mem_singleton]
    repeat' apply And.intro
    all_goals exact StableHlo.devRef_ne_of_ne (fun e => absurd (e ▸ hb) (by decide))))

/-- No region's array is an argument. -/
theorem arr_not_arg0 : ∀ w : Fin cfg0.W, Pipeline.arrRef spec0 w ∉ argRefs := by decide
theorem arr_not_arg1 : ∀ w : Fin cfg1.W, Pipeline.arrRef spec1 w ∉ argRefs := by decide
theorem arr_not_arg2 : ∀ w : Fin cfg2.W, Pipeline.arrRef spec2 w ∉ argRefs := by decide

/-- An argument's buffer at the return holds what it held at launch. -/
theorem W8_arg (c : Dev nD) (b : Ref sig .tc) (hb : b ∈ argRefs) : W8 m ρ c (Proc.devRef .tc b) = m ((c : Thread nD τ).loc b) :=
  calc W8 m ρ c (Proc.devRef .tc b)
    _ = W7 m ρ c (Proc.devRef .tc b) := kept_select _ b hb
    _ = W6 m ρ c (Proc.devRef .tc b) := kept_special _ b hb
    _ = W5 m ρ c (Proc.devRef .tc b) := kept_clip _ b hb
    _ = W4 m ρ c (Proc.devRef .tc b) := kept_concat _ b hb
    _ = W3 m ρ c (Proc.devRef .tc b) := W4_of_ne m ρ c b fun w e => arr_not_arg2 w (e ▸ hb)
    _ = W2 m ρ c (Proc.devRef .tc b) := W3_of_ne m ρ c b fun w e => arr_not_arg1 w (e ▸ hb)
    _ = W1 m ρ c (Proc.devRef .tc b) := W2_of_ne m ρ c b fun w e => arr_not_arg0 w (e ▸ hb)
    _ = W0 m ρ c (Proc.devRef .tc b) := kept_before _ b hb
    _ = m ((c : Thread nD τ).loc b) := rfl

/-! ## The proof data of the three pipelines and the thread state -/

/-- No pipeline has a prefetched table. -/
abbrev adm : (p : Fin 3) → (pcfgs (F := F) p).Adm := fun p => (cfgs p).toPCfg_adm
/-- Each pipeline's proof data at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps3_1_fresh : (hostOps3_1 : List (HloOp τ sig (Elt F))).Forall fun op => op.fresh = ∅ := by
  simp only [List.Forall]; repeat' constructor
theorem hostOps3_2_fresh : (hostOps3_2 : List (HloOp τ sig (Elt F))).Forall fun op => op.fresh = ∅ := by
  simp only [List.Forall]; repeat' constructor
theorem hostOps3_3_fresh : (hostOps3_3 : List (HloOp τ sig (Elt F))).Forall fun op => op.fresh = ∅ := by
  simp only [List.Forall]; repeat' constructor
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the return's contents, the generator register. -/
abbrev Tₙ (c : Dev nD) : sProp 𝕄 := iprop(StableHlo.held (c : Thread nD τ) (Pipeline.ucRefs τ sig) (W8 m ρ c) ∗ ∃ r, prngReg c r)

/-! ## The regions as segments -/

-- a library lemma stated over the pinned configuration unifies with the printed one only when unification may unfold
-- plain definitions in a metavariable's type
set_option backward.isDefEq.respectTransparency.types false in
/-- Region 0 as a segment: entered with every unscoped buffer at `W1`, left with them at `W2`. Its three arrays are
    taken out of the unscoped buffers at entry and put back at exit with the result's at what the write-backs left; the
    generator register goes into the body's invariant and comes back; nothing is owed, and the kernel has no semaphore
    of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 as a segment: entered with every unscoped buffer at `W2`, left with them at `W3`. Its three arrays are
    taken out of the unscoped buffers at entry and put back at exit with the result's at what the write-backs left; the
    generator register goes into the body's invariant and comes back; nothing is owed, and the kernel has no semaphore
    of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 as a segment: entered with every unscoped buffer at `W3`, left with them at `W4`. Its three arrays are
    taken out of the unscoped buffers at entry and put back at exit with the result's at what the write-backs left; the
    generator register goes into the body's invariant and comes back; nothing is owed, and the kernel has no semaphore
    of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The eight segments in program order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)),
    .host (hseg hostOps3_1 hostOps3_1_sub hostOps3_1_fresh (W5 m ρ)),
    .host (hseg hostOps3_2 hostOps3_2_sub hostOps3_2_fresh (W6 m ρ)),
    .host (hseg hostOps3_3 hostOps3_3_sub hostOps3_3_fresh (W7 m ρ)) ]
/-- The program is the run of its segments. -/
theorem main_run (c : Dev nD) : main (F := F) c = Pipeline.Seg.run (segs m ρ) := (main_chain c).trans (by chain_rfl)

set_option backward.isDefEq.respectTransparency.types false in
/-- Every weakly fair execution of the program from `m` (all counters zero) terminates without a fault, and in every
    final state each unscoped buffer of each core holds what the fold `W8` says. -/
theorem run_fold : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = W8 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W8 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c b hb => h c _ (mem_uc b hb))

/-- The frame: the program runs to the end, faults nowhere, and its eleven arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c main_arg0 (by decide)).trans (W8_arg m ρ c main_arg0 (by decide)),
    (h c main_arg1 (by decide)).trans (W8_arg m ρ c main_arg1 (by decide)),
    (h c main_arg2 (by decide)).trans (W8_arg m ρ c main_arg2 (by decide)),
    (h c main_arg3 (by decide)).trans (W8_arg m ρ c main_arg3 (by decide)),
    (h c main_arg4 (by decide)).trans (W8_arg m ρ c main_arg4 (by decide)),
    (h c main_arg5 (by decide)).trans (W8_arg m ρ c main_arg5 (by decide)),
    (h c main_arg6 (by decide)).trans (W8_arg m ρ c main_arg6 (by decide)),
    (h c main_arg7 (by decide)).trans (W8_arg m ρ c main_arg7 (by decide)),
    (h c main_arg8 (by decide)).trans (W8_arg m ρ c main_arg8 (by decide)),
    (h c main_arg9 (by decide)).trans (W8_arg m ρ c main_arg9 (by decide)),
    (h c main_arg10 (by decide)).trans (W8_arg m ρ c main_arg10 (by decide))⟩)
    (run_fold m ρ)

end Cert.Kernel.Hand

end
-- ==== Proof.KI.Pay.lean ====
/-
  The value each of the three kernels stores into its output block, as one closed term over the two input blocks.

  Each kernel body reads the count block once and the gram block one gram position at a time (the slice
  `e[:, :, l, :]`), and stores one value into the whole output block. Following the data flow of the body's parts,
  the stored value is the skeleton's payloads composed: every value a part loads is what the load reads of the
  input block through its rectangle (`View.ld`), every value a part is handed is the payload of the part before.
-/
import proofs.«140809_j7954279432569_2_alg».proof.Proof.Gen.KernelIdeal.Skeleton
import Idealize.ShloMosaic.Lib.Pipeline.FrameBody

noncomputable section

namespace Cert.KernelIdeal.Hand

open Idealize.ShloMosaic Idealize.SL.Sem
open Cert.KernelIdeal Cert.KernelIdeal.Gen

variable {F : FTy → Type} [FloatOps F]

/-! ## Order 12 (`cc0_kernel`) -/

/-- The whole count block. -/
abbrev rc0 : Rect S8x128 := Rect.unit (s := S8x128) ![0, 0] S8x128.size inb_S8x128_S8x128_0_0
/-- The whole output block. -/
abbrev ro0 : Rect S8x128x256 := Rect.unit (s := S8x128x256) ![0, 0, 0] S8x128x256.size inb_S8x128x256_S8x128x256_0_0_0
/- Gram position `l` of the gram block. -/
abbrev re0_0 : Rect S8x128x12x256 := Rect.unit (s := S8x128x12x256) ![0, 0, 0, 0] S8x128x1x256.size inb_S8x128x12x256_S8x128x1x256_0_0_0_0
abbrev re0_1 : Rect S8x128x12x256 := Rect.unit (s := S8x128x12x256) ![0, 0, 1, 0] S8x128x1x256.size inb_S8x128x12x256_S8x128x1x256_0_0_1_0
abbrev re0_2 : Rect S8x128x12x256 := Rect.unit (s := S8x128x12x256) ![0, 0, 2, 0] S8x128x1x256.size inb_S8x128x12x256_S8x128x1x256_0_0_2_0
abbrev re0_3 : Rect S8x128x12x256 := Rect.unit (s := S8x128x12x256) ![0, 0, 3, 0] S8x128x1x256.size inb_S8x128x12x256_S8x128x1x256_0_0_3_0
abbrev re0_4 : Rect S8x128x12x256 := Rect.unit (s := S8x128x12x256) ![0, 0, 4, 0] S8x128x1x256.size inb_S8x128x12x256_S8x128x1x256_0_0_4_0
abbrev re0_5 : Rect S8x128x12x256 := Rect.unit (s := S8x128x12x256) ![0, 0, 5, 0] S8x128x1x256.size inb_S8x128x12x256_S8x128x1x256_0_0_5_0
abbrev re0_6 : Rect S8x128x12x256 := Rect.unit (s := S8x128x12x256) ![0, 0, 6, 0] S8x128x1x256.size inb_S8x128x12x256_S8x128x1x256_0_0_6_0
abbrev re0_7 : Rect S8x128x12x256 := Rect.unit (s := S8x128x12x256) ![0, 0, 7, 0] S8x128x1x256.size inb_S8x128x12x256_S8x128x1x256_0_0_7_0
abbrev re0_8 : Rect S8x128x12x256 := Rect.unit (s := S8x128x12x256) ![0, 0, 8, 0] S8x128x1x256.size inb_S8x128x12x256_S8x128x1x256_0_0_8_0
abbrev re0_9 : Rect S8x128x12x256 := Rect.unit (s := S8x128x12x256) ![0, 0, 9, 0] S8x128x1x256.size inb_S8x128x12x256_S8x128x1x256_0_0_9_0
abbrev re0_10 : Rect S8x128x12x256 := Rect.unit (s := S8x128x12x256) ![0, 0, 10, 0] S8x128x1x256.size inb_S8x128x12x256_S8x128x1x256_0_0_10_0
abbrev re0_11 : Rect S8x128x12x256 := Rect.unit (s := S8x128x12x256) ![0, 0, 11, 0] S8x128x1x256.size inb_S8x128x12x256_S8x128x1x256_0_0_11_0

/-- What `cc0_kernel` stores, from the gram block `x0` and the count block `x1`. -/
def pay0 (x0 : Vec F S8x128x12x256 .f32) (x1 : Vec F S8x128 .i32) : FVec F S8x128x256 .f32 :=
  k0_pay1 (k0_pay2 (View.ld x1 rc0))
    (k0_pay7 (k0_pay2 (View.ld x1 rc0))
      (k0_pay5 (k0_pay2 (View.ld x1 rc0))
        (k0_pay3 (View.ld x1 rc0) (View.ld x0 re0_0) (View.ld x0 re0_1) (View.ld x0 re0_2))
        (k0_pay4 (View.ld x1 rc0))
        (View.ld x0 re0_3) (View.ld x0 re0_4) (View.ld x0 re0_5) (View.ld x0 re0_6))
      (k0_pay6 (k0_pay2 (View.ld x1 rc0)))
      (View.ld x0 re0_7) (View.ld x0 re0_8) (View.ld x0 re0_9) (View.ld x0 re0_10))
    (k0_pay8 (k0_pay2 (View.ld x1 rc0)))
    (View.ld x0 re0_11)

/-! ## Order 11 (`cc1_kernel`) -/

abbrev rc1 : Rect S8x128 := Rect.unit (s := S8x128) ![0, 0] S8x128.size inb_S8x128_S8x128_0_0
abbrev ro1 : Rect S8x128x256 := Rect.unit (s := S8x128x256) ![0, 0, 0] S8x128x256.size inb_S8x128x256_S8x128x256_0_0_0
abbrev re1_0 : Rect S8x128x11x256 := Rect.unit (s := S8x128x11x256) ![0, 0, 0, 0] S8x128x1x256.size inb_S8x128x11x256_S8x128x1x256_0_0_0_0
abbrev re1_1 : Rect S8x128x11x256 := Rect.unit (s := S8x128x11x256) ![0, 0, 1, 0] S8x128x1x256.size inb_S8x128x11x256_S8x128x1x256_0_0_1_0
abbrev re1_2 : Rect S8x128x11x256 := Rect.unit (s := S8x128x11x256) ![0, 0, 2, 0] S8x128x1x256.size inb_S8x128x11x256_S8x128x1x256_0_0_2_0
abbrev re1_3 : Rect S8x128x11x256 := Rect.unit (s := S8x128x11x256) ![0, 0, 3, 0] S8x128x1x256.size inb_S8x128x11x256_S8x128x1x256_0_0_3_0
abbrev re1_4 : Rect S8x128x11x256 := Rect.unit (s := S8x128x11x256) ![0, 0, 4, 0] S8x128x1x256.size inb_S8x128x11x256_S8x128x1x256_0_0_4_0
abbrev re1_5 : Rect S8x128x11x256 := Rect.unit (s := S8x128x11x256) ![0, 0, 5, 0] S8x128x1x256.size inb_S8x128x11x256_S8x128x1x256_0_0_5_0
abbrev re1_6 : Rect S8x128x11x256 := Rect.unit (s := S8x128x11x256) ![0, 0, 6, 0] S8x128x1x256.size inb_S8x128x11x256_S8x128x1x256_0_0_6_0
abbrev re1_7 : Rect S8x128x11x256 := Rect.unit (s := S8x128x11x256) ![0, 0, 7, 0] S8x128x1x256.size inb_S8x128x11x256_S8x128x1x256_0_0_7_0
abbrev re1_8 : Rect S8x128x11x256 := Rect.unit (s := S8x128x11x256) ![0, 0, 8, 0] S8x128x1x256.size inb_S8x128x11x256_S8x128x1x256_0_0_8_0
abbrev re1_9 : Rect S8x128x11x256 := Rect.unit (s := S8x128x11x256) ![0, 0, 9, 0] S8x128x1x256.size inb_S8x128x11x256_S8x128x1x256_0_0_9_0
abbrev re1_10 : Rect S8x128x11x256 := Rect.unit (s := S8x128x11x256) ![0, 0, 10, 0] S8x128x1x256.size inb_S8x128x11x256_S8x128x1x256_0_0_10_0

/-- What `cc1_kernel` stores, from the gram block `x0` and the count block `x1`. -/
def pay1 (x0 : Vec F S8x128x11x256 .f32) (x1 : Vec F S8x128 .i32) : FVec F S8x128x256 .f32 :=
  k1_pay6 (k1_pay1 (View.ld x1 rc1))
    (k1_pay4 (k1_pay1 (View.ld x1 rc1))
      (k1_pay2 (View.ld x1 rc1) (View.ld x0 re1_0) (View.ld x0 re1_1) (View.ld x0 re1_2))
      (k1_pay3 (View.ld x1 rc1))
      (View.ld x0 re1_3) (View.ld x0 re1_4) (View.ld x0 re1_5) (View.ld x0 re1_6))
    (k1_pay5 (k1_pay1 (View.ld x1 rc1)))
    (View.ld x0 re1_7) (View.ld x0 re1_8) (View.ld x0 re1_9) (View.ld x0 re1_10)

/-! ## Order 10 (`cc2_kernel`) -/

abbrev rc2 : Rect S8x128 := Rect.unit (s := S8x128) ![0, 0] S8x128.size inb_S8x128_S8x128_0_0
abbrev ro2 : Rect S8x128x256 := Rect.unit (s := S8x128x256) ![0, 0, 0] S8x128x256.size inb_S8x128x256_S8x128x256_0_0_0
abbrev re2_0 : Rect S8x128x10x256 := Rect.unit (s := S8x128x10x256) ![0, 0, 0, 0] S8x128x1x256.size inb_S8x128x10x256_S8x128x1x256_0_0_0_0
abbrev re2_1 : Rect S8x128x10x256 := Rect.unit (s := S8x128x10x256) ![0, 0, 1, 0] S8x128x1x256.size inb_S8x128x10x256_S8x128x1x256_0_0_1_0
abbrev re2_2 : Rect S8x128x10x256 := Rect.unit (s := S8x128x10x256) ![0, 0, 2, 0] S8x128x1x256.size inb_S8x128x10x256_S8x128x1x256_0_0_2_0
abbrev re2_3 : Rect S8x128x10x256 := Rect.unit (s := S8x128x10x256) ![0, 0, 3, 0] S8x128x1x256.size inb_S8x128x10x256_S8x128x1x256_0_0_3_0
abbrev re2_4 : Rect S8x128x10x256 := Rect.unit (s := S8x128x10x256) ![0, 0, 4, 0] S8x128x1x256.size inb_S8x128x10x256_S8x128x1x256_0_0_4_0
abbrev re2_5 : Rect S8x128x10x256 := Rect.unit (s := S8x128x10x256) ![0, 0, 5, 0] S8x128x1x256.size inb_S8x128x10x256_S8x128x1x256_0_0_5_0
abbrev re2_6 : Rect S8x128x10x256 := Rect.unit (s := S8x128x10x256) ![0, 0, 6, 0] S8x128x1x256.size inb_S8x128x10x256_S8x128x1x256_0_0_6_0
abbrev re2_7 : Rect S8x128x10x256 := Rect.unit (s := S8x128x10x256) ![0, 0, 7, 0] S8x128x1x256.size inb_S8x128x10x256_S8x128x1x256_0_0_7_0
abbrev re2_8 : Rect S8x128x10x256 := Rect.unit (s := S8x128x10x256) ![0, 0, 8, 0] S8x128x1x256.size inb_S8x128x10x256_S8x128x1x256_0_0_8_0
abbrev re2_9 : Rect S8x128x10x256 := Rect.unit (s := S8x128x10x256) ![0, 0, 9, 0] S8x128x1x256.size inb_S8x128x10x256_S8x128x1x256_0_0_9_0

/-- What `cc2_kernel` stores, from the gram block `x0` and the count block `x1`. -/
def pay2 (x0 : Vec F S8x128x10x256 .f32) (x1 : Vec F S8x128 .i32) : FVec F S8x128x256 .f32 :=
  k2_pay1 (k2_pay2 (View.ld x1 rc2))
    (k2_pay5 (k2_pay2 (View.ld x1 rc2))
      (k2_pay3 (View.ld x1 rc2) (View.ld x0 re2_0) (View.ld x0 re2_1) (View.ld x0 re2_2))
      (k2_pay4 (View.ld x1 rc2))
      (View.ld x0 re2_3) (View.ld x0 re2_4) (View.ld x0 re2_5) (View.ld x0 re2_6))
    (k2_pay6 (k2_pay2 (View.ld x1 rc2)))
    (View.ld x0 re2_7) (View.ld x0 re2_8) (View.ld x0 re2_9)

end Cert.KernelIdeal.Hand

end
-- ==== Proof.KI.Body0.lean ====
/-
  The kernel of n-gram order 1 (12 gram positions) on one block of 128 tokens.

  Its three windows are the gathered embeddings (block 8 x 128 x 12 x 256), the gram counts (block 8 x 128) and the
  result (block 8 x 128 x 256). At every grid point the body reads the two input blocks, which the pipeline has placed in
  its staging buffers, and overwrites the whole result block with one value, a pure function of the two input blocks
  (`pay0`); it keeps nothing between points and changes neither input. So after the body at point `t` the result's
  staging buffer holds `out0` of the blocks of the two input arrays at `t`, whatever it held before.
  Everything is stated at a parameter `V`: the contents of the core's buffers when the region is entered.
-/
import proofs.«140809_j7954279432569_2_alg».proof.Proof.Gen.KernelIdeal.Launch
import proofs.«140809_j7954279432569_2_alg».proof.Proof.Gen.KernelIdeal.Skeleton
import proofs.«140809_j7954279432569_2_alg».proof.Proof.Gen.KernelIdeal.Points
import proofs.«140809_j7954279432569_2_alg».proof.Proof.KI.Pay
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the part of its array (as the region finds it) that the point's index
    map selects, token rows `128 t … 128 t + 127`. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The embeddings' staging buffer holds the point's block when the body starts, for any proof data over `V`'s arrays whose
    body leaves that block in place: an input window is never written, and each point's block is fetched before its body. -/
theorem held0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The same for the counts' staging buffer. -/
theorem held0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-! ## What the body leaves in the result's buffer -/

/-- The result block after the body: its one store covers the block, so the block is the stored value `pay0` of the
    two input blocks. -/
def out0 (x0 : Vec F S8x128x12x256 .f32) (x1 : Vec F S8x128 .i32) : Vec F S8x128x256 .f32 :=
  View.canon [⟨ro0, pay0 x0 x1⟩]

/-- The store's rectangle is the whole block. -/
theorem cover0 (p0 : Vec F S8x128x256 .f32) (y : S8x128x256.Idx) :
    ∃ pc ∈ ([⟨ro0, p0⟩] : List (View.Piece (Elt F) S8x128x256 .f32)), y ∈ pc.1.set :=
  View.cover_of_tiled [⟨ro0, p0⟩] S8x128x256.size (by rfl) y

/-! ## The body's triple -/

set_option maxHeartbeats 4000000 in
/-- The body on whole staging buffers — the inputs' holding `x0`, `x1`, the result's anything — runs to the end without a
    fault, leaves the inputs' as they were and the result's at `out0 x0 x1`: its loads read `x0` and `x1` through fixed
    rectangles (one gram position of every token at a time), and its single store writes the whole result block. -/
theorem sound_kernel0 (c : Dev nD) (E : Set ℕ) (i : grid0.Coords) (arg1 : Memref sig .tc .vmem S8x128x12x256 .f32) (harg1 : arg1.IsWhole)
    (arg2 : Memref sig .tc .vmem S8x128 .i32) (harg2 : arg2.IsWhole) (arg3 : Memref sig .tc .vmem S8x128x256 .f32) (harg3 : arg3.IsWhole)
    (x0 : Vec F S8x128x12x256 .f32) (x1 : Vec F S8x128 .i32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0 x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  simp only [k0_part1_eq_skeleton, k0_part2_eq_skeleton, k0_part3_eq_skeleton]
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

/-! ## The pipeline's proof data -/

/-- What the pipeline of this region knows on core `c`: its three arrays as the region finds them; after the body at
    point `t` the inputs' buffers still at their blocks and the result's at `out0` of those blocks; the body uses and
    needs nothing else (the scoped rest and the generator register pass through); nothing is owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => out0 (blk0 V c 0 t) (blk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = out0 (blk0 V c 0 t) (blk0 V c 1 t) := by dsimp only [dat0]

theorem held0_0 (c : Dev nD) (t : Fin cfg0.N) (d) : (dat0 V c).before 0 t d = blk0 V c 0 t :=
  held0_0_of V (dat0 V c) (A_eq0 V c 0) (after0_0 V c) t d
theorem held0_1 (c : Dev nD) (t : Fin cfg0.N) (d) : (dat0 V c).before 1 t d = blk0 V c 1 t :=
  held0_1_of V (dat0 V c) (A_eq0 V c 1) (after0_1 V c) t d

/-! ## The body obligation at a generic point -/

/-- What the body is entered with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the two input buffers hold the point's blocks, so the body's triple applies; the rest passes
    through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [held0_0, held0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline library, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/-
  The kernel of n-gram order 2 (11 gram positions) on one block of 128 tokens.

  Its three windows are the gathered embeddings (block 8 x 128 x 11 x 256), the gram counts (block 8 x 128) and the
  result (block 8 x 128 x 256). At every grid point the body reads the two input blocks, which the pipeline has placed in
  its staging buffers, and overwrites the whole result block with one value, a pure function of the two input blocks
  (`pay1`); it keeps nothing between points and changes neither input. So after the body at point `t` the result's
  staging buffer holds `out1` of the blocks of the two input arrays at `t`, whatever it held before.
  Everything is stated at a parameter `V`: the contents of the core's buffers when the region is entered.
-/
import proofs.«140809_j7954279432569_2_alg».proof.Proof.Gen.KernelIdeal.Launch
import proofs.«140809_j7954279432569_2_alg».proof.Proof.Gen.KernelIdeal.Skeleton
import proofs.«140809_j7954279432569_2_alg».proof.Proof.Gen.KernelIdeal.Points
import proofs.«140809_j7954279432569_2_alg».proof.Proof.KI.Pay
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the part of its array (as the region finds it) that the point's index
    map selects, token rows `128 t … 128 t + 127`. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The embeddings' staging buffer holds the point's block when the body starts, for any proof data over `V`'s arrays whose
    body leaves that block in place: an input window is never written, and each point's block is fetched before its body. -/
theorem held1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The same for the counts' staging buffer. -/
theorem held1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-! ## What the body leaves in the result's buffer -/

/-- The result block after the body: its one store covers the block, so the block is the stored value `pay1` of the
    two input blocks. -/
def out1 (x0 : Vec F S8x128x11x256 .f32) (x1 : Vec F S8x128 .i32) : Vec F S8x128x256 .f32 :=
  View.canon [⟨ro1, pay1 x0 x1⟩]

/-- The store's rectangle is the whole block. -/
theorem cover1 (p0 : Vec F S8x128x256 .f32) (y : S8x128x256.Idx) :
    ∃ pc ∈ ([⟨ro1, p0⟩] : List (View.Piece (Elt F) S8x128x256 .f32)), y ∈ pc.1.set :=
  View.cover_of_tiled [⟨ro1, p0⟩] S8x128x256.size (by rfl) y

/-! ## The body's triple -/

set_option maxHeartbeats 4000000 in
/-- The body on whole staging buffers — the inputs' holding `x0`, `x1`, the result's anything — runs to the end without a
    fault, leaves the inputs' as they were and the result's at `out1 x0 x1`: its loads read `x0` and `x1` through fixed
    rectangles (one gram position of every token at a time), and its single store writes the whole result block. -/
theorem sound_kernel1 (c : Dev nD) (E : Set ℕ) (i : grid1.Coords) (arg1 : Memref sig .tc .vmem S8x128x11x256 .f32) (harg1 : arg1.IsWhole)
    (arg2 : Memref sig .tc .vmem S8x128 .i32) (harg2 : arg2.IsWhole) (arg3 : Memref sig .tc .vmem S8x128x256 .f32) (harg3 : arg3.IsWhole)
    (x0 : Vec F S8x128x11x256 .f32) (x1 : Vec F S8x128 .i32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1 x0 x1)) -∗ K ⟨⟩))
      ⊢ wp frame (wpE (defs₀ (F := F)) Variants.none c none) E (cc1_kernel i arg1 harg1 arg2 harg2 arg3 harg3) K := by
  simp only [cc1_kernel_eq_skeleton]; unfold cc1_kernel_skel
  simp only [k1_part1_eq_skeleton, k1_part2_eq_skeleton, k1_part3_eq_skeleton]
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1 _)

/-! ## The pipeline's proof data -/

/-- What the pipeline of this region knows on core `c`: its three arrays as the region finds them; after the body at
    point `t` the inputs' buffers still at their blocks and the result's at `out1` of those blocks; the body uses and
    needs nothing else (the scoped rest and the generator register pass through); nothing is owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => out1 (blk1 V c 0 t) (blk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = out1 (blk1 V c 0 t) (blk1 V c 1 t) := by dsimp only [dat1]

theorem held1_0 (c : Dev nD) (t : Fin cfg1.N) (d) : (dat1 V c).before 0 t d = blk1 V c 0 t :=
  held1_0_of V (dat1 V c) (A_eq1 V c 0) (after1_0 V c) t d
theorem held1_1 (c : Dev nD) (t : Fin cfg1.N) (d) : (dat1 V c).before 1 t d = blk1 V c 1 t :=
  held1_1_of V (dat1 V c) (A_eq1 V c 1) (after1_1 V c) t d

/-! ## The body obligation at a generic point -/

/-- What the body is entered with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the two input buffers hold the point's blocks, so the body's triple applies; the rest passes
    through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [held1_0, held1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline library, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Body2.lean ====
/-
  The kernel of n-gram order 3 (10 gram positions) on one block of 128 tokens.

  Its three windows are the gathered embeddings (block 8 x 128 x 10 x 256), the gram counts (block 8 x 128) and the
  result (block 8 x 128 x 256). At every grid point the body reads the two input blocks, which the pipeline has placed in
  its staging buffers, and overwrites the whole result block with one value, a pure function of the two input blocks
  (`pay2`); it keeps nothing between points and changes neither input. So after the body at point `t` the result's
  staging buffer holds `out2` of the blocks of the two input arrays at `t`, whatever it held before.
  Everything is stated at a parameter `V`: the contents of the core's buffers when the region is entered.
-/
import proofs.«140809_j7954279432569_2_alg».proof.Proof.Gen.KernelIdeal.Launch
import proofs.«140809_j7954279432569_2_alg».proof.Proof.Gen.KernelIdeal.Skeleton
import proofs.«140809_j7954279432569_2_alg».proof.Proof.Gen.KernelIdeal.Points
import proofs.«140809_j7954279432569_2_alg».proof.Proof.KI.Pay
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the part of its array (as the region finds it) that the point's index
    map selects, token rows `128 t … 128 t + 127`. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The embeddings' staging buffer holds the point's block when the body starts, for any proof data over `V`'s arrays whose
    body leaves that block in place: an input window is never written, and each point's block is fetched before its body. -/
theorem held2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- The same for the counts' staging buffer. -/
theorem held2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-! ## What the body leaves in the result's buffer -/

/-- The result block after the body: its one store covers the block, so the block is the stored value `pay2` of the
    two input blocks. -/
def out2 (x0 : Vec F S8x128x10x256 .f32) (x1 : Vec F S8x128 .i32) : Vec F S8x128x256 .f32 :=
  View.canon [⟨ro2, pay2 x0 x1⟩]

/-- The store's rectangle is the whole block. -/
theorem cover2 (p0 : Vec F S8x128x256 .f32) (y : S8x128x256.Idx) :
    ∃ pc ∈ ([⟨ro2, p0⟩] : List (View.Piece (Elt F) S8x128x256 .f32)), y ∈ pc.1.set :=
  View.cover_of_tiled [⟨ro2, p0⟩] S8x128x256.size (by rfl) y

/-! ## The body's triple -/

set_option maxHeartbeats 4000000 in
/-- The body on whole staging buffers — the inputs' holding `x0`, `x1`, the result's anything — runs to the end without a
    fault, leaves the inputs' as they were and the result's at `out2 x0 x1`: its loads read `x0` and `x1` through fixed
    rectangles (one gram position of every token at a time), and its single store writes the whole result block. -/
theorem sound_kernel2 (c : Dev nD) (E : Set ℕ) (i : grid2.Coords) (arg1 : Memref sig .tc .vmem S8x128x10x256 .f32) (harg1 : arg1.IsWhole)
    (arg2 : Memref sig .tc .vmem S8x128 .i32) (harg2 : arg2.IsWhole) (arg3 : Memref sig .tc .vmem S8x128x256 .f32) (harg3 : arg3.IsWhole)
    (x0 : Vec F S8x128x10x256 .f32) (x1 : Vec F S8x128 .i32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2 x0 x1)) -∗ K ⟨⟩))
      ⊢ wp frame (wpE (defs₀ (F := F)) Variants.none c none) E (cc2_kernel i arg1 harg1 arg2 harg2 arg3 harg3) K := by
  simp only [cc2_kernel_eq_skeleton]; unfold cc2_kernel_skel
  simp only [k2_part1_eq_skeleton, k2_part2_eq_skeleton]
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-! ## The pipeline's proof data -/

/-- What the pipeline of this region knows on core `c`: its three arrays as the region finds them; after the body at
    point `t` the inputs' buffers still at their blocks and the result's at `out2` of those blocks; the body uses and
    needs nothing else (the scoped rest and the generator register pass through); nothing is owed; full shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => out2 (blk2 V c 0 t) (blk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = out2 (blk2 V c 0 t) (blk2 V c 1 t) := by dsimp only [dat2]

theorem held2_0 (c : Dev nD) (t : Fin cfg2.N) (d) : (dat2 V c).before 0 t d = blk2 V c 0 t :=
  held2_0_of V (dat2 V c) (A_eq2 V c 0) (after2_0 V c) t d
theorem held2_1 (c : Dev nD) (t : Fin cfg2.N) (d) : (dat2 V c).before 1 t d = blk2 V c 1 t :=
  held2_1_of V (dat2 V c) (A_eq2 V c 1) (after2_1 V c) t d

/-! ## The body obligation at a generic point -/

/-- What the body is entered with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the two input buffers hold the point's blocks, so the body's triple applies; the rest passes
    through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [held2_0, held2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (blk2 V c 0 t) (blk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline library, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
/-
  The run of the whole program: eighty-one host operations (the index wrapping and the nine gathers), the three kernel
  regions one after the other, and the host operations after them (the concatenation, the clipped lookup of the four
  special rows, the selection between the two).

  The contents of the core's unscoped buffers are followed from the launch to the return as a fold: a stretch of host
  operations is `StableHlo.after`; a region leaves its three arrays at what its pipeline leaves — the two inputs as
  entered, the result at the write-backs of all sixteen points — and every other buffer as entered. No host operation
  and no region writes an argument of the program, so the fold read at an argument is the launch memory. The run is
  the launch theorem for a program of several regions, over eight segments.
-/
import proofs.«140809_j7954279432569_2_alg».proof.Proof.KI.Body0
import proofs.«140809_j7954279432569_2_alg».proof.Proof.KI.Body1
import proofs.«140809_j7954279432569_2_alg».proof.Proof.KI.Body2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host operations before the regions: region 0's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (each input as entered, the result's write-backs
    folded over the grid), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the core's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (each input as entered, the result's write-backs
    folded over the grid), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the core's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (each input as entered, the result's write-backs
    folded over the grid), every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the core's references. -/
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After the concatenation and the two constants, -/
abbrev W5 : Dev nD → Valuation τ sig (Elt F) := fun c => StableHlo.after hostOps3 (W4 m ρ c)
/-- the clipping of the token ids, -/
abbrev W6 : Dev nD → Valuation τ sig (Elt F) := fun c => StableHlo.after hostOps3_1 (W5 m ρ c)
/-- the lookup of the special rows and the mask of special tokens, -/
abbrev W7 : Dev nD → Valuation τ sig (Elt F) := fun c => StableHlo.after hostOps3_2 (W6 m ρ c)
/-- and the selection: the contents at the return. -/
abbrev W8 : Dev nD → Valuation τ sig (Elt F) := fun c => StableHlo.after hostOps3_3 (W7 m ρ c)

/-! ## The arguments end as launched -/

/-- The program's eleven arguments. -/
abbrev argRefs : List (Ref sig .tc) := [main_arg0, main_arg1, main_arg2, main_arg3, main_arg4, main_arg5, main_arg6, main_arg7, main_arg8, main_arg9, main_arg10]

theorem kept_before (V : Valuation τ sig (Elt F)) (b : Ref sig .tc) (hb : b ∈ argRefs) :
    StableHlo.after (hostOps0 (F := F)) V (Proc.devRef .tc b) = V (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (fun e => absurd (e ▸ hb) (by decide))))

theorem kept_concat (V : Valuation τ sig (Elt F)) (b : Ref sig .tc) (hb : b ∈ argRefs) :
    StableHlo.after (hostOps3 (F := F)) V (Proc.devRef .tc b) = V (Proc.devRef .tc b) :=
  StableHlo.after_of_forall_not_mem (b := Proc.devRef .tc b) _ _ (List.forall_iff_forall_mem.mp (by
    simp only [hostOps3, List.Forall, StableHlo.nullary_writes, StableHlo.unary_writes, StableHlo.binary_writes,
      StableHlo.ternary_writes, StableHlo.nary_writes, Finset.mem_singleton]
    repeat' apply And.intro
    all_goals exact StableHlo.devRef_ne_of_ne (fun e => absurd (e ▸ hb) (by decide))))

theorem kept_clip (V : Valuation τ sig (Elt F)) (b : Ref sig .tc) (hb : b ∈ argRefs) :
    StableHlo.after (hostOps3_1 (F := F)) V (Proc.devRef .tc b) = V (Proc.devRef .tc b) :=
  StableHlo.after_of_forall_not_mem (b := Proc.devRef .tc b) _ _ (List.forall_iff_forall_mem.mp (by
    simp only [hostOps3_1, List.Forall, StableHlo.nullary_writes, StableHlo.unary_writes, StableHlo.binary_writes,
      StableHlo.ternary_writes, StableHlo.nary_writes, Finset.mem_singleton]
    repeat' apply And.intro
    all_goals exact StableHlo.devRef_ne_of_ne (fun e => absurd (e ▸ hb) (by decide))))

theorem kept_special (V : Valuation τ sig (Elt F)) (b : Ref sig .tc) (hb : b ∈ argRefs) :
    StableHlo.after (hostOps3_2 (F := F)) V (Proc.devRef .tc b) = V (Proc.devRef .tc b) :=
  StableHlo.after_of_forall_not_mem (b := Proc.devRef .tc b) _ _ (List.forall_iff_forall_mem.mp (by
    simp only [hostOps3_2, List.Forall, StableHlo.nullary_writes, StableHlo.unary_writes, StableHlo.binary_writes,
      StableHlo.ternary_writes, StableHlo.nary_writes, Finset.mem_singleton]
    repeat' apply And.intro
    all_goals exact StableHlo.devRef_ne_of_ne (fun e => absurd (e ▸ hb) (by decide))))

theorem kept_select (V : Valuation τ sig (Elt F)) (b : Ref sig .tc) (hb : b ∈ argRefs) :
    StableHlo.after (hostOps3_3 (F := F)) V (Proc.devRef .tc b) = V (Proc.devRef .tc b) :=
  StableHlo.after_of_forall_not_mem (b := Proc.devRef .tc b) _ _ (List.forall_iff_forall_mem.mp (by
    simp only [hostOps3_3, List.Forall, StableHlo.nullary_writes, StableHlo.unary_writes, StableHlo.binary_writes,
      StableHlo.ternary_writes, StableHlo.nary_writes, Finset.mem_singleton]
    repeat' apply And.intro
    all_goals exact StableHlo.devRef_ne_of_ne (fun e => absurd (e ▸ hb) (by decide))))

/-- No region's array is an argument. -/
theorem arr_not_arg0 : ∀ w : Fin cfg0.W, Pipeline.arrRef spec0 w ∉ argRefs := by decide
theorem arr_not_arg1 : ∀ w : Fin cfg1.W, Pipeline.arrRef spec1 w ∉ argRefs := by decide
theorem arr_not_arg2 : ∀ w : Fin cfg2.W, Pipeline.arrRef spec2 w ∉ argRefs := by decide

/-- An argument's buffer at the return holds what it held at launch. -/
theorem W8_arg (c : Dev nD) (b : Ref sig .tc) (hb : b ∈ argRefs) : W8 m ρ c (Proc.devRef .tc b) = m ((c : Thread nD τ).loc b) :=
  calc W8 m ρ c (Proc.devRef .tc b)
    _ = W7 m ρ c (Proc.devRef .tc b) := kept_select _ b hb
    _ = W6 m ρ c (Proc.devRef .tc b) := kept_special _ b hb
    _ = W5 m ρ c (Proc.devRef .tc b) := kept_clip _ b hb
    _ = W4 m ρ c (Proc.devRef .tc b) := kept_concat _ b hb
    _ = W3 m ρ c (Proc.devRef .tc b) := W4_of_ne m ρ c b fun w e => arr_not_arg2 w (e ▸ hb)
    _ = W2 m ρ c (Proc.devRef .tc b) := W3_of_ne m ρ c b fun w e => arr_not_arg1 w (e ▸ hb)
    _ = W1 m ρ c (Proc.devRef .tc b) := W2_of_ne m ρ c b fun w e => arr_not_arg0 w (e ▸ hb)
    _ = W0 m ρ c (Proc.devRef .tc b) := kept_before _ b hb
    _ = m ((c : Thread nD τ).loc b) := rfl

/-! ## The proof data of the three pipelines and the thread state -/

/-- No pipeline has a prefetched table. -/
abbrev adm : (p : Fin 3) → (pcfgs (F := F) p).Adm := fun p => (cfgs p).toPCfg_adm
/-- Each pipeline's proof data at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps3_1_fresh : (hostOps3_1 : List (HloOp τ sig (Elt F))).Forall fun op => op.fresh = ∅ := by
  simp only [List.Forall]; repeat' constructor
theorem hostOps3_2_fresh : (hostOps3_2 : List (HloOp τ sig (Elt F))).Forall fun op => op.fresh = ∅ := by
  simp only [List.Forall]; repeat' constructor
theorem hostOps3_3_fresh : (hostOps3_3 : List (HloOp τ sig (Elt F))).Forall fun op => op.fresh = ∅ := by
  simp only [List.Forall]; repeat' constructor
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the return's contents, the generator register. -/
abbrev Tₙ (c : Dev nD) : sProp 𝕄 := iprop(StableHlo.held (c : Thread nD τ) (Pipeline.ucRefs τ sig) (W8 m ρ c) ∗ ∃ r, prngReg c r)

/-! ## The regions as segments -/

-- a library lemma stated over the pinned configuration unifies with the printed one only when unification may unfold
-- plain definitions in a metavariable's type
set_option backward.isDefEq.respectTransparency.types false in
/-- Region 0 as a segment: entered with every unscoped buffer at `W1`, left with them at `W2`. Its three arrays are
    taken out of the unscoped buffers at entry and put back at exit with the result's at what the write-backs left; the
    generator register goes into the body's invariant and comes back; nothing is owed, and the kernel has no semaphore
    of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 as a segment: entered with every unscoped buffer at `W2`, left with them at `W3`. Its three arrays are
    taken out of the unscoped buffers at entry and put back at exit with the result's at what the write-backs left; the
    generator register goes into the body's invariant and comes back; nothing is owed, and the kernel has no semaphore
    of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 as a segment: entered with every unscoped buffer at `W3`, left with them at `W4`. Its three arrays are
    taken out of the unscoped buffers at entry and put back at exit with the result's at what the write-backs left; the
    generator register goes into the body's invariant and comes back; nothing is owed, and the kernel has no semaphore
    of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The eight segments in program order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)),
    .host (hseg hostOps3_1 hostOps3_1_sub hostOps3_1_fresh (W5 m ρ)),
    .host (hseg hostOps3_2 hostOps3_2_sub hostOps3_2_fresh (W6 m ρ)),
    .host (hseg hostOps3_3 hostOps3_3_sub hostOps3_3_fresh (W7 m ρ)) ]
/-- The program is the run of its segments. -/
theorem main_run (c : Dev nD) : main (F := F) c = Pipeline.Seg.run (segs m ρ) := (main_chain c).trans (by chain_rfl)

set_option backward.isDefEq.respectTransparency.types false in
/-- Every weakly fair execution of the program from `m` (all counters zero) terminates without a fault, and in every
    final state each unscoped buffer of each core holds what the fold `W8` says. -/
theorem run_fold : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = W8 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W8 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c b hb => h c _ (mem_uc b hb))

/-- The frame: the program runs to the end, faults nowhere, and its eleven arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c main_arg0 (by decide)).trans (W8_arg m ρ c main_arg0 (by decide)),
    (h c main_arg1 (by decide)).trans (W8_arg m ρ c main_arg1 (by decide)),
    (h c main_arg2 (by decide)).trans (W8_arg m ρ c main_arg2 (by decide)),
    (h c main_arg3 (by decide)).trans (W8_arg m ρ c main_arg3 (by decide)),
    (h c main_arg4 (by decide)).trans (W8_arg m ρ c main_arg4 (by decide)),
    (h c main_arg5 (by decide)).trans (W8_arg m ρ c main_arg5 (by decide)),
    (h c main_arg6 (by decide)).trans (W8_arg m ρ c main_arg6 (by decide)),
    (h c main_arg7 (by decide)).trans (W8_arg m ρ c main_arg7 (by decide)),
    (h c main_arg8 (by decide)).trans (W8_arg m ρ c main_arg8 (by decide)),
    (h c main_arg9 (by decide)).trans (W8_arg m ρ c main_arg9 (by decide)),
    (h c main_arg10 (by decide)).trans (W8_arg m ρ c main_arg10 (by decide))⟩)
    (run_fold m ρ)

end Cert.KernelIdeal.Hand

end
-- ==== Proof.KI.Layout.lean ====
/-
  The layout operations of the kernel bodies, read at one index of literal shape.

  A body views each loaded gram slice `[8, 128, 1, 256]` as `[8, 128, 256]`, views a per-token value `[8, 128]` as a
  column `[8, 128, 1]` and broadcasts the column along the embedding axis; and it loads gram position `o` of a gram
  block `[8, 128, L, 256]` through the unit-stride rectangle at offsets `(0, 0, o, 0)`. Each of these reads ONE entry
  of its operand; the lemmas name it by coordinates.
-/
import Idealize.ShloMosaic.Lib.ValueIdx
import Idealize.ShloMosaic.Lib.Pipeline.Value
import Idealize.ShloMosaic.Lib.Pipeline.FrameBody

noncomputable section

namespace Cert.KernelIdeal.Hand

open Idealize.ShloMosaic Idealize.ShloMosaic.ValueIdx

variable {α : Type}

/-- A gram slice `[8, 128, 1, 256]` viewed `[8, 128, 256]` reads `(b, r, 0, d)` at `(b, r, d)`: both have row-major
    position `(128 b + r) · 256 + d`. -/
theorem sliceCast_apply (v : (⟨4, ![8, 128, 1, 256]⟩ : Shape).Idx → α)
    (h : (⟨4, ![8, 128, 1, 256]⟩ : Shape).ShapeCasts ⟨3, ![8, 128, 256]⟩) (b : Fin 8) (r : Fin 128) (d : Fin 256) :
    shapeCast ⟨3, ![8, 128, 256]⟩ v h (ix3 b r d) = v (ix4 b r 0 d) := by
  refine shapeCast_apply v h (ix3 b r d) (ix4 b r 0 d) ?_
  rw [Shape.rowMajor_val_four, Shape.rowMajor_val_three]
  show ((b.val * 128 + r.val) * 1 + 0) * 256 + d.val = (b.val * 128 + r.val) * 256 + d.val
  omega

/-- A per-token value `[8, 128]` viewed as a column `[8, 128, 1]` reads `(b, r)` at `(b, r, z)`. -/
theorem colCast_apply (v : (⟨2, ![8, 128]⟩ : Shape).Idx → α)
    (h : (⟨2, ![8, 128]⟩ : Shape).ShapeCasts ⟨3, ![8, 128, 1]⟩) (b : Fin 8) (r : Fin 128) (z : Fin 1) :
    shapeCast ⟨3, ![8, 128, 1]⟩ v h (ix3 b r z) = v (ix2 b r) := by
  refine shapeCast_apply v h (ix3 b r z) (ix2 b r) ?_
  rw [Shape.rowMajor_val_two, Shape.rowMajor_val_three]
  show b.val * 128 + r.val = (b.val * 128 + r.val) * 1 + z.val
  have := z.isLt
  omega

/-- A column `[8, 128, 1]` broadcast along the embedding axis reads `(b, r, 0)` at `(b, r, d)`. -/
theorem colBroadcast_apply (v : (⟨3, ![8, 128, 1]⟩ : Shape).Idx → α)
    (h : (⟨3, ![8, 128, 1]⟩ : Shape).Broadcasts ⟨3, ![8, 128, 256]⟩) (b : Fin 8) (r : Fin 128) (d : Fin 256) :
    broadcastTo ⟨3, ![8, 128, 256]⟩ v h (ix3 b r d) = v (ix3 b r 0) := by
  refine broadcastTo_apply v h (ix3 b r d) (ix3 b r 0) fun a => ?_
  match a with
  | ⟨0, _⟩ => rfl
  | ⟨1, _⟩ => rfl
  | ⟨2, _⟩ => rfl

/-- A load of gram position `o` of a gram block `[8, 128, L, 256]` (the unit-stride rectangle of sizes
    `[8, 128, 1, 256]` at offsets `(0, 0, o, 0)`) reads the block at `(b, r, o, d)`. -/
theorem ld_gram {Val : EltTy → Type} {e : EltTy} {L : ℕ} (x : (⟨4, ![8, 128, L, 256]⟩ : Shape).Idx → Val e) (o : ℕ) (ho : o < L)
    (inb : ∀ a, (![0, 0, o, 0] : Fin 4 → ℕ) a + (![8, 128, 1, 256] : Fin 4 → ℕ) a ≤ (⟨4, ![8, 128, L, 256]⟩ : Shape).size a)
    (b : Fin 8) (r : Fin 128) (z : Fin 1) (d : Fin 256) :
    View.ld x (Rect.unit (s := ⟨4, ![8, 128, L, 256]⟩) ![0, 0, o, 0] ![8, 128, 1, 256] inb) (ix4 b r z d)
      = x (ix4 b r ⟨o, ho⟩ d) := by
  refine congrArg x (funext fun a => Fin.ext ?_)
  have := z.isLt
  match a with
  | ⟨0, _⟩ => show 0 + 1 * b.val = b.val; omega
  | ⟨1, _⟩ => show 0 + 1 * r.val = r.val; omega
  | ⟨2, _⟩ => show o + 1 * z.val = o; omega
  | ⟨3, _⟩ => show 0 + 1 * d.val = d.val; omega

/-- A load of the whole count block `[8, 128]` reads the block. -/
theorem ld_count {Val : EltTy → Type} {e : EltTy} (x : (⟨2, ![8, 128]⟩ : Shape).Idx → Val e)
    (inb : ∀ a, (![0, 0] : Fin 2 → ℕ) a + (![8, 128] : Fin 2 → ℕ) a ≤ (⟨2, ![8, 128]⟩ : Shape).size a)
    (b : Fin 8) (r : Fin 128) :
    View.ld x (Rect.unit (s := ⟨2, ![8, 128]⟩) ![0, 0] ![8, 128] inb) (ix2 b r) = x (ix2 b r) := by
  refine congrArg x (funext fun a => Fin.ext ?_)
  match a with
  | ⟨0, _⟩ => show 0 + 1 * b.val = b.val; omega
  | ⟨1, _⟩ => show 0 + 1 * r.val = r.val; omega

end Cert.KernelIdeal.Hand

end
-- ==== Proof.Spec.lean ====
/-
  The mathematics the two programs share, stated once over literal shapes and importing neither program.

  For one n-gram order with `L` gram positions: `e` holds, for every token `(b, s)`, position `l` and
  embedding coordinate `d`, the embedding of the token's `l`-th gram, and `c` the token's number of valid
  grams. Position `l` counts when `l < c` (as signed integers); the token's embedding for this order is the
  sum of the counted positions' embeddings divided by `c`, as extended reals.
-/
import Idealize.ShloMosaic.PureOps.Ideal
import Idealize.ShloMosaic.Lib.ValueIdx

noncomputable section

open scoped BigOperators

namespace Cert.NGram

open Idealize.ShloMosaic Idealize.ShloMosaic.ValueIdx

/-- The weight of gram position `l` for a word with `c` valid grams: one when `l < c`, zero otherwise. -/
def keep (l : ℕ) (c : BitVec 32) : EReal := if (l : ℤ) < c.toInt then 1 else 0

/-- The masked mean of `L` values: the counted ones summed, divided by the count. -/
def meanAt {L : ℕ} (e : Fin L → EReal) (c : BitVec 32) : EReal :=
  Ideal.div (∑ l : Fin L, e l * keep l.val c) ((c.toInt : ℝ) : EReal)

/-- The masked mean over the gram axis of an array of `R` token rows: entry `(b, r, d)` is the masked mean of
    `e (b, r, ·, d)` with the count `c (b, r)`. At `R = 2048` this is the whole order's result, at `R = 128` one
    block's. -/
def orderMean (R L : ℕ) (e : (⟨4, ![8, R, L, 256]⟩ : Shape).Idx → EReal) (c : (⟨2, ![8, R]⟩ : Shape).Idx → BitVec 32) :
    (⟨3, ![8, R, 256]⟩ : Shape).Idx → EReal :=
  fun i => meanAt (fun l : Fin L => e (ix4 (i 0) (i 1) l (i 2))) (c (ix2 (i 0) (i 1)))

theorem orderMean_apply (R L : ℕ) (e : (⟨4, ![8, R, L, 256]⟩ : Shape).Idx → EReal) (c : (⟨2, ![8, R]⟩ : Shape).Idx → BitVec 32)
    (b : Fin 8) (r : Fin R) (d : Fin 256) :
    orderMean R L e c (ix3 b r d) = meanAt (fun l : Fin L => e (ix4 b r l d)) (c (ix2 b r)) := rfl

end Cert.NGram

end
-- ==== Proof.KI.Weight.lean ====
/-
  The weight the kernel gives a gram position, as the specification's `keep`.

  For position `l` the kernel compares the token's count `c`, converted to a float, with the float literal `l`:
  `c > l` as extended reals, the one-bit answer widened to 32 bits and converted back to a float. The literals
  `0.0 … 11.0` denote the reals `0 … 11`, a real comparison of two integers is the integers' comparison, and the bit
  `1` converts to `1`, the bit `0` to `0`: so the weight is `1` when `l < c` and `0` otherwise.
-/
import proofs.«140809_j7954279432569_2_alg».proof.Proof.Spec
import Idealize.ShloMosaic.PureOps.Ideal.Laws

noncomputable section

namespace Cert.KernelIdeal.Hand

open Idealize.ShloMosaic

/-! ## The float literals `0.0 … 11.0` -/

theorem ofBits_pos0 : Ideal.ofBits .f32 0x00000000#32 = (((0 : ℕ) : ℝ) : EReal) := by
  simp [Ideal.ofBits, Ideal.ieee, -EReal.coe_mul]
theorem ofBits_pos1 : Ideal.ofBits .f32 0x3F800000#32 = (((1 : ℕ) : ℝ) : EReal) := by
  simp [Ideal.ofBits, Ideal.ieee, -EReal.coe_mul]; norm_num
theorem ofBits_pos2 : Ideal.ofBits .f32 0x40000000#32 = (((2 : ℕ) : ℝ) : EReal) := by
  simp [Ideal.ofBits, Ideal.ieee, -EReal.coe_mul]; norm_num
theorem ofBits_pos3 : Ideal.ofBits .f32 0x40400000#32 = (((3 : ℕ) : ℝ) : EReal) := by
  simp [Ideal.ofBits, Ideal.ieee, -EReal.coe_mul]; norm_num
theorem ofBits_pos4 : Ideal.ofBits .f32 0x40800000#32 = (((4 : ℕ) : ℝ) : EReal) := by
  simp [Ideal.ofBits, Ideal.ieee, -EReal.coe_mul]; norm_num
theorem ofBits_pos5 : Ideal.ofBits .f32 0x40A00000#32 = (((5 : ℕ) : ℝ) : EReal) := by
  simp [Ideal.ofBits, Ideal.ieee, -EReal.coe_mul]; norm_num
theorem ofBits_pos6 : Ideal.ofBits .f32 0x40C00000#32 = (((6 : ℕ) : ℝ) : EReal) := by
  simp [Ideal.ofBits, Ideal.ieee, -EReal.coe_mul]; norm_num
theorem ofBits_pos7 : Ideal.ofBits .f32 0x40E00000#32 = (((7 : ℕ) : ℝ) : EReal) := by
  simp [Ideal.ofBits, Ideal.ieee, -EReal.coe_mul]; norm_num
theorem ofBits_pos8 : Ideal.ofBits .f32 0x41000000#32 = (((8 : ℕ) : ℝ) : EReal) := by
  simp [Ideal.ofBits, Ideal.ieee, -EReal.coe_mul]; norm_num
theorem ofBits_pos9 : Ideal.ofBits .f32 0x41100000#32 = (((9 : ℕ) : ℝ) : EReal) := by
  simp [Ideal.ofBits, Ideal.ieee, -EReal.coe_mul]; norm_num
theorem ofBits_pos10 : Ideal.ofBits .f32 0x41200000#32 = (((10 : ℕ) : ℝ) : EReal) := by
  simp [Ideal.ofBits, Ideal.ieee, -EReal.coe_mul]; norm_num
theorem ofBits_pos11 : Ideal.ofBits .f32 0x41300000#32 = (((11 : ℕ) : ℝ) : EReal) := by
  simp [Ideal.ofBits, Ideal.ieee, -EReal.coe_mul]; norm_num

/-! ## The weight -/

/-- The weight computed from the float count `x` for a position whose float literal is `y`: the bit `y < x`, widened
    to 32 bits, as a float. -/
def weight (x y : EReal) : EReal := ((((Ideal.cmp .ogt x y).setWidth 32).toInt : ℝ) : EReal)

/-- The vector operations `sitofp (extui (cmpf ogt x y))` at one element are the weight. -/
theorem weight_def (x y : Ideal .f32) :
    FloatOps.sitofp (F := Ideal) .f32 (BitVec.setWidth 32 (FloatOps.cmpf (F := Ideal) .ogt x y)) = weight x y := rfl

/-- From an integer count and an integer position the weight is the specification's: `1` when `l < c`, else `0`. -/
theorem weight_eq_keep (c : BitVec 32) (l : ℕ) :
    weight (((c.toInt : ℝ)) : EReal) (((l : ℝ)) : EReal) = Cert.NGram.keep l c := by
  have hlt : (((l : ℝ) : EReal) < ((c.toInt : ℝ) : EReal)) ↔ (l : ℤ) < c.toInt := by
    rw [EReal.coe_lt_coe_iff]; exact_mod_cast Iff.rfl
  have h1 : ((BitVec.ofBool true).setWidth 32).toInt = 1 := by decide
  have h0 : ((BitVec.ofBool false).setWidth 32).toInt = 0 := by decide
  unfold weight Cert.NGram.keep Ideal.cmp
  by_cases h : (l : ℤ) < c.toInt
  · rw [if_pos h]
    simp only [decide_eq_true (hlt.mpr h), h1]
    simp
  · rw [if_neg h]
    simp only [decide_eq_false (fun h' => h (hlt.mp h')), h0]
    simp

end Cert.KernelIdeal.Hand

end
-- ==== Proof.KI.Payloads.lean ====
/-
  The kernel bodies' payloads read at one index.

  Every payload is a chain of pointwise operations on `[8, 128, 256]` values built from gram slices, columns of
  weights and a running sum. At the index `(b, r, d)` each gram slice contributes its entry `(b, r, 0, d)`, each
  column the weight of token `(b, r)`, and the pointwise operations are the extended reals' `+`, `*` and the ideal
  division: the payload is the running sum it was handed plus one product per gram position it adds, and the last
  payload of a body divides by the token's float count.

  The three bodies share their first two parts word for word (the same payloads under other names); they differ in
  how many positions the last part adds before dividing.
-/
import proofs.«140809_j7954279432569_2_alg».proof.Proof.Gen.KernelIdeal.Skeleton
import proofs.«140809_j7954279432569_2_alg».proof.Proof.KI.Layout
import proofs.«140809_j7954279432569_2_alg».proof.Proof.KI.Weight

noncomputable section

namespace Cert.KernelIdeal.Hand

open Idealize.ShloMosaic Idealize.ShloMosaic.ValueIdx
open Cert.KernelIdeal Cert.KernelIdeal.Gen

/-! ## Order 12 -/

/-- The float count of token `(b, r)`: its integer count, read signed, as a real. -/
theorem k0_pay2_apply (v0 : Vec Ideal S8x128 .i32) (b : Fin 8) (r : Fin 128) :
    k0_pay2 (F := Ideal) v0 (ix2 b r) = (((v0 (ix2 b r)).toInt : ℝ) : EReal) := by
  unfold k0_pay2
  simp only [shapeCast_self]
  rfl

/-- Positions 0, 1, 2 added to zero. -/
theorem k0_pay3_apply (v0 : Vec Ideal S8x128 .i32) (v9 v19 v29 : Vec Ideal S8x128x1x256 .f32) (b : Fin 8) (r : Fin 128) (d : Fin 256) :
    k0_pay3 (F := Ideal) v0 v9 v19 v29 (ix3 b r d)
      = Ideal.ofBits .f32 0x00000000#32
        + v9 (ix4 b r 0 d) * weight (k0_pay2 (F := Ideal) v0 (ix2 b r)) (Ideal.ofBits .f32 0x00000000#32)
        + v19 (ix4 b r 0 d) * weight (k0_pay2 (F := Ideal) v0 (ix2 b r)) (Ideal.ofBits .f32 0x3F800000#32)
        + v29 (ix4 b r 0 d) * weight (k0_pay2 (F := Ideal) v0 (ix2 b r)) (Ideal.ofBits .f32 0x40000000#32) := by
  unfold k0_pay3
  simp only [addf_apply, mulf_apply, divf_apply, sliceCast_apply, colBroadcast_apply, colCast_apply, sitofp_apply, extui_apply,
    cmpf_apply, broadcast_apply, Ideal.ofBits_def, weight_def]

/-- The weight column of position 3. -/
theorem k0_pay4_apply (v0 : Vec Ideal S8x128 .i32) (b : Fin 8) (r : Fin 128) (z : Fin 1) :
    k0_pay4 (F := Ideal) v0 (ix3 b r z) = weight (k0_pay2 (F := Ideal) v0 (ix2 b r)) (Ideal.ofBits .f32 0x40400000#32) := by
  unfold k0_pay4
  simp only [addf_apply, mulf_apply, divf_apply, sliceCast_apply, colBroadcast_apply, colCast_apply, sitofp_apply, extui_apply,
    cmpf_apply, broadcast_apply, Ideal.ofBits_def, weight_def]

/-- Position 3 (with the weight column handed over) and positions 4, 5, 6 added to the running sum. -/
theorem k0_pay5_apply (v2 : FVec Ideal S8x128 .f32) (v33 : FVec Ideal S8x128x256 .f32) (v38 : FVec Ideal S8x128x1 .f32)
    (v39 v49 v59 v69 : Vec Ideal S8x128x1x256 .f32) (b : Fin 8) (r : Fin 128) (d : Fin 256) :
    k0_pay5 (F := Ideal) v2 v33 v38 v39 v49 v59 v69 (ix3 b r d)
      = v33 (ix3 b r d)
        + v39 (ix4 b r 0 d) * v38 (ix3 b r 0)
        + v49 (ix4 b r 0 d) * weight (v2 (ix2 b r)) (Ideal.ofBits .f32 0x40800000#32)
        + v59 (ix4 b r 0 d) * weight (v2 (ix2 b r)) (Ideal.ofBits .f32 0x40A00000#32)
        + v69 (ix4 b r 0 d) * weight (v2 (ix2 b r)) (Ideal.ofBits .f32 0x40C00000#32) := by
  unfold k0_pay5
  simp only [addf_apply, mulf_apply, divf_apply, sliceCast_apply, colBroadcast_apply, colCast_apply, sitofp_apply, extui_apply,
    cmpf_apply, broadcast_apply, Ideal.ofBits_def, weight_def]

/-- The weight column of position 7. -/
theorem k0_pay6_apply (v2 : FVec Ideal S8x128 .f32) (b : Fin 8) (r : Fin 128) (z : Fin 1) :
    k0_pay6 (F := Ideal) v2 (ix3 b r z) = weight (v2 (ix2 b r)) (Ideal.ofBits .f32 0x40E00000#32) := by
  unfold k0_pay6
  simp only [addf_apply, mulf_apply, divf_apply, sliceCast_apply, colBroadcast_apply, colCast_apply, sitofp_apply, extui_apply,
    cmpf_apply, broadcast_apply, Ideal.ofBits_def, weight_def]

/-- Position 7 (with the weight column handed over) and positions 8, 9, 10 added to the running sum. -/
theorem k0_pay7_apply (v2 : FVec Ideal S8x128 .f32) (v73 : FVec Ideal S8x128x256 .f32) (v78 : FVec Ideal S8x128x1 .f32)
    (v79 v89 v99 v109 : Vec Ideal S8x128x1x256 .f32) (b : Fin 8) (r : Fin 128) (d : Fin 256) :
    k0_pay7 (F := Ideal) v2 v73 v78 v79 v89 v99 v109 (ix3 b r d)
      = v73 (ix3 b r d)
        + v79 (ix4 b r 0 d) * v78 (ix3 b r 0)
        + v89 (ix4 b r 0 d) * weight (v2 (ix2 b r)) (Ideal.ofBits .f32 0x41000000#32)
        + v99 (ix4 b r 0 d) * weight (v2 (ix2 b r)) (Ideal.ofBits .f32 0x41100000#32)
        + v109 (ix4 b r 0 d) * weight (v2 (ix2 b r)) (Ideal.ofBits .f32 0x41200000#32) := by
  unfold k0_pay7
  simp only [addf_apply, mulf_apply, divf_apply, sliceCast_apply, colBroadcast_apply, colCast_apply, sitofp_apply, extui_apply,
    cmpf_apply, broadcast_apply, Ideal.ofBits_def, weight_def]

/-- The weight column of position 11. -/
theorem k0_pay8_apply (v2 : FVec Ideal S8x128 .f32) (b : Fin 8) (r : Fin 128) (z : Fin 1) :
    k0_pay8 (F := Ideal) v2 (ix3 b r z) = weight (v2 (ix2 b r)) (Ideal.ofBits .f32 0x41300000#32) := by
  unfold k0_pay8
  simp only [addf_apply, mulf_apply, divf_apply, sliceCast_apply, colBroadcast_apply, colCast_apply, sitofp_apply, extui_apply,
    cmpf_apply, broadcast_apply, Ideal.ofBits_def, weight_def]

/-- Position 11 added, and the sum divided by the float count. -/
theorem k0_pay1_apply (v2 : FVec Ideal S8x128 .f32) (v113 : FVec Ideal S8x128x256 .f32) (v118 : FVec Ideal S8x128x1 .f32)
    (v119 : Vec Ideal S8x128x1x256 .f32) (b : Fin 8) (r : Fin 128) (d : Fin 256) :
    k0_pay1 (F := Ideal) v2 v113 v118 v119 (ix3 b r d)
      = Ideal.div (v113 (ix3 b r d) + v119 (ix4 b r 0 d) * v118 (ix3 b r 0)) (v2 (ix2 b r)) := by
  unfold k0_pay1
  simp only [addf_apply, mulf_apply, divf_apply, sliceCast_apply, colBroadcast_apply, colCast_apply, sitofp_apply, extui_apply,
    cmpf_apply, broadcast_apply, Ideal.ofBits_def, weight_def]

/-! ## Order 11: the first two parts are order 12's; the last adds positions 7 to 10 and divides -/

variable {F : FTy → Type} [FloatOps F]

theorem k1_pay1_eq : @k1_pay1 F _ = @k0_pay2 F _ := rfl
theorem k1_pay2_eq : @k1_pay2 F _ = @k0_pay3 F _ := rfl
theorem k1_pay3_eq : @k1_pay3 F _ = @k0_pay4 F _ := rfl
theorem k1_pay4_eq : @k1_pay4 F _ = @k0_pay5 F _ := rfl
theorem k1_pay5_eq : @k1_pay5 F _ = @k0_pay6 F _ := rfl

/-- Position 7 (with the weight column handed over) and positions 8, 9, 10 added, and the sum divided by the float
    count. -/
theorem k1_pay6_apply (v2 : FVec Ideal S8x128 .f32) (v73 : FVec Ideal S8x128x256 .f32) (v78 : FVec Ideal S8x128x1 .f32)
    (v79 v89 v99 v109 : Vec Ideal S8x128x1x256 .f32) (b : Fin 8) (r : Fin 128) (d : Fin 256) :
    k1_pay6 (F := Ideal) v2 v73 v78 v79 v89 v99 v109 (ix3 b r d)
      = Ideal.div (v73 (ix3 b r d)
        + v79 (ix4 b r 0 d) * v78 (ix3 b r 0)
        + v89 (ix4 b r 0 d) * weight (v2 (ix2 b r)) (Ideal.ofBits .f32 0x41000000#32)
        + v99 (ix4 b r 0 d) * weight (v2 (ix2 b r)) (Ideal.ofBits .f32 0x41100000#32)
        + v109 (ix4 b r 0 d) * weight (v2 (ix2 b r)) (Ideal.ofBits .f32 0x41200000#32)) (v2 (ix2 b r)) := by
  unfold k1_pay6
  simp only [addf_apply, mulf_apply, divf_apply, sliceCast_apply, colBroadcast_apply, colCast_apply, sitofp_apply, extui_apply,
    cmpf_apply, broadcast_apply, Ideal.ofBits_def, weight_def]

/-! ## Order 10: the first two parts are order 12's; the last adds positions 7 to 9 and divides -/

theorem k2_pay2_eq : @k2_pay2 F _ = @k0_pay2 F _ := rfl
theorem k2_pay3_eq : @k2_pay3 F _ = @k0_pay3 F _ := rfl
theorem k2_pay4_eq : @k2_pay4 F _ = @k0_pay4 F _ := rfl
theorem k2_pay5_eq : @k2_pay5 F _ = @k0_pay5 F _ := rfl
theorem k2_pay6_eq : @k2_pay6 F _ = @k0_pay6 F _ := rfl

/-- Position 7 (with the weight column handed over) and positions 8, 9 added, and the sum divided by the float count. -/
theorem k2_pay1_apply (v2 : FVec Ideal S8x128 .f32) (v73 : FVec Ideal S8x128x256 .f32) (v78 : FVec Ideal S8x128x1 .f32)
    (v79 v89 v99 : Vec Ideal S8x128x1x256 .f32) (b : Fin 8) (r : Fin 128) (d : Fin 256) :
    k2_pay1 (F := Ideal) v2 v73 v78 v79 v89 v99 (ix3 b r d)
      = Ideal.div (v73 (ix3 b r d)
        + v79 (ix4 b r 0 d) * v78 (ix3 b r 0)
        + v89 (ix4 b r 0 d) * weight (v2 (ix2 b r)) (Ideal.ofBits .f32 0x41000000#32)
        + v99 (ix4 b r 0 d) * weight (v2 (ix2 b r)) (Ideal.ofBits .f32 0x41100000#32)) (v2 (ix2 b r)) := by
  unfold k2_pay1
  simp only [addf_apply, mulf_apply, divf_apply, sliceCast_apply, colBroadcast_apply, colCast_apply, sitofp_apply, extui_apply,
    cmpf_apply, broadcast_apply, Ideal.ofBits_def, weight_def]

end Cert.KernelIdeal.Hand

end
-- ==== Proof.KI.BlockMean.lean ====
/-
  What each kernel stores into its output block is the masked mean of its input blocks.

  At the index `(b, r, d)` the composed payloads are: zero, plus for every gram position `l` in turn the block's
  entry `(b, r, l, d)` times the weight of `l` for token `(b, r)`, the whole divided by the token's float count.
  The weight is the specification's `keep l c`, and the running sum from zero is the sum over the positions, so
  this is `meanAt` of the token's entries and count.
-/
import proofs.«140809_j7954279432569_2_alg».proof.Proof.KI.Pay
import proofs.«140809_j7954279432569_2_alg».proof.Proof.KI.Payloads
import proofs.«140809_j7954279432569_2_alg».proof.Proof.Spec

noncomputable section

open scoped BigOperators

namespace Cert.KernelIdeal.Hand

open Idealize.ShloMosaic Idealize.ShloMosaic.ValueIdx
open Cert.KernelIdeal Cert.KernelIdeal.Gen

/-! ## The weight of each position, from the integer count -/

theorem weight_pos0 (c : BitVec 32) :
    weight (((c.toInt : ℝ)) : EReal) (Ideal.ofBits .f32 0x00000000#32) = Cert.NGram.keep 0 c := by
  rw [ofBits_pos0]; exact weight_eq_keep c 0
theorem weight_pos1 (c : BitVec 32) :
    weight (((c.toInt : ℝ)) : EReal) (Ideal.ofBits .f32 0x3F800000#32) = Cert.NGram.keep 1 c := by
  rw [ofBits_pos1]; exact weight_eq_keep c 1
theorem weight_pos2 (c : BitVec 32) :
    weight (((c.toInt : ℝ)) : EReal) (Ideal.ofBits .f32 0x40000000#32) = Cert.NGram.keep 2 c := by
  rw [ofBits_pos2]; exact weight_eq_keep c 2
theorem weight_pos3 (c : BitVec 32) :
    weight (((c.toInt : ℝ)) : EReal) (Ideal.ofBits .f32 0x40400000#32) = Cert.NGram.keep 3 c := by
  rw [ofBits_pos3]; exact weight_eq_keep c 3
theorem weight_pos4 (c : BitVec 32) :
    weight (((c.toInt : ℝ)) : EReal) (Ideal.ofBits .f32 0x40800000#32) = Cert.NGram.keep 4 c := by
  rw [ofBits_pos4]; exact weight_eq_keep c 4
theorem weight_pos5 (c : BitVec 32) :
    weight (((c.toInt : ℝ)) : EReal) (Ideal.ofBits .f32 0x40A00000#32) = Cert.NGram.keep 5 c := by
  rw [ofBits_pos5]; exact weight_eq_keep c 5
theorem weight_pos6 (c : BitVec 32) :
    weight (((c.toInt : ℝ)) : EReal) (Ideal.ofBits .f32 0x40C00000#32) = Cert.NGram.keep 6 c := by
  rw [ofBits_pos6]; exact weight_eq_keep c 6
theorem weight_pos7 (c : BitVec 32) :
    weight (((c.toInt : ℝ)) : EReal) (Ideal.ofBits .f32 0x40E00000#32) = Cert.NGram.keep 7 c := by
  rw [ofBits_pos7]; exact weight_eq_keep c 7
theorem weight_pos8 (c : BitVec 32) :
    weight (((c.toInt : ℝ)) : EReal) (Ideal.ofBits .f32 0x41000000#32) = Cert.NGram.keep 8 c := by
  rw [ofBits_pos8]; exact weight_eq_keep c 8
theorem weight_pos9 (c : BitVec 32) :
    weight (((c.toInt : ℝ)) : EReal) (Ideal.ofBits .f32 0x41100000#32) = Cert.NGram.keep 9 c := by
  rw [ofBits_pos9]; exact weight_eq_keep c 9
theorem weight_pos10 (c : BitVec 32) :
    weight (((c.toInt : ℝ)) : EReal) (Ideal.ofBits .f32 0x41200000#32) = Cert.NGram.keep 10 c := by
  rw [ofBits_pos10]; exact weight_eq_keep c 10
theorem weight_pos11 (c : BitVec 32) :
    weight (((c.toInt : ℝ)) : EReal) (Ideal.ofBits .f32 0x41300000#32) = Cert.NGram.keep 11 c := by
  rw [ofBits_pos11]; exact weight_eq_keep c 11

/-! ## The running sum -/

/-- The kernel's running sum over 12 positions, from zero, is the sum over the positions. -/
theorem sum12 (t : Fin 12 → EReal) : 0 + t 0 + t 1 + t 2 + t 3 + t 4 + t 5 + t 6 + t 7 + t 8 + t 9 + t 10 + t 11 = ∑ l : Fin 12, t l := by
  simp only [Fin.sum_univ_succ, Fin.sum_univ_zero, add_zero, zero_add, ← add_assoc]
  rfl

/-- The kernel's running sum over 11 positions, from zero, is the sum over the positions. -/
theorem sum11 (t : Fin 11 → EReal) : 0 + t 0 + t 1 + t 2 + t 3 + t 4 + t 5 + t 6 + t 7 + t 8 + t 9 + t 10 = ∑ l : Fin 11, t l := by
  simp only [Fin.sum_univ_succ, Fin.sum_univ_zero, add_zero, zero_add, ← add_assoc]
  rfl

/-- The kernel's running sum over 10 positions, from zero, is the sum over the positions. -/
theorem sum10 (t : Fin 10 → EReal) : 0 + t 0 + t 1 + t 2 + t 3 + t 4 + t 5 + t 6 + t 7 + t 8 + t 9 = ∑ l : Fin 10, t l := by
  simp only [Fin.sum_univ_succ, Fin.sum_univ_zero, add_zero, zero_add, ← add_assoc]
  rfl

/-! ## The three kernels -/

/-- What the order-12 kernel stores is the masked mean of its blocks. -/
theorem pay0_eq (x0 : Vec Ideal S8x128x12x256 .f32) (x1 : Vec Ideal S8x128 .i32) :
    pay0 (F := Ideal) x0 x1 = Cert.NGram.orderMean 128 12 x0 x1 := by
  funext i
  obtain ⟨b, r, d, rfl⟩ : ∃ (b : Fin 8) (r : Fin 128) (d : Fin 256), i = ix3 b r d := ⟨i 0, i 1, i 2, eq_ix3 i⟩
  rw [Cert.NGram.orderMean_apply]
  unfold pay0
  -- the payloads at the index, last part first
  rw [k0_pay1_apply, k0_pay7_apply, k0_pay5_apply, k0_pay3_apply, k0_pay8_apply, k0_pay6_apply, k0_pay4_apply, k0_pay2_apply]
  -- what the loads read of the two blocks
  rw [show View.ld x1 rc0 (ix2 b r) = x1 (ix2 b r) from ld_count x1 _ b r,
    show View.ld x0 re0_0 (ix4 b r 0 d) = x0 (ix4 b r 0 d) from ld_gram x0 0 (by omega) _ b r 0 d,
    show View.ld x0 re0_1 (ix4 b r 0 d) = x0 (ix4 b r 1 d) from ld_gram x0 1 (by omega) _ b r 0 d,
    show View.ld x0 re0_2 (ix4 b r 0 d) = x0 (ix4 b r 2 d) from ld_gram x0 2 (by omega) _ b r 0 d,
    show View.ld x0 re0_3 (ix4 b r 0 d) = x0 (ix4 b r 3 d) from ld_gram x0 3 (by omega) _ b r 0 d,
    show View.ld x0 re0_4 (ix4 b r 0 d) = x0 (ix4 b r 4 d) from ld_gram x0 4 (by omega) _ b r 0 d,
    show View.ld x0 re0_5 (ix4 b r 0 d) = x0 (ix4 b r 5 d) from ld_gram x0 5 (by omega) _ b r 0 d,
    show View.ld x0 re0_6 (ix4 b r 0 d) = x0 (ix4 b r 6 d) from ld_gram x0 6 (by omega) _ b r 0 d,
    show View.ld x0 re0_7 (ix4 b r 0 d) = x0 (ix4 b r 7 d) from ld_gram x0 7 (by omega) _ b r 0 d,
    show View.ld x0 re0_8 (ix4 b r 0 d) = x0 (ix4 b r 8 d) from ld_gram x0 8 (by omega) _ b r 0 d,
    show View.ld x0 re0_9 (ix4 b r 0 d) = x0 (ix4 b r 9 d) from ld_gram x0 9 (by omega) _ b r 0 d,
    show View.ld x0 re0_10 (ix4 b r 0 d) = x0 (ix4 b r 10 d) from ld_gram x0 10 (by omega) _ b r 0 d,
    show View.ld x0 re0_11 (ix4 b r 0 d) = x0 (ix4 b r 11 d) from ld_gram x0 11 (by omega) _ b r 0 d]
  -- the weights are the specification's, and the running sum starts from zero
  rw [weight_pos0, weight_pos1, weight_pos2, weight_pos3, weight_pos4, weight_pos5, weight_pos6, weight_pos7, weight_pos8, weight_pos9, weight_pos10, weight_pos11, Ideal.ofBits_zero_f32]
  exact congrArg (fun s => Ideal.div s (((x1 (ix2 b r)).toInt : ℝ) : EReal))
    (sum12 (fun l : Fin 12 => x0 (ix4 b r l d) * Cert.NGram.keep l.val (x1 (ix2 b r))))

/-- What the order-11 kernel stores is the masked mean of its blocks. -/
theorem pay1_eq (x0 : Vec Ideal S8x128x11x256 .f32) (x1 : Vec Ideal S8x128 .i32) :
    pay1 (F := Ideal) x0 x1 = Cert.NGram.orderMean 128 11 x0 x1 := by
  funext i
  obtain ⟨b, r, d, rfl⟩ : ∃ (b : Fin 8) (r : Fin 128) (d : Fin 256), i = ix3 b r d := ⟨i 0, i 1, i 2, eq_ix3 i⟩
  rw [Cert.NGram.orderMean_apply]
  unfold pay1
  -- the payloads at the index, last part first
  rw [k1_pay6_apply, k1_pay4_eq, k1_pay2_eq, k1_pay5_eq, k1_pay3_eq, k1_pay1_eq,
    k0_pay5_apply, k0_pay3_apply, k0_pay6_apply, k0_pay4_apply, k0_pay2_apply]
  -- what the loads read of the two blocks
  rw [show View.ld x1 rc1 (ix2 b r) = x1 (ix2 b r) from ld_count x1 _ b r,
    show View.ld x0 re1_0 (ix4 b r 0 d) = x0 (ix4 b r 0 d) from ld_gram x0 0 (by omega) _ b r 0 d,
    show View.ld x0 re1_1 (ix4 b r 0 d) = x0 (ix4 b r 1 d) from ld_gram x0 1 (by omega) _ b r 0 d,
    show View.ld x0 re1_2 (ix4 b r 0 d) = x0 (ix4 b r 2 d) from ld_gram x0 2 (by omega) _ b r 0 d,
    show View.ld x0 re1_3 (ix4 b r 0 d) = x0 (ix4 b r 3 d) from ld_gram x0 3 (by omega) _ b r 0 d,
    show View.ld x0 re1_4 (ix4 b r 0 d) = x0 (ix4 b r 4 d) from ld_gram x0 4 (by omega) _ b r 0 d,
    show View.ld x0 re1_5 (ix4 b r 0 d) = x0 (ix4 b r 5 d) from ld_gram x0 5 (by omega) _ b r 0 d,
    show View.ld x0 re1_6 (ix4 b r 0 d) = x0 (ix4 b r 6 d) from ld_gram x0 6 (by omega) _ b r 0 d,
    show View.ld x0 re1_7 (ix4 b r 0 d) = x0 (ix4 b r 7 d) from ld_gram x0 7 (by omega) _ b r 0 d,
    show View.ld x0 re1_8 (ix4 b r 0 d) = x0 (ix4 b r 8 d) from ld_gram x0 8 (by omega) _ b r 0 d,
    show View.ld x0 re1_9 (ix4 b r 0 d) = x0 (ix4 b r 9 d) from ld_gram x0 9 (by omega) _ b r 0 d,
    show View.ld x0 re1_10 (ix4 b r 0 d) = x0 (ix4 b r 10 d) from ld_gram x0 10 (by omega) _ b r 0 d]
  -- the weights are the specification's, and the running sum starts from zero
  rw [weight_pos0, weight_pos1, weight_pos2, weight_pos3, weight_pos4, weight_pos5, weight_pos6, weight_pos7, weight_pos8, weight_pos9, weight_pos10, Ideal.ofBits_zero_f32]
  exact congrArg (fun s => Ideal.div s (((x1 (ix2 b r)).toInt : ℝ) : EReal))
    (sum11 (fun l : Fin 11 => x0 (ix4 b r l d) * Cert.NGram.keep l.val (x1 (ix2 b r))))

/-- What the order-10 kernel stores is the masked mean of its blocks. -/
theorem pay2_eq (x0 : Vec Ideal S8x128x10x256 .f32) (x1 : Vec Ideal S8x128 .i32) :
    pay2 (F := Ideal) x0 x1 = Cert.NGram.orderMean 128 10 x0 x1 := by
  funext i
  obtain ⟨b, r, d, rfl⟩ : ∃ (b : Fin 8) (r : Fin 128) (d : Fin 256), i = ix3 b r d := ⟨i 0, i 1, i 2, eq_ix3 i⟩
  rw [Cert.NGram.orderMean_apply]
  unfold pay2
  -- the payloads at the index, last part first
  rw [k2_pay1_apply, k2_pay5_eq, k2_pay3_eq, k2_pay6_eq, k2_pay4_eq, k2_pay2_eq,
    k0_pay5_apply, k0_pay3_apply, k0_pay6_apply, k0_pay4_apply, k0_pay2_apply]
  -- what the loads read of the two blocks
  rw [show View.ld x1 rc2 (ix2 b r) = x1 (ix2 b r) from ld_count x1 _ b r,
    show View.ld x0 re2_0 (ix4 b r 0 d) = x0 (ix4 b r 0 d) from ld_gram x0 0 (by omega) _ b r 0 d,
    show View.ld x0 re2_1 (ix4 b r 0 d) = x0 (ix4 b r 1 d) from ld_gram x0 1 (by omega) _ b r 0 d,
    show View.ld x0 re2_2 (ix4 b r 0 d) = x0 (ix4 b r 2 d) from ld_gram x0 2 (by omega) _ b r 0 d,
    show View.ld x0 re2_3 (ix4 b r 0 d) = x0 (ix4 b r 3 d) from ld_gram x0 3 (by omega) _ b r 0 d,
    show View.ld x0 re2_4 (ix4 b r 0 d) = x0 (ix4 b r 4 d) from ld_gram x0 4 (by omega) _ b r 0 d,
    show View.ld x0 re2_5 (ix4 b r 0 d) = x0 (ix4 b r 5 d) from ld_gram x0 5 (by omega) _ b r 0 d,
    show View.ld x0 re2_6 (ix4 b r 0 d) = x0 (ix4 b r 6 d) from ld_gram x0 6 (by omega) _ b r 0 d,
    show View.ld x0 re2_7 (ix4 b r 0 d) = x0 (ix4 b r 7 d) from ld_gram x0 7 (by omega) _ b r 0 d,
    show View.ld x0 re2_8 (ix4 b r 0 d) = x0 (ix4 b r 8 d) from ld_gram x0 8 (by omega) _ b r 0 d,
    show View.ld x0 re2_9 (ix4 b r 0 d) = x0 (ix4 b r 9 d) from ld_gram x0 9 (by omega) _ b r 0 d]
  -- the weights are the specification's, and the running sum starts from zero
  rw [weight_pos0, weight_pos1, weight_pos2, weight_pos3, weight_pos4, weight_pos5, weight_pos6, weight_pos7, weight_pos8, weight_pos9, Ideal.ofBits_zero_f32]
  exact congrArg (fun s => Ideal.div s (((x1 (ix2 b r)).toInt : ℝ) : EReal))
    (sum10 (fun l : Fin 10 => x0 (ix4 b r l d) * Cert.NGram.keep l.val (x1 (ix2 b r))))

end Cert.KernelIdeal.Hand

end
-- ==== Proof.MeanBlock.lean ====
/-
  A block of 128 token rows of the masked mean is the masked mean of the corresponding blocks: the mean of a token
  depends only on that token's own embeddings and count, so restricting both inputs to token rows
  `128 s … 128 s + 127` restricts the result to the same rows.
-/
import proofs.«140809_j7954279432569_2_alg».proof.Proof.Spec

noncomputable section

open scoped BigOperators

namespace Cert.NGram

open Idealize.ShloMosaic Idealize.ShloMosaic.ValueIdx

/-- Token row `q` of block `s` is row `128 s + q` of the array. -/
def rowOf (s : ℕ) (hs : s < 16) (q : Fin 128) : Fin 2048 := ⟨s * 128 + q.val, by have := q.isLt; omega⟩

theorem orderMean_block (L : ℕ) (E : (⟨4, ![8, 2048, L, 256]⟩ : Shape).Idx → EReal) (C : (⟨2, ![8, 2048]⟩ : Shape).Idx → BitVec 32)
    (s : ℕ) (hs : s < 16)
    (e : (⟨4, ![8, 128, L, 256]⟩ : Shape).Idx → EReal) (cc : (⟨2, ![8, 128]⟩ : Shape).Idx → BitVec 32)
    (he : ∀ (p : Fin 8) (q : Fin 128) (l : Fin L) (d : Fin 256), e (ix4 p q l d) = E (ix4 p (rowOf s hs q) l d))
    (hc : ∀ (p : Fin 8) (q : Fin 128), cc (ix2 p q) = C (ix2 p (rowOf s hs q)))
    (p : Fin 8) (q : Fin 128) (d : Fin 256) :
    orderMean 128 L e cc (ix3 p q d) = orderMean 2048 L E C (ix3 p (rowOf s hs q) d) := by
  rw [orderMean_apply, orderMean_apply]
  simp only [he, hc]

end Cert.NGram

end
-- ==== Proof.KI.Final0.lean ====
/-
  The result array of n-gram order 1 after its region: the masked mean, over the 12 gram positions, of the gathered
  embeddings the region was entered with, divided by the gathered counts — every entry of the array, not block by block.

  Point `t` of the grid works on token rows `128 t … 128 t + 127`: its three blocks are those rows of the three arrays,
  all gram positions and all 256 embedding coordinates. What it writes back is the masked mean of its two input blocks,
  which is those rows of the masked mean of the two whole arrays, because a token's mean depends on that token alone.
  The sixteen points' row ranges partition the 2048 rows, so the write-backs cover the array.
-/
import proofs.«140809_j7954279432569_2_alg».proof.Proof.KI.Body0
import proofs.«140809_j7954279432569_2_alg».proof.Proof.KI.BlockMean
import proofs.«140809_j7954279432569_2_alg».proof.Proof.MeanBlock
import Idealize.ShloMosaic.Lib.Pipeline.Value

set_option maxRecDepth 16384

noncomputable section

namespace Cert.KernelIdeal.Hand

open Cert.KernelIdeal Cert.KernelIdeal.Gen Cert.NGram
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem zero3_0 : (![0, 0, 0] : Fin 3 → Nat) = fun _ => 0 := funext fun a => by fin_cases a <;> rfl

/-- The three index maps over the grid: point `t` selects block `t` of the token axis and block 0 of every other axis. -/
theorem idx0 : ∀ t : Fin cfg0.N,
    win0_0.index t (0 : Fin 4) = 0 ∧ win0_0.index t (1 : Fin 4) = t.val ∧ win0_0.index t (2 : Fin 4) = 0 ∧ win0_0.index t (3 : Fin 4) = 0
    ∧ win0_1.index t (0 : Fin 2) = 0 ∧ win0_1.index t (1 : Fin 2) = t.val
    ∧ win0_2.index t (0 : Fin 3) = 0 ∧ win0_2.index t (1 : Fin 3) = t.val ∧ win0_2.index t (2 : Fin 3) = 0 :=
  (by decide +kernel : ∀ t : Fin grid0.N, _)

theorem lt16_0 (t : Fin cfg0.N) : t.val < 16 := lt_of_lt_of_eq t.isLt N_0

/-- Where the result block's entry `j` sits in the result array. -/
theorem emb_out0 (t : Fin cfg0.N) (p : Fin 8) (q : Fin 128) (d : Fin 256) :
    ((cfg0.win 2).blk t).view.emb (ix3 p q d : S8x128x256.Idx) = ix3 p (rowOf t.val (lt16_0 t) q) d := by
  obtain ⟨a0, a1, a2, a3, b0, b1, o0, o1, o2⟩ := idx0 t
  funext a; apply Fin.ext
  match a with
  | ⟨0, _⟩ => show win0_2.index t (0 : Fin 3) * 8 + 1 * p.val = p.val; omega
  | ⟨1, _⟩ => show win0_2.index t (1 : Fin 3) * 128 + 1 * q.val = t.val * 128 + q.val; omega
  | ⟨2, _⟩ => show win0_2.index t (2 : Fin 3) * 256 + 1 * d.val = d.val; omega

/-- Where the embeddings block's entry sits in the embeddings array. -/
theorem emb_e0 (t : Fin cfg0.N) (p : Fin 8) (q : Fin 128) (l : Fin 12) (d : Fin 256) :
    ((cfg0.win 0).blk t).view.emb (ix4 p q l d : S8x128x12x256.Idx) = ix4 p (rowOf t.val (lt16_0 t) q) l d := by
  obtain ⟨a0, a1, a2, a3, b0, b1, o0, o1, o2⟩ := idx0 t
  funext a; apply Fin.ext
  match a with
  | ⟨0, _⟩ => show win0_0.index t (0 : Fin 4) * 8 + 1 * p.val = p.val; omega
  | ⟨1, _⟩ => show win0_0.index t (1 : Fin 4) * 128 + 1 * q.val = t.val * 128 + q.val; omega
  | ⟨2, _⟩ => show win0_0.index t (2 : Fin 4) * 12 + 1 * l.val = l.val; omega
  | ⟨3, _⟩ => show win0_0.index t (3 : Fin 4) * 256 + 1 * d.val = d.val; omega

/-- Where the counts block's entry sits in the counts array. -/
theorem emb_c0 (t : Fin cfg0.N) (p : Fin 8) (q : Fin 128) :
    ((cfg0.win 1).blk t).view.emb (ix2 p q : S8x128.Idx) = ix2 p (rowOf t.val (lt16_0 t) q) := by
  obtain ⟨a0, a1, a2, a3, b0, b1, o0, o1, o2⟩ := idx0 t
  funext a; apply Fin.ext
  match a with
  | ⟨0, _⟩ => show win0_1.index t (0 : Fin 2) * 8 + 1 * p.val = p.val; omega
  | ⟨1, _⟩ => show win0_1.index t (1 : Fin 2) * 128 + 1 * q.val = t.val * 128 + q.val; omega

/-- What point `t` writes back is block `t` of the masked mean of the two whole input arrays. -/
theorem flushed0 (c : Dev nD) (t : Fin cfg0.N) :
    (dat0 V c).flushed 2 t = ((cfg0.win 2).blk t).view.read (Elt Ideal) (orderMean 2048 12 (V c main_v20) (V c main_v13)) := by
  show (cfg0.win 2).cut (grid0.coords t) ((dat0 V c).after 2 t) = _
  rw [after0_2]
  unfold out0
  rw [View.canon_unit_zero zero3_0]
  rw [pay0_eq]
  funext j
  revert j
  show ∀ j : S8x128x256.Idx, orderMean 128 12 (blk0 V c 0 t) (blk0 V c 1 t) j = orderMean 2048 12 (V c main_v20) (V c main_v13) (((cfg0.win 2).blk t).view.emb j)
  intro j
  obtain ⟨p, q, d, rfl⟩ : ∃ (p : Fin 8) (q : Fin 128) (d : Fin 256), j = ix3 p q d := ⟨j 0, j 1, j 2, eq_ix3 j⟩
  rw [emb_out0 t p q d]
  refine orderMean_block 12 (V c main_v20) (V c main_v13) t.val (lt16_0 t) _ _ (fun p q l d => ?_) (fun p q => ?_) p q d
  · show V c main_v20 (((cfg0.win 0).blk t).view.emb (ix4 p q l d)) = _
    rw [emb_e0 t p q l d]
  · show V c main_v13 (((cfg0.win 1).blk t).view.emb (ix2 p q)) = _
    rw [emb_c0 t p q]

/-- An index of the result array lies in point `t`'s block iff its token row lies in `t`'s range (the other two axes are whole). -/
theorem mem_out0 (t : Fin cfg0.N) (i : S8x2048x256.Idx) :
    i ∈ ((cfg0.win 2).blk t).view.set ↔ ∀ a : Fin 3, win0_2.index t a * S8x128x256.size a ≤ (i a).val ∧ (i a).val < win0_2.index t a * S8x128x256.size a + S8x128x256.size a := by
  show i ∈ ((View.whole main_v63).slice (win0_2.rect t)).set ↔ _
  rw [View.set_slice_whole, Rect.mem_set_unit]
  exact Iff.rfl

/-- Every index of the result array is in the block of the point its token row belongs to. -/
theorem covered0 (i : S8x2048x256.Idx) : ∃ t : Fin cfg0.N, (cfg0.win 2).flush t = true ∧ i ∈ ((cfg0.win 2).blk t).view.set := by
  have h0 : (i 0).val < 8 := (i 0).isLt
  have h1 : (i 1).val < 2048 := (i 1).isLt
  have h2 : (i 2).val < 256 := (i 2).isLt
  let t : Fin cfg0.N := ⟨(i 1).val / 128, lt_of_lt_of_eq (show (i 1).val / 128 < 16 by omega) N_0.symm⟩
  obtain ⟨a0, a1, a2, a3, b0, b1, o0, o1, o2⟩ := idx0 t
  have o1' : win0_2.index t (1 : Fin 3) = (i 1).val / 128 := o1
  refine ⟨t, flush0_2 t, ?_⟩
  rw [mem_out0]
  intro a
  match a with
  | ⟨0, _⟩ => show win0_2.index t (0 : Fin 3) * 8 ≤ (i 0).val ∧ (i 0).val < win0_2.index t (0 : Fin 3) * 8 + 8; omega
  | ⟨1, _⟩ => show win0_2.index t (1 : Fin 3) * 128 ≤ (i 1).val ∧ (i 1).val < win0_2.index t (1 : Fin 3) * 128 + 128; omega
  | ⟨2, _⟩ => show win0_2.index t (2 : Fin 3) * 256 ≤ (i 2).val ∧ (i 2).val < win0_2.index t (2 : Fin 3) * 256 + 256; omega

/-- The result array after the region is the masked mean of the two input arrays as the region found them. -/
theorem final0 (c : Dev nD) : (dat0 V c).arrAt 2 cfg0.N = orderMean 2048 12 (V c main_v20) (V c main_v13) :=
  (dat0 V c).arrAt_eq_of_cover 2 (orderMean 2048 12 (V c main_v20) (V c main_v13)) (fun t _ => flushed0 V c t) (covered0)

end Cert.KernelIdeal.Hand

end
-- ==== Proof.KI.Final1.lean ====
/-
  The result array of n-gram order 2 after its region: the masked mean, over the 11 gram positions, of the gathered
  embeddings the region was entered with, divided by the gathered counts — every entry of the array, not block by block.

  Point `t` of the grid works on token rows `128 t … 128 t + 127`: its three blocks are those rows of the three arrays,
  all gram positions and all 256 embedding coordinates. What it writes back is the masked mean of its two input blocks,
  which is those rows of the masked mean of the two whole arrays, because a token's mean depends on that token alone.
  The sixteen points' row ranges partition the 2048 rows, so the write-backs cover the array.
-/
import proofs.«140809_j7954279432569_2_alg».proof.Proof.KI.Body1
import proofs.«140809_j7954279432569_2_alg».proof.Proof.KI.BlockMean
import proofs.«140809_j7954279432569_2_alg».proof.Proof.MeanBlock
import Idealize.ShloMosaic.Lib.Pipeline.Value

set_option maxRecDepth 16384

noncomputable section

namespace Cert.KernelIdeal.Hand

open Cert.KernelIdeal Cert.KernelIdeal.Gen Cert.NGram
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem zero3_1 : (![0, 0, 0] : Fin 3 → Nat) = fun _ => 0 := funext fun a => by fin_cases a <;> rfl

/-- The three index maps over the grid: point `t` selects block `t` of the token axis and block 0 of every other axis. -/
theorem idx1 : ∀ t : Fin cfg1.N,
    win1_0.index t (0 : Fin 4) = 0 ∧ win1_0.index t (1 : Fin 4) = t.val ∧ win1_0.index t (2 : Fin 4) = 0 ∧ win1_0.index t (3 : Fin 4) = 0
    ∧ win1_1.index t (0 : Fin 2) = 0 ∧ win1_1.index t (1 : Fin 2) = t.val
    ∧ win1_2.index t (0 : Fin 3) = 0 ∧ win1_2.index t (1 : Fin 3) = t.val ∧ win1_2.index t (2 : Fin 3) = 0 :=
  (by decide +kernel : ∀ t : Fin grid1.N, _)

theorem lt16_1 (t : Fin cfg1.N) : t.val < 16 := lt_of_lt_of_eq t.isLt N_1

/-- Where the result block's entry `j` sits in the result array. -/
theorem emb_out1 (t : Fin cfg1.N) (p : Fin 8) (q : Fin 128) (d : Fin 256) :
    ((cfg1.win 2).blk t).view.emb (ix3 p q d : S8x128x256.Idx) = ix3 p (rowOf t.val (lt16_1 t) q) d := by
  obtain ⟨a0, a1, a2, a3, b0, b1, o0, o1, o2⟩ := idx1 t
  funext a; apply Fin.ext
  match a with
  | ⟨0, _⟩ => show win1_2.index t (0 : Fin 3) * 8 + 1 * p.val = p.val; omega
  | ⟨1, _⟩ => show win1_2.index t (1 : Fin 3) * 128 + 1 * q.val = t.val * 128 + q.val; omega
  | ⟨2, _⟩ => show win1_2.index t (2 : Fin 3) * 256 + 1 * d.val = d.val; omega

/-- Where the embeddings block's entry sits in the embeddings array. -/
theorem emb_e1 (t : Fin cfg1.N) (p : Fin 8) (q : Fin 128) (l : Fin 11) (d : Fin 256) :
    ((cfg1.win 0).blk t).view.emb (ix4 p q l d : S8x128x11x256.Idx) = ix4 p (rowOf t.val (lt16_1 t) q) l d := by
  obtain ⟨a0, a1, a2, a3, b0, b1, o0, o1, o2⟩ := idx1 t
  funext a; apply Fin.ext
  match a with
  | ⟨0, _⟩ => show win1_0.index t (0 : Fin 4) * 8 + 1 * p.val = p.val; omega
  | ⟨1, _⟩ => show win1_0.index t (1 : Fin 4) * 128 + 1 * q.val = t.val * 128 + q.val; omega
  | ⟨2, _⟩ => show win1_0.index t (2 : Fin 4) * 11 + 1 * l.val = l.val; omega
  | ⟨3, _⟩ => show win1_0.index t (3 : Fin 4) * 256 + 1 * d.val = d.val; omega

/-- Where the counts block's entry sits in the counts array. -/
theorem emb_c1 (t : Fin cfg1.N) (p : Fin 8) (q : Fin 128) :
    ((cfg1.win 1).blk t).view.emb (ix2 p q : S8x128.Idx) = ix2 p (rowOf t.val (lt16_1 t) q) := by
  obtain ⟨a0, a1, a2, a3, b0, b1, o0, o1, o2⟩ := idx1 t
  funext a; apply Fin.ext
  match a with
  | ⟨0, _⟩ => show win1_1.index t (0 : Fin 2) * 8 + 1 * p.val = p.val; omega
  | ⟨1, _⟩ => show win1_1.index t (1 : Fin 2) * 128 + 1 * q.val = t.val * 128 + q.val; omega

/-- What point `t` writes back is block `t` of the masked mean of the two whole input arrays. -/
theorem flushed1 (c : Dev nD) (t : Fin cfg1.N) :
    (dat1 V c).flushed 2 t = ((cfg1.win 2).blk t).view.read (Elt Ideal) (orderMean 2048 11 (V c main_v41) (V c main_v34)) := by
  show (cfg1.win 2).cut (grid1.coords t) ((dat1 V c).after 2 t) = _
  rw [after1_2]
  unfold out1
  rw [View.canon_unit_zero zero3_1]
  rw [pay1_eq]
  funext j
  revert j
  show ∀ j : S8x128x256.Idx, orderMean 128 11 (blk1 V c 0 t) (blk1 V c 1 t) j = orderMean 2048 11 (V c main_v41) (V c main_v34) (((cfg1.win 2).blk t).view.emb j)
  intro j
  obtain ⟨p, q, d, rfl⟩ : ∃ (p : Fin 8) (q : Fin 128) (d : Fin 256), j = ix3 p q d := ⟨j 0, j 1, j 2, eq_ix3 j⟩
  rw [emb_out1 t p q d]
  refine orderMean_block 11 (V c main_v41) (V c main_v34) t.val (lt16_1 t) _ _ (fun p q l d => ?_) (fun p q => ?_) p q d
  · show V c main_v41 (((cfg1.win 0).blk t).view.emb (ix4 p q l d)) = _
    rw [emb_e1 t p q l d]
  · show V c main_v34 (((cfg1.win 1).blk t).view.emb (ix2 p q)) = _
    rw [emb_c1 t p q]

/-- An index of the result array lies in point `t`'s block iff its token row lies in `t`'s range (the other two axes are whole). -/
theorem mem_out1 (t : Fin cfg1.N) (i : S8x2048x256.Idx) :
    i ∈ ((cfg1.win 2).blk t).view.set ↔ ∀ a : Fin 3, win1_2.index t a * S8x128x256.size a ≤ (i a).val ∧ (i a).val < win1_2.index t a * S8x128x256.size a + S8x128x256.size a := by
  show i ∈ ((View.whole main_v64).slice (win1_2.rect t)).set ↔ _
  rw [View.set_slice_whole, Rect.mem_set_unit]
  exact Iff.rfl

/-- Every index of the result array is in the block of the point its token row belongs to. -/
theorem covered1 (i : S8x2048x256.Idx) : ∃ t : Fin cfg1.N, (cfg1.win 2).flush t = true ∧ i ∈ ((cfg1.win 2).blk t).view.set := by
  have h0 : (i 0).val < 8 := (i 0).isLt
  have h1 : (i 1).val < 2048 := (i 1).isLt
  have h2 : (i 2).val < 256 := (i 2).isLt
  let t : Fin cfg1.N := ⟨(i 1).val / 128, lt_of_lt_of_eq (show (i 1).val / 128 < 16 by omega) N_1.symm⟩
  obtain ⟨a0, a1, a2, a3, b0, b1, o0, o1, o2⟩ := idx1 t
  have o1' : win1_2.index t (1 : Fin 3) = (i 1).val / 128 := o1
  refine ⟨t, flush1_2 t, ?_⟩
  rw [mem_out1]
  intro a
  match a with
  | ⟨0, _⟩ => show win1_2.index t (0 : Fin 3) * 8 ≤ (i 0).val ∧ (i 0).val < win1_2.index t (0 : Fin 3) * 8 + 8; omega
  | ⟨1, _⟩ => show win1_2.index t (1 : Fin 3) * 128 ≤ (i 1).val ∧ (i 1).val < win1_2.index t (1 : Fin 3) * 128 + 128; omega
  | ⟨2, _⟩ => show win1_2.index t (2 : Fin 3) * 256 ≤ (i 2).val ∧ (i 2).val < win1_2.index t (2 : Fin 3) * 256 + 256; omega

/-- The result array after the region is the masked mean of the two input arrays as the region found them. -/
theorem final1 (c : Dev nD) : (dat1 V c).arrAt 2 cfg1.N = orderMean 2048 11 (V c main_v41) (V c main_v34) :=
  (dat1 V c).arrAt_eq_of_cover 2 (orderMean 2048 11 (V c main_v41) (V c main_v34)) (fun t _ => flushed1 V c t) (covered1)

end Cert.KernelIdeal.Hand

end
-- ==== Proof.KI.Final2.lean ====
/-
  The result array of n-gram order 3 after its region: the masked mean, over the 10 gram positions, of the gathered
  embeddings the region was entered with, divided by the gathered counts — every entry of the array, not block by block.

  Point `t` of the grid works on token rows `128 t … 128 t + 127`: its three blocks are those rows of the three arrays,
  all gram positions and all 256 embedding coordinates. What it writes back is the masked mean of its two input blocks,
  which is those rows of the masked mean of the two whole arrays, because a token's mean depends on that token alone.
  The sixteen points' row ranges partition the 2048 rows, so the write-backs cover the array.
-/
import proofs.«140809_j7954279432569_2_alg».proof.Proof.KI.Body2
import proofs.«140809_j7954279432569_2_alg».proof.Proof.KI.BlockMean
import proofs.«140809_j7954279432569_2_alg».proof.Proof.MeanBlock
import Idealize.ShloMosaic.Lib.Pipeline.Value

set_option maxRecDepth 16384

noncomputable section

namespace Cert.KernelIdeal.Hand

open Cert.KernelIdeal Cert.KernelIdeal.Gen Cert.NGram
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem zero3_2 : (![0, 0, 0] : Fin 3 → Nat) = fun _ => 0 := funext fun a => by fin_cases a <;> rfl

/-- The three index maps over the grid: point `t` selects block `t` of the token axis and block 0 of every other axis. -/
theorem idx2 : ∀ t : Fin cfg2.N,
    win2_0.index t (0 : Fin 4) = 0 ∧ win2_0.index t (1 : Fin 4) = t.val ∧ win2_0.index t (2 : Fin 4) = 0 ∧ win2_0.index t (3 : Fin 4) = 0
    ∧ win2_1.index t (0 : Fin 2) = 0 ∧ win2_1.index t (1 : Fin 2) = t.val
    ∧ win2_2.index t (0 : Fin 3) = 0 ∧ win2_2.index t (1 : Fin 3) = t.val ∧ win2_2.index t (2 : Fin 3) = 0 :=
  (by decide +kernel : ∀ t : Fin grid2.N, _)

theorem lt16_2 (t : Fin cfg2.N) : t.val < 16 := lt_of_lt_of_eq t.isLt N_2

/-- Where the result block's entry `j` sits in the result array. -/
theorem emb_out2 (t : Fin cfg2.N) (p : Fin 8) (q : Fin 128) (d : Fin 256) :
    ((cfg2.win 2).blk t).view.emb (ix3 p q d : S8x128x256.Idx) = ix3 p (rowOf t.val (lt16_2 t) q) d := by
  obtain ⟨a0, a1, a2, a3, b0, b1, o0, o1, o2⟩ := idx2 t
  funext a; apply Fin.ext
  match a with
  | ⟨0, _⟩ => show win2_2.index t (0 : Fin 3) * 8 + 1 * p.val = p.val; omega
  | ⟨1, _⟩ => show win2_2.index t (1 : Fin 3) * 128 + 1 * q.val = t.val * 128 + q.val; omega
  | ⟨2, _⟩ => show win2_2.index t (2 : Fin 3) * 256 + 1 * d.val = d.val; omega

/-- Where the embeddings block's entry sits in the embeddings array. -/
theorem emb_e2 (t : Fin cfg2.N) (p : Fin 8) (q : Fin 128) (l : Fin 10) (d : Fin 256) :
    ((cfg2.win 0).blk t).view.emb (ix4 p q l d : S8x128x10x256.Idx) = ix4 p (rowOf t.val (lt16_2 t) q) l d := by
  obtain ⟨a0, a1, a2, a3, b0, b1, o0, o1, o2⟩ := idx2 t
  funext a; apply Fin.ext
  match a with
  | ⟨0, _⟩ => show win2_0.index t (0 : Fin 4) * 8 + 1 * p.val = p.val; omega
  | ⟨1, _⟩ => show win2_0.index t (1 : Fin 4) * 128 + 1 * q.val = t.val * 128 + q.val; omega
  | ⟨2, _⟩ => show win2_0.index t (2 : Fin 4) * 10 + 1 * l.val = l.val; omega
  | ⟨3, _⟩ => show win2_0.index t (3 : Fin 4) * 256 + 1 * d.val = d.val; omega

/-- Where the counts block's entry sits in the counts array. -/
theorem emb_c2 (t : Fin cfg2.N) (p : Fin 8) (q : Fin 128) :
    ((cfg2.win 1).blk t).view.emb (ix2 p q : S8x128.Idx) = ix2 p (rowOf t.val (lt16_2 t) q) := by
  obtain ⟨a0, a1, a2, a3, b0, b1, o0, o1, o2⟩ := idx2 t
  funext a; apply Fin.ext
  match a with
  | ⟨0, _⟩ => show win2_1.index t (0 : Fin 2) * 8 + 1 * p.val = p.val; omega
  | ⟨1, _⟩ => show win2_1.index t (1 : Fin 2) * 128 + 1 * q.val = t.val * 128 + q.val; omega

/-- What point `t` writes back is block `t` of the masked mean of the two whole input arrays. -/
theorem flushed2 (c : Dev nD) (t : Fin cfg2.N) :
    (dat2 V c).flushed 2 t = ((cfg2.win 2).blk t).view.read (Elt Ideal) (orderMean 2048 10 (V c main_v62) (V c main_v55)) := by
  show (cfg2.win 2).cut (grid2.coords t) ((dat2 V c).after 2 t) = _
  rw [after2_2]
  unfold out2
  rw [View.canon_unit_zero zero3_2]
  rw [pay2_eq]
  funext j
  revert j
  show ∀ j : S8x128x256.Idx, orderMean 128 10 (blk2 V c 0 t) (blk2 V c 1 t) j = orderMean 2048 10 (V c main_v62) (V c main_v55) (((cfg2.win 2).blk t).view.emb j)
  intro j
  obtain ⟨p, q, d, rfl⟩ : ∃ (p : Fin 8) (q : Fin 128) (d : Fin 256), j = ix3 p q d := ⟨j 0, j 1, j 2, eq_ix3 j⟩
  rw [emb_out2 t p q d]
  refine orderMean_block 10 (V c main_v62) (V c main_v55) t.val (lt16_2 t) _ _ (fun p q l d => ?_) (fun p q => ?_) p q d
  · show V c main_v62 (((cfg2.win 0).blk t).view.emb (ix4 p q l d)) = _
    rw [emb_e2 t p q l d]
  · show V c main_v55 (((cfg2.win 1).blk t).view.emb (ix2 p q)) = _
    rw [emb_c2 t p q]

/-- An index of the result array lies in point `t`'s block iff its token row lies in `t`'s range (the other two axes are whole). -/
theorem mem_out2 (t : Fin cfg2.N) (i : S8x2048x256.Idx) :
    i ∈ ((cfg2.win 2).blk t).view.set ↔ ∀ a : Fin 3, win2_2.index t a * S8x128x256.size a ≤ (i a).val ∧ (i a).val < win2_2.index t a * S8x128x256.size a + S8x128x256.size a := by
  show i ∈ ((View.whole main_v65).slice (win2_2.rect t)).set ↔ _
  rw [View.set_slice_whole, Rect.mem_set_unit]
  exact Iff.rfl

/-- Every index of the result array is in the block of the point its token row belongs to. -/
theorem covered2 (i : S8x2048x256.Idx) : ∃ t : Fin cfg2.N, (cfg2.win 2).flush t = true ∧ i ∈ ((cfg2.win 2).blk t).view.set := by
  have h0 : (i 0).val < 8 := (i 0).isLt
  have h1 : (i 1).val < 2048 := (i 1).isLt
  have h2 : (i 2).val < 256 := (i 2).isLt
  let t : Fin cfg2.N := ⟨(i 1).val / 128, lt_of_lt_of_eq (show (i 1).val / 128 < 16 by omega) N_2.symm⟩
  obtain ⟨a0, a1, a2, a3, b0, b1, o0, o1, o2⟩ := idx2 t
  have o1' : win2_2.index t (1 : Fin 3) = (i 1).val / 128 := o1
  refine ⟨t, flush2_2 t, ?_⟩
  rw [mem_out2]
  intro a
  match a with
  | ⟨0, _⟩ => show win2_2.index t (0 : Fin 3) * 8 ≤ (i 0).val ∧ (i 0).val < win2_2.index t (0 : Fin 3) * 8 + 8; omega
  | ⟨1, _⟩ => show win2_2.index t (1 : Fin 3) * 128 ≤ (i 1).val ∧ (i 1).val < win2_2.index t (1 : Fin 3) * 128 + 128; omega
  | ⟨2, _⟩ => show win2_2.index t (2 : Fin 3) * 256 ≤ (i 2).val ∧ (i 2).val < win2_2.index t (2 : Fin 3) * 256 + 256; omega

/-- The result array after the region is the masked mean of the two input arrays as the region found them. -/
theorem final2 (c : Dev nD) : (dat2 V c).arrAt 2 cfg2.N = orderMean 2048 10 (V c main_v62) (V c main_v55) :=
  (dat2 V c).arrAt_eq_of_cover 2 (orderMean 2048 10 (V c main_v62) (V c main_v55)) (fun t _ => flushed2 V c t) (covered2)

end Cert.KernelIdeal.Hand

end
-- ==== Proof.RefDefs.lean ====
/-
  The reference program's gathers and its last stages as functions of the argument arrays: the word indices
  (a negative one counted from the end), per order the gram identifiers, counts and embeddings gathered at
  them, and the result's assembly from three per-order arrays — the three joined along the embedding axis,
  replaced by the special-word table's row where the word index is below four. Each definition is the
  composition of the program's own operations in program order; nothing here reads a gather.
-/
import proofs.«140809_j7954279432569_2_alg».proof.Proof.Gen.ReferenceIdeal
import Idealize.ShloMosaic.PureOps.Ideal

noncomputable section

namespace Cert.ReferenceIdeal.RefMean

open Cert.ReferenceIdeal Cert.ReferenceIdeal.Gen Idealize.ShloMosaic

/-! ## The word indices -/

/-- The word indices, a negative one counted from the end of the 50000 words. -/
def wordIdx (x : (⟨S8x2048, .i32⟩ : BufTy).Contents (Elt Ideal)) : (⟨S8x2048, .i32⟩ : BufTy).Contents (Elt Ideal) :=
  select (cmpi .slt x (broadcastInDim S8x2048 ![] bcast_S_S8x2048 (constantI S_ 32 0#32)))
    (addi x (broadcastInDim S8x2048 ![] bcast_S_S8x2048 (constantI S_ 32 50000#32))) x

/-- The word indices as a gather's start indices: a trailing axis of size one. -/
def wordStart (x : (⟨S8x2048, .i32⟩ : BufTy).Contents (Elt Ideal)) : (⟨S8x2048x1, .i32⟩ : BufTy).Contents (Elt Ideal) :=
  broadcastInDim S8x2048x1 ![0, 1] bcast_S8x2048_S8x2048x1_0_1 (wordIdx x)

/-! ## Order 1 -/

/-- Order 1: every token's 12 gram identifiers, the row of `ids1` at the token's word. -/
def gathG1 (x : (⟨S8x2048, .i32⟩ : BufTy).Contents (Elt Ideal)) (ids1 : (⟨S50000x12, .i32⟩ : BufTy).Contents (Elt Ideal)) : (⟨S8x2048x12, .i32⟩ : BufTy).Contents (Elt Ideal) :=
  Host.gather gather_S50000x12_S8x2048x1_S8x2048x12_2_0_n_n_0_2_112 ids1 (wordStart x)

/-- Order 1: every token's number of valid grams, the entry of `cnt1` at the token's word. -/
def gathC1 (x : (⟨S8x2048, .i32⟩ : BufTy).Contents (Elt Ideal)) (cnt1 : (⟨S50000, .i32⟩ : BufTy).Contents (Elt Ideal)) : (⟨S8x2048, .i32⟩ : BufTy).Contents (Elt Ideal) :=
  Host.gather gather_S50000_S8x2048x1_S8x2048_n_0_n_n_0_2_1 cnt1 (wordStart x)

/-- Order 1: the gram identifiers as row numbers of `tab1`, a negative one counted from the end of its rows. -/
def gramIdx1 (x : (⟨S8x2048, .i32⟩ : BufTy).Contents (Elt Ideal)) (ids1 : (⟨S50000x12, .i32⟩ : BufTy).Contents (Elt Ideal)) : (⟨S8x2048x12, .i32⟩ : BufTy).Contents (Elt Ideal) :=
  select (cmpi .slt (gathG1 x ids1) (broadcastInDim S8x2048x12 ![] bcast_S_S8x2048x12 (constantI S_ 32 0#32)))
    (addi (gathG1 x ids1) (broadcastInDim S8x2048x12 ![] bcast_S_S8x2048x12 (constantI S_ 32 1001#32)))
    (gathG1 x ids1)

/-- Order 1: every gram's embedding, the row of `tab1` at the gram's identifier. -/
def gathE1 (x : (⟨S8x2048, .i32⟩ : BufTy).Contents (Elt Ideal)) (ids1 : (⟨S50000x12, .i32⟩ : BufTy).Contents (Elt Ideal)) (tab1 : (⟨S1001x256, .f32⟩ : BufTy).Contents (Elt Ideal)) : (⟨S8x2048x12x256, .f32⟩ : BufTy).Contents (Elt Ideal) :=
  Host.gather gather_S1001x256_S8x2048x12x1_S8x2048x12x256_3_0_n_n_0_3_1256 tab1
    (broadcastInDim S8x2048x12x1 ![0, 1, 2] bcast_S8x2048x12_S8x2048x12x1_0_1_2 (gramIdx1 x ids1))

/-! ## Order 2 -/

/-- Order 2: every token's 11 gram identifiers, the row of `ids2` at the token's word. -/
def gathG2 (x : (⟨S8x2048, .i32⟩ : BufTy).Contents (Elt Ideal)) (ids2 : (⟨S50000x11, .i32⟩ : BufTy).Contents (Elt Ideal)) : (⟨S8x2048x11, .i32⟩ : BufTy).Contents (Elt Ideal) :=
  Host.gather gather_S50000x11_S8x2048x1_S8x2048x11_2_0_n_n_0_2_111 ids2 (wordStart x)

/-- Order 2: every token's number of valid grams, the entry of `cnt2` at the token's word. -/
def gathC2 (x : (⟨S8x2048, .i32⟩ : BufTy).Contents (Elt Ideal)) (cnt2 : (⟨S50000, .i32⟩ : BufTy).Contents (Elt Ideal)) : (⟨S8x2048, .i32⟩ : BufTy).Contents (Elt Ideal) :=
  Host.gather gather_S50000_S8x2048x1_S8x2048_n_0_n_n_0_2_1 cnt2 (wordStart x)

/-- Order 2: the gram identifiers as row numbers of `tab2`, a negative one counted from the end of its rows. -/
def gramIdx2 (x : (⟨S8x2048, .i32⟩ : BufTy).Contents (Elt Ideal)) (ids2 : (⟨S50000x11, .i32⟩ : BufTy).Contents (Elt Ideal)) : (⟨S8x2048x11, .i32⟩ : BufTy).Contents (Elt Ideal) :=
  select (cmpi .slt (gathG2 x ids2) (broadcastInDim S8x2048x11 ![] bcast_S_S8x2048x11 (constantI S_ 32 0#32)))
    (addi (gathG2 x ids2) (broadcastInDim S8x2048x11 ![] bcast_S_S8x2048x11 (constantI S_ 32 10001#32)))
    (gathG2 x ids2)

/-- Order 2: every gram's embedding, the row of `tab2` at the gram's identifier. -/
def gathE2 (x : (⟨S8x2048, .i32⟩ : BufTy).Contents (Elt Ideal)) (ids2 : (⟨S50000x11, .i32⟩ : BufTy).Contents (Elt Ideal)) (tab2 : (⟨S10001x256, .f32⟩ : BufTy).Contents (Elt Ideal)) : (⟨S8x2048x11x256, .f32⟩ : BufTy).Contents (Elt Ideal) :=
  Host.gather gather_S10001x256_S8x2048x11x1_S8x2048x11x256_3_0_n_n_0_3_1256 tab2
    (broadcastInDim S8x2048x11x1 ![0, 1, 2] bcast_S8x2048x11_S8x2048x11x1_0_1_2 (gramIdx2 x ids2))

/-! ## Order 3 -/

/-- Order 3: every token's 10 gram identifiers, the row of `ids3` at the token's word. -/
def gathG3 (x : (⟨S8x2048, .i32⟩ : BufTy).Contents (Elt Ideal)) (ids3 : (⟨S50000x10, .i32⟩ : BufTy).Contents (Elt Ideal)) : (⟨S8x2048x10, .i32⟩ : BufTy).Contents (Elt Ideal) :=
  Host.gather gather_S50000x10_S8x2048x1_S8x2048x10_2_0_n_n_0_2_110 ids3 (wordStart x)

/-- Order 3: every token's number of valid grams, the entry of `cnt3` at the token's word. -/
def gathC3 (x : (⟨S8x2048, .i32⟩ : BufTy).Contents (Elt Ideal)) (cnt3 : (⟨S50000, .i32⟩ : BufTy).Contents (Elt Ideal)) : (⟨S8x2048, .i32⟩ : BufTy).Contents (Elt Ideal) :=
  Host.gather gather_S50000_S8x2048x1_S8x2048_n_0_n_n_0_2_1 cnt3 (wordStart x)

/-- Order 3: the gram identifiers as row numbers of `tab3`, a negative one counted from the end of its rows. -/
def gramIdx3 (x : (⟨S8x2048, .i32⟩ : BufTy).Contents (Elt Ideal)) (ids3 : (⟨S50000x10, .i32⟩ : BufTy).Contents (Elt Ideal)) : (⟨S8x2048x10, .i32⟩ : BufTy).Contents (Elt Ideal) :=
  select (cmpi .slt (gathG3 x ids3) (broadcastInDim S8x2048x10 ![] bcast_S_S8x2048x10 (constantI S_ 32 0#32)))
    (addi (gathG3 x ids3) (broadcastInDim S8x2048x10 ![] bcast_S_S8x2048x10 (constantI S_ 32 50001#32)))
    (gathG3 x ids3)

/-- Order 3: every gram's embedding, the row of `tab3` at the gram's identifier. -/
def gathE3 (x : (⟨S8x2048, .i32⟩ : BufTy).Contents (Elt Ideal)) (ids3 : (⟨S50000x10, .i32⟩ : BufTy).Contents (Elt Ideal)) (tab3 : (⟨S50001x256, .f32⟩ : BufTy).Contents (Elt Ideal)) : (⟨S8x2048x10x256, .f32⟩ : BufTy).Contents (Elt Ideal) :=
  Host.gather gather_S50001x256_S8x2048x10x1_S8x2048x10x256_3_0_n_n_0_3_1256 tab3
    (broadcastInDim S8x2048x10x1 ![0, 1, 2] bcast_S8x2048x10_S8x2048x10x1_0_1_2 (gramIdx3 x ids3))

/-! ## The result's assembly -/

/-- The word indices clipped to `0 … 3`, the rows of the special-word table. -/
def clipIdx (x : (⟨S8x2048, .i32⟩ : BufTy).Contents (Elt Ideal)) : (⟨S8x2048, .i32⟩ : BufTy).Contents (Elt Ideal) :=
  minsi (broadcastInDim S8x2048 ![] bcast_S_S8x2048 (constantI S_ 32 3#32))
    (maxsi (broadcastInDim S8x2048 ![] bcast_S_S8x2048 (constantI S_ 32 0#32)) x)

/-- Every token's special-word embedding: the row of `tab0` at the clipped word index. -/
def gathSpecial (x : (⟨S8x2048, .i32⟩ : BufTy).Contents (Elt Ideal)) (tab0 : (⟨S4x768, .f32⟩ : BufTy).Contents (Elt Ideal)) : (⟨S8x2048x768, .f32⟩ : BufTy).Contents (Elt Ideal) :=
  Host.gather gather_S4x768_S8x2048x1_S8x2048x768_2_0_n_n_0_2_1768 tab0
    (broadcastInDim S8x2048x1 ![0, 1] bcast_S8x2048_S8x2048x1_0_1
      (select (cmpi .slt (clipIdx x) (broadcastInDim S8x2048 ![] bcast_S_S8x2048 (constantI S_ 32 0#32)))
        (addi (clipIdx x) (broadcastInDim S8x2048 ![] bcast_S_S8x2048 (constantI S_ 32 4#32)))
        (clipIdx x)))

/-- The bit "the word index is below four", on every coordinate of the token's embedding. -/
def isSpecial (x : (⟨S8x2048, .i32⟩ : BufTy).Contents (Elt Ideal)) : (⟨S8x2048x768, .i1⟩ : BufTy).Contents (Elt Ideal) :=
  broadcastInDim S8x2048x768 ![0, 1, 2] bcast_S8x2048x1_S8x2048x768_0_1_2
    (broadcastInDim S8x2048x1 ![0, 1] bcast_S8x2048_S8x2048x1_0_1
      (cmpi .slt x (broadcastInDim S8x2048 ![] bcast_S_S8x2048 (constantI S_ 32 4#32))))

/-- The program's last stages: the three orders' results joined along the embedding axis, and on the tokens whose
    word index is below four the special-word embedding instead. -/
def combine (x : (⟨S8x2048, .i32⟩ : BufTy).Contents (Elt Ideal)) (tab0 : (⟨S4x768, .f32⟩ : BufTy).Contents (Elt Ideal)) (o1 o2 o3 : (⟨S8x2048x256, .f32⟩ : BufTy).Contents (Elt Ideal)) : (⟨S8x2048x768, .f32⟩ : BufTy).Contents (Elt Ideal) :=
  select (isSpecial x) (gathSpecial x tab0)
    (concatenate S8x2048x768 2 [⟨S8x2048x256, o1⟩, ⟨S8x2048x256, o2⟩, ⟨S8x2048x256, o3⟩]
      concatenates_S8x2048x256_S8x2048x256_S8x2048x256_S8x2048x768_d2)

end Cert.ReferenceIdeal.RefMean

end
-- ==== Proof.KI.Value.lean ====
/-
  The kernel program's result, as one function of its arguments.

  Before the regions the host operations compute, for each n-gram order, the gathered embeddings and counts; these are
  the same compositions of the same operations as in the reference program. Each region leaves in its result array the
  masked mean of the two arrays it was entered with (a region changes neither, and an earlier region's result is not a
  later region's input). After the regions the host operations join the three results along the embedding axis and
  replace the tokens whose word index is below four by their special-word embedding.
-/
import proofs.«140809_j7954279432569_2_alg».proof.Proof.KI.Run
import proofs.«140809_j7954279432569_2_alg».proof.Proof.KI.Final0
import proofs.«140809_j7954279432569_2_alg».proof.Proof.KI.Final1
import proofs.«140809_j7954279432569_2_alg».proof.Proof.KI.Final2
import proofs.«140809_j7954279432569_2_alg».proof.Proof.RefDefs
import Idealize.ShloMosaic.Lib.StableHlo.Run

set_option maxRecDepth 16384

noncomputable section

namespace Cert.KernelIdeal.Hand

open Cert.KernelIdeal Cert.KernelIdeal.Gen Cert.NGram
open Idealize.ShloMosaic Idealize.ShloMosaic.TcCoe Idealize.ShloMosaic.StableHlo
open Idealize.SL Idealize.SL.Sem
open Cert.ReferenceIdeal.RefMean (gathE1 gathC1 gathE2 gathC2 gathE3 gathC3 combine)

variable (m : (ℓ : Loc nD τ sig) → Buf (Elt Ideal) ℓ) (ρ : Dev nD → PrngReg)

/-! ## The gathered arrays the regions are entered with -/

theorem gathered_e1 (c : Dev nD) : W1 m ρ c (Proc.devRef .tc main_v20)
    = gathE1 (m ((c : Thread nD τ).loc main_arg0)) (m ((c : Thread nD τ).loc main_arg5)) (m ((c : Thread nD τ).loc main_arg2)) := by
  show StableHlo.after hostOps0 (W0 m ρ c) (Proc.devRef .tc main_v20) = _
  after_results_simp
  rfl

theorem gathered_c1 (c : Dev nD) : W1 m ρ c (Proc.devRef .tc main_v13)
    = gathC1 (m ((c : Thread nD τ).loc main_arg0)) (m ((c : Thread nD τ).loc main_arg8)) := by
  show StableHlo.after hostOps0 (W0 m ρ c) (Proc.devRef .tc main_v13) = _
  after_results_simp
  rfl

theorem gathered_e2 (c : Dev nD) : W1 m ρ c (Proc.devRef .tc main_v41)
    = gathE2 (m ((c : Thread nD τ).loc main_arg0)) (m ((c : Thread nD τ).loc main_arg6)) (m ((c : Thread nD τ).loc main_arg3)) := by
  show StableHlo.after hostOps0 (W0 m ρ c) (Proc.devRef .tc main_v41) = _
  after_results_simp
  rfl

theorem gathered_c2 (c : Dev nD) : W1 m ρ c (Proc.devRef .tc main_v34)
    = gathC2 (m ((c : Thread nD τ).loc main_arg0)) (m ((c : Thread nD τ).loc main_arg9)) := by
  show StableHlo.after hostOps0 (W0 m ρ c) (Proc.devRef .tc main_v34) = _
  after_results_simp
  rfl

theorem gathered_e3 (c : Dev nD) : W1 m ρ c (Proc.devRef .tc main_v62)
    = gathE3 (m ((c : Thread nD τ).loc main_arg0)) (m ((c : Thread nD τ).loc main_arg7)) (m ((c : Thread nD τ).loc main_arg4)) := by
  show StableHlo.after hostOps0 (W0 m ρ c) (Proc.devRef .tc main_v62) = _
  after_results_simp
  rfl

theorem gathered_c3 (c : Dev nD) : W1 m ρ c (Proc.devRef .tc main_v55)
    = gathC3 (m ((c : Thread nD τ).loc main_arg0)) (m ((c : Thread nD τ).loc main_arg10)) := by
  show StableHlo.after hostOps0 (W0 m ρ c) (Proc.devRef .tc main_v55) = _
  after_results_simp
  rfl

/-! ## The three results after the regions -/

/-- Order 1's result array after the three regions. -/
theorem result1 (c : Dev nD) : W4 m ρ c (Proc.devRef .tc main_v63)
    = orderMean 2048 12 (gathE1 (m ((c : Thread nD τ).loc main_arg0)) (m ((c : Thread nD τ).loc main_arg5)) (m ((c : Thread nD τ).loc main_arg2)))
        (gathC1 (m ((c : Thread nD τ).loc main_arg0)) (m ((c : Thread nD τ).loc main_arg8))) :=
  calc W4 m ρ c (Proc.devRef .tc main_v63)
    _ = W3 m ρ c (Proc.devRef .tc main_v63) := W4_of_ne m ρ c main_v63 (by decide)
    _ = W2 m ρ c (Proc.devRef .tc main_v63) := W3_of_ne m ρ c main_v63 (by decide)
    _ = (dat0 (V1 m ρ) c).arrAt 2 cfg0.N := W2_arr m ρ c 2
    _ = orderMean 2048 12 (V1 m ρ c main_v20) (V1 m ρ c main_v13) := final0 (V1 m ρ) c
    _ = _ := by
      show orderMean 2048 12 (W1 m ρ c (Proc.devRef .tc main_v20)) (W1 m ρ c (Proc.devRef .tc main_v13)) = _
      rw [gathered_e1, gathered_c1]

/-- Order 2's result array after the three regions: region 0 left its inputs as it found them. -/
theorem result2 (c : Dev nD) : W4 m ρ c (Proc.devRef .tc main_v64)
    = orderMean 2048 11 (gathE2 (m ((c : Thread nD τ).loc main_arg0)) (m ((c : Thread nD τ).loc main_arg6)) (m ((c : Thread nD τ).loc main_arg3)))
        (gathC2 (m ((c : Thread nD τ).loc main_arg0)) (m ((c : Thread nD τ).loc main_arg9))) :=
  calc W4 m ρ c (Proc.devRef .tc main_v64)
    _ = W3 m ρ c (Proc.devRef .tc main_v64) := W4_of_ne m ρ c main_v64 (by decide)
    _ = (dat1 (V2 m ρ) c).arrAt 2 cfg1.N := W3_arr m ρ c 2
    _ = orderMean 2048 11 (V2 m ρ c main_v41) (V2 m ρ c main_v34) := final1 (V2 m ρ) c
    _ = _ := by
      show orderMean 2048 11 (W2 m ρ c (Proc.devRef .tc main_v41)) (W2 m ρ c (Proc.devRef .tc main_v34)) = _
      rw [W2_of_ne m ρ c main_v41 (by decide), W2_of_ne m ρ c main_v34 (by decide), gathered_e2, gathered_c2]

/-- Order 3's result array after the three regions: regions 0 and 1 left its inputs as they found them. -/
theorem result3 (c : Dev nD) : W4 m ρ c (Proc.devRef .tc main_v65)
    = orderMean 2048 10 (gathE3 (m ((c : Thread nD τ).loc main_arg0)) (m ((c : Thread nD τ).loc main_arg7)) (m ((c : Thread nD τ).loc main_arg4)))
        (gathC3 (m ((c : Thread nD τ).loc main_arg0)) (m ((c : Thread nD τ).loc main_arg10))) :=
  calc W4 m ρ c (Proc.devRef .tc main_v65)
    _ = (dat2 (V3 m ρ) c).arrAt 2 cfg2.N := W4_arr m ρ c 2
    _ = orderMean 2048 10 (V3 m ρ c main_v62) (V3 m ρ c main_v55) := final2 (V3 m ρ) c
    _ = _ := by
      show orderMean 2048 10 (W3 m ρ c (Proc.devRef .tc main_v62)) (W3 m ρ c (Proc.devRef .tc main_v55)) = _
      rw [W3_of_ne m ρ c main_v62 (by decide), W3_of_ne m ρ c main_v55 (by decide),
        W2_of_ne m ρ c main_v62 (by decide), W2_of_ne m ρ c main_v55 (by decide), gathered_e3, gathered_c3]

/-- An argument's buffer after the regions holds what it held at launch. -/
theorem W4_arg (c : Dev nD) (b : Ref sig .tc) (hb : b ∈ argRefs) : W4 m ρ c (Proc.devRef .tc b) = m ((c : Thread nD τ).loc b) :=
  calc W4 m ρ c (Proc.devRef .tc b)
    _ = W3 m ρ c (Proc.devRef .tc b) := W4_of_ne m ρ c b fun w e => arr_not_arg2 w (e ▸ hb)
    _ = W2 m ρ c (Proc.devRef .tc b) := W3_of_ne m ρ c b fun w e => arr_not_arg1 w (e ▸ hb)
    _ = W1 m ρ c (Proc.devRef .tc b) := W2_of_ne m ρ c b fun w e => arr_not_arg0 w (e ▸ hb)
    _ = W0 m ρ c (Proc.devRef .tc b) := kept_before _ b hb
    _ = m ((c : Thread nD τ).loc b) := rfl

/-! ## The result at the return -/

/-- The last host operations, read at the result buffer: the join of the three results, with the special-word rows. -/
theorem tail_read (c : Dev nD) : W8 m ρ c (Proc.devRef .tc main_v78)
    = combine (W4 m ρ c (Proc.devRef .tc main_arg0)) (W4 m ρ c (Proc.devRef .tc main_arg1))
        (W4 m ρ c (Proc.devRef .tc main_v63)) (W4 m ρ c (Proc.devRef .tc main_v64)) (W4 m ρ c (Proc.devRef .tc main_v65)) := by
  show StableHlo.after hostOps3_3 (StableHlo.after hostOps3_2 (StableHlo.after hostOps3_1 (StableHlo.after hostOps3 (W4 m ρ c))))
    (Proc.devRef .tc main_v78) = _
  after_results_simp
  simp only [TRef.toBuf, TRef.ofBuf, cast_eq]
  rfl

/-- The program's result buffer at the return, as a function of the launch memory's argument arrays. -/
theorem value (c : Dev nD) : W8 m ρ c (Proc.devRef .tc main_v78)
    = combine (m ((c : Thread nD τ).loc main_arg0)) (m ((c : Thread nD τ).loc main_arg1))
        (orderMean 2048 12 (gathE1 (m ((c : Thread nD τ).loc main_arg0)) (m ((c : Thread nD τ).loc main_arg5)) (m ((c : Thread nD τ).loc main_arg2)))
          (gathC1 (m ((c : Thread nD τ).loc main_arg0)) (m ((c : Thread nD τ).loc main_arg8))))
        (orderMean 2048 11 (gathE2 (m ((c : Thread nD τ).loc main_arg0)) (m ((c : Thread nD τ).loc main_arg6)) (m ((c : Thread nD τ).loc main_arg3)))
          (gathC2 (m ((c : Thread nD τ).loc main_arg0)) (m ((c : Thread nD τ).loc main_arg9))))
        (orderMean 2048 10 (gathE3 (m ((c : Thread nD τ).loc main_arg0)) (m ((c : Thread nD τ).loc main_arg7)) (m ((c : Thread nD τ).loc main_arg4)))
          (gathC3 (m ((c : Thread nD τ).loc main_arg0)) (m ((c : Thread nD τ).loc main_arg10)))) := by
  rw [tail_read, W4_arg m ρ c main_arg0 (by decide), W4_arg m ρ c main_arg1 (by decide), result1, result2, result3]

end Cert.KernelIdeal.Hand

end
-- ==== Proof.RefStageDefs.lean ====
/-
  The reference's per-order stages after the gathers, as functions of an arbitrary array of gram embeddings
  and an arbitrary array of counts: each is the composition of the program's own operations in program order.
-/
import proofs.«140809_j7954279432569_2_alg».proof.Proof.RefDefs

noncomputable section

namespace Cert.ReferenceIdeal.RefHand

open Cert.ReferenceIdeal Cert.ReferenceIdeal.Gen Idealize.ShloMosaic

/-- Order 1 (12 gram positions): the stages after the gathers, applied to an array `e` of gram embeddings and an
    array `c` of counts. The position numbers `0 … 11` are compared (signed) with the token's count, the bit is
    read as an unsigned integer and repeated along the embedding axis, the embeddings are multiplied by it and
    summed over the positions from the zero constant, and the sum is divided by the count read signed. -/
def stage1 (e : FVec Ideal S8x2048x12x256 .f32) (c : Vec Ideal S8x2048 .i32) : FVec Ideal S8x2048x256 .f32 :=
  Host.divf (F := Ideal)
    (Host.reduceAdd (F := Ideal)
      (mulf e
        (broadcastInDim S8x2048x12x256 ![0, 1, 2, 3] bcast_S8x2048x12x1_S8x2048x12x256_0_1_2_3
          (broadcastInDim S8x2048x12x1 ![0, 1, 2] bcast_S8x2048x12_S8x2048x12x1_0_1_2
            (uitofp (F := Ideal) .f32
              (cmpi .slt
                (broadcastInDim S8x2048x12 ![0, 1, 2] bcast_S1x1x12_S8x2048x12_0_1_2
                  (broadcastInDim S1x1x12 ![2] bcast_S12_S1x1x12_2 (iotaInDim S12 32 0)))
                (broadcastInDim S8x2048x12 ![0, 1, 2] bcast_S8x2048x1_S8x2048x12_0_1_2
                  (broadcastInDim S8x2048x1 ![0, 1] bcast_S8x2048_S8x2048x1_0_1 c)))))))
      (constant (F := Ideal) S_ .f32 0x00000000#32)
      reducesTo_S8x2048x12x256_S8x2048x256_d2 h_S_)
    (broadcastInDim S8x2048x256 ![0, 1, 2] bcast_S8x2048x1_S8x2048x256_0_1_2
      (sitofp (F := Ideal) .f32 (broadcastInDim S8x2048x1 ![0, 1] bcast_S8x2048_S8x2048x1_0_1 c)))

/-- Order 2 (11 gram positions): the stages after the gathers, applied to an array `e` of gram embeddings and an
    array `c` of counts. The position numbers `0 … 10` are compared (signed) with the token's count, the bit is
    read as an unsigned integer and repeated along the embedding axis, the embeddings are multiplied by it and
    summed over the positions from the zero constant, and the sum is divided by the count read signed. -/
def stage2 (e : FVec Ideal S8x2048x11x256 .f32) (c : Vec Ideal S8x2048 .i32) : FVec Ideal S8x2048x256 .f32 :=
  Host.divf (F := Ideal)
    (Host.reduceAdd (F := Ideal)
      (mulf e
        (broadcastInDim S8x2048x11x256 ![0, 1, 2, 3] bcast_S8x2048x11x1_S8x2048x11x256_0_1_2_3
          (broadcastInDim S8x2048x11x1 ![0, 1, 2] bcast_S8x2048x11_S8x2048x11x1_0_1_2
            (uitofp (F := Ideal) .f32
              (cmpi .slt
                (broadcastInDim S8x2048x11 ![0, 1, 2] bcast_S1x1x11_S8x2048x11_0_1_2
                  (broadcastInDim S1x1x11 ![2] bcast_S11_S1x1x11_2 (iotaInDim S11 32 0)))
                (broadcastInDim S8x2048x11 ![0, 1, 2] bcast_S8x2048x1_S8x2048x11_0_1_2
                  (broadcastInDim S8x2048x1 ![0, 1] bcast_S8x2048_S8x2048x1_0_1 c)))))))
      (constant (F := Ideal) S_ .f32 0x00000000#32)
      reducesTo_S8x2048x11x256_S8x2048x256_d2 h_S_)
    (broadcastInDim S8x2048x256 ![0, 1, 2] bcast_S8x2048x1_S8x2048x256_0_1_2
      (sitofp (F := Ideal) .f32 (broadcastInDim S8x2048x1 ![0, 1] bcast_S8x2048_S8x2048x1_0_1 c)))

/-- Order 3 (10 gram positions): the stages after the gathers, applied to an array `e` of gram embeddings and an
    array `c` of counts. The position numbers `0 … 9` are compared (signed) with the token's count, the bit is
    read as an unsigned integer and repeated along the embedding axis, the embeddings are multiplied by it and
    summed over the positions from the zero constant, and the sum is divided by the count read signed. -/
def stage3 (e : FVec Ideal S8x2048x10x256 .f32) (c : Vec Ideal S8x2048 .i32) : FVec Ideal S8x2048x256 .f32 :=
  Host.divf (F := Ideal)
    (Host.reduceAdd (F := Ideal)
      (mulf e
        (broadcastInDim S8x2048x10x256 ![0, 1, 2, 3] bcast_S8x2048x10x1_S8x2048x10x256_0_1_2_3
          (broadcastInDim S8x2048x10x1 ![0, 1, 2] bcast_S8x2048x10_S8x2048x10x1_0_1_2
            (uitofp (F := Ideal) .f32
              (cmpi .slt
                (broadcastInDim S8x2048x10 ![0, 1, 2] bcast_S1x1x10_S8x2048x10_0_1_2
                  (broadcastInDim S1x1x10 ![2] bcast_S10_S1x1x10_2 (iotaInDim S10 32 0)))
                (broadcastInDim S8x2048x10 ![0, 1, 2] bcast_S8x2048x1_S8x2048x10_0_1_2
                  (broadcastInDim S8x2048x1 ![0, 1] bcast_S8x2048_S8x2048x1_0_1 c)))))))
      (constant (F := Ideal) S_ .f32 0x00000000#32)
      reducesTo_S8x2048x10x256_S8x2048x256_d2 h_S_)
    (broadcastInDim S8x2048x256 ![0, 1, 2] bcast_S8x2048x1_S8x2048x256_0_1_2
      (sitofp (F := Ideal) .f32 (broadcastInDim S8x2048x1 ![0, 1] bcast_S8x2048_S8x2048x1_0_1 c)))

end Cert.ReferenceIdeal.RefHand

end
-- ==== Proof.RefRun.lean ====
/-
  The reference program's run, read back.

  The reference is a host program: one hundred and fifty-three operations in a line (the two functions jax outlined,
  the clipping of the word indices and the selection, stand with their operations at their call sites). Every weakly
  fair execution ends with each buffer at the fold of the operations over the launch contents. Read at the result
  buffer, the fold is the composition the program's text spells: per n-gram order the mask, the product, the sum over
  the gram axis and the quotient (`stage1`, `stage2`, `stage3`) of the order's gathered arrays, then the join and the
  special-word rows (`combine`). No operation writes an argument.
-/
import proofs.«140809_j7954279432569_2_alg».proof.Proof.Gen.ReferenceIdeal
import proofs.«140809_j7954279432569_2_alg».proof.Proof.RefStageDefs
import Idealize.ShloMosaic.Lib.StableHlo.Run

set_option maxRecDepth 16384

noncomputable section

namespace Cert.ReferenceIdeal.RefHand

open Cert.ReferenceIdeal Cert.ReferenceIdeal.Gen Idealize.ShloMosaic Idealize.ShloMosaic.TcCoe Idealize.SL.Sem Idealize.ShloMosaic.StableHlo
open Cert.ReferenceIdeal.RefMean (gathE1 gathC1 gathE2 gathC2 gathE3 gathC3 combine)

variable {F : FTy → Type} [FloatOps F]

/-- The program's operations, in order. -/
abbrev ops : List (HloOp τ sig (Elt F)) :=
  [ StableHlo.nullary main_c (constantI S_ 32 0#32),
    StableHlo.unary main_c main_v0 (broadcastInDim S8x2048 ![] bcast_S_S8x2048 : (⟨S_, .i32⟩ : BufTy).Contents (Elt F) → (⟨S8x2048, .i32⟩ : BufTy).Contents (Elt F)),
    StableHlo.binary main_arg0 main_v0 main_v1 (cmpi .slt : (⟨S8x2048, .i32⟩ : BufTy).Contents (Elt F) → (⟨S8x2048, .i32⟩ : BufTy).Contents (Elt F) → (⟨S8x2048, .i1⟩ : BufTy).Contents (Elt F)),
    StableHlo.nullary main_c_0 (constantI S_ 32 50000#32),
    StableHlo.unary main_c_0 main_v2 (broadcastInDim S8x2048 ![] bcast_S_S8x2048 : (⟨S_, .i32⟩ : BufTy).Contents (Elt F) → (⟨S8x2048, .i32⟩ : BufTy).Contents (Elt F)),
    StableHlo.binary main_arg0 main_v2 main_v3 (addi : (⟨S8x2048, .i32⟩ : BufTy).Contents (Elt F) → (⟨S8x2048, .i32⟩ : BufTy).Contents (Elt F) → (⟨S8x2048, .i32⟩ : BufTy).Contents (Elt F)),
    StableHlo.ternary main_v1 main_v3 main_arg0 main_v4 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    StableHlo.unary main_v4 main_v5 (broadcastInDim S8x2048x1 ![0, 1] bcast_S8x2048_S8x2048x1_0_1 : (⟨S8x2048, .i32⟩ : BufTy).Contents (Elt F) → (⟨S8x2048x1, .i32⟩ : BufTy).Contents (Elt F)),
    StableHlo.binary main_arg5 main_v5 main_v6 ((fun x i => Host.gather gather_S50000x12_S8x2048x1_S8x2048x12_2_0_n_n_0_2_112 x i) : (⟨S50000x12, .i32⟩ : BufTy).Contents (Elt F) → (⟨S8x2048x1, .i32⟩ : BufTy).Contents (Elt F) → (⟨S8x2048x12, .i32⟩ : BufTy).Contents (Elt F)),
    StableHlo.nullary main_c_1 (constantI S_ 32 0#32),
    StableHlo.unary main_c_1 main_v7 (broadcastInDim S8x2048 ![] bcast_S_S8x2048 : (⟨S_, .i32⟩ : BufTy).Contents (Elt F) → (⟨S8x2048, .i32⟩ : BufTy).Contents (Elt F)),
    StableHlo.binary main_arg0 main_v7 main_v8 (cmpi .slt : (⟨S8x2048, .i32⟩ : BufTy).Contents (Elt F) → (⟨S8x2048, .i32⟩ : BufTy).Contents (Elt F) → (⟨S8x2048, .i1⟩ : BufTy).Contents (Elt F)),
    StableHlo.nullary main_c_2 (constantI S_ 32 50000#32),
    StableHlo.unary main_c_2 main_v9 (broadcastInDim S8x2048 ![] bcast_S_S8x2048 : (⟨S_, .i32⟩ : BufTy).Contents (Elt F) → (⟨S8x2048, .i32⟩ : BufTy).Contents (Elt F)),
    StableHlo.binary main_arg0 main_v9 main_v10 (addi : (⟨S8x2048, .i32⟩ : BufTy).Contents (Elt F) → (⟨S8x2048, .i32⟩ : BufTy).Contents (Elt F) → (⟨S8x2048, .i32⟩ : BufTy).Contents (Elt F)),
    StableHlo.ternary main_v8 main_v10 main_arg0 main_v11 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    StableHlo.unary main_v11 main_v12 (broadcastInDim S8x2048x1 ![0, 1] bcast_S8x2048_S8x2048x1_0_1 : (⟨S8x2048, .i32⟩ : BufTy).Contents (Elt F) → (⟨S8x2048x1, .i32⟩ : BufTy).Contents (Elt F)),
    StableHlo.binary main_arg8 main_v12 main_v13 ((fun x i => Host.gather gather_S50000_S8x2048x1_S8x2048_n_0_n_n_0_2_1 x i) : (⟨S50000, .i32⟩ : BufTy).Contents (Elt F) → (⟨S8x2048x1, .i32⟩ : BufTy).Contents (Elt F) → (⟨S8x2048, .i32⟩ : BufTy).Contents (Elt F)),
    StableHlo.nullary main_c_3 (constantI S_ 32 0#32),
    StableHlo.unary main_c_3 main_v14 (broadcastInDim S8x2048x12 ![] bcast_S_S8x2048x12 : (⟨S_, .i32⟩ : BufTy).Contents (Elt F) → (⟨S8x2048x12, .i32⟩ : BufTy).Contents (Elt F)),
    StableHlo.binary main_v6 main_v14 main_v15 (cmpi .slt : (⟨S8x2048x12, .i32⟩ : BufTy).Contents (Elt F) → (⟨S8x2048x12, .i32⟩ : BufTy).Contents (Elt F) → (⟨S8x2048x12, .i1⟩ : BufTy).Contents (Elt F)),
    StableHlo.nullary main_c_4 (constantI S_ 32 1001#32),
    StableHlo.unary main_c_4 main_v16 (broadcastInDim S8x2048x12 ![] bcast_S_S8x2048x12 : (⟨S_, .i32⟩ : BufTy).Contents (Elt F) → (⟨S8x2048x12, .i32⟩ : BufTy).Contents (Elt F)),
    StableHlo.binary main_v6 main_v16 main_v17 (addi : (⟨S8x2048x12, .i32⟩ : BufTy).Contents (Elt F) → (⟨S8x2048x12, .i32⟩ : BufTy).Contents (Elt F) → (⟨S8x2048x12, .i32⟩ : BufTy).Contents (Elt F)),
    StableHlo.ternary main_v15 main_v17 main_v6 main_v18 (select : (⟨S8x2048x12, .i1⟩ : BufTy).Contents (Elt F) → (⟨S8x2048x12, .i32⟩ : BufTy).Contents (Elt F) → (⟨S8x2048x12, .i32⟩ : BufTy).Contents (Elt F) → (⟨S8x2048x12, .i32⟩ : BufTy).Contents (Elt F)),
    StableHlo.unary main_v18 main_v19 (broadcastInDim S8x2048x12x1 ![0, 1, 2] bcast_S8x2048x12_S8x2048x12x1_0_1_2 : (⟨S8x2048x12, .i32⟩ : BufTy).Contents (Elt F) → (⟨S8x2048x12x1, .i32⟩ : BufTy).Contents (Elt F)),
    StableHlo.binary main_arg2 main_v19 main_v20 ((fun x i => Host.gather gather_S1001x256_S8x2048x12x1_S8x2048x12x256_3_0_n_n_0_3_1256 x i) : (⟨S1001x256, .f32⟩ : BufTy).Contents (Elt F) → (⟨S8x2048x12x1, .i32⟩ : BufTy).Contents (Elt F) → (⟨S8x2048x12x256, .f32⟩ : BufTy).Contents (Elt F)),
    StableHlo.nullary main_v21 (iotaInDim S12 32 0),
    StableHlo.unary main_v13 main_v22 (broadcastInDim S8x2048x1 ![0, 1] bcast_S8x2048_S8x2048x1_0_1 : (⟨S8x2048, .i32⟩ : BufTy).Contents (Elt F) → (⟨S8x2048x1, .i32⟩ : BufTy).Contents (Elt F)),
    StableHlo.unary main_v21 main_v23 (broadcastInDim S1x1x12 ![2] bcast_S12_S1x1x12_2 : (⟨S12, .i32⟩ : BufTy).Contents (Elt F) → (⟨S1x1x12, .i32⟩ : BufTy).Contents (Elt F)),
    StableHlo.unary main_v23 main_v24 (broadcastInDim S8x2048x12 ![0, 1, 2] bcast_S1x1x12_S8x2048x12_0_1_2 : (⟨S1x1x12, .i32⟩ : BufTy).Contents (Elt F) → (⟨S8x2048x12, .i32⟩ : BufTy).Contents (Elt F)),
    StableHlo.unary main_v22 main_v25 (broadcastInDim S8x2048x12 ![0, 1, 2] bcast_S8x2048x1_S8x2048x12_0_1_2 : (⟨S8x2048x1, .i32⟩ : BufTy).Contents (Elt F) → (⟨S8x2048x12, .i32⟩ : BufTy).Contents (Elt F)),
    StableHlo.binary main_v24 main_v25 main_v26 (cmpi .slt : (⟨S8x2048x12, .i32⟩ : BufTy).Contents (Elt F) → (⟨S8x2048x12, .i32⟩ : BufTy).Contents (Elt F) → (⟨S8x2048x12, .i1⟩ : BufTy).Contents (Elt F)),
    StableHlo.unary main_v26 main_v27 (uitofp .f32 : (⟨S8x2048x12, .i1⟩ : BufTy).Contents (Elt F) → (⟨S8x2048x12, .f32⟩ : BufTy).Contents (Elt F)),
    StableHlo.unary main_v27 main_v28 (broadcastInDim S8x2048x12x1 ![0, 1, 2] bcast_S8x2048x12_S8x2048x12x1_0_1_2 : (⟨S8x2048x12, .f32⟩ : BufTy).Contents (Elt F) → (⟨S8x2048x12x1, .f32⟩ : BufTy).Contents (Elt F)),
    StableHlo.unary main_v28 main_v29 (broadcastInDim S8x2048x12x256 ![0, 1, 2, 3] bcast_S8x2048x12x1_S8x2048x12x256_0_1_2_3 : (⟨S8x2048x12x1, .f32⟩ : BufTy).Contents (Elt F) → (⟨S8x2048x12x256, .f32⟩ : BufTy).Contents (Elt F)),
    StableHlo.binary main_v20 main_v29 main_v30 (mulf : (⟨S8x2048x12x256, .f32⟩ : BufTy).Contents (Elt F) → (⟨S8x2048x12x256, .f32⟩ : BufTy).Contents (Elt F) → (⟨S8x2048x12x256, .f32⟩ : BufTy).Contents (Elt F)),
    StableHlo.nullary main_cst (constant S_ .f32 0x00000000#32),
    StableHlo.binary main_v30 main_cst main_v31 ((fun x v => Host.reduceAdd x v reducesTo_S8x2048x12x256_S8x2048x256_d2 h_S_) : (⟨S8x2048x12x256, .f32⟩ : BufTy).Contents (Elt F) → (⟨S_, .f32⟩ : BufTy).Contents (Elt F) → (⟨S8x2048x256, .f32⟩ : BufTy).Contents (Elt F)),
    StableHlo.unary main_v13 main_v32 (broadcastInDim S8x2048x1 ![0, 1] bcast_S8x2048_S8x2048x1_0_1 : (⟨S8x2048, .i32⟩ : BufTy).Contents (Elt F) → (⟨S8x2048x1, .i32⟩ : BufTy).Contents (Elt F)),
    StableHlo.unary main_v32 main_v33 (sitofp .f32 : (⟨S8x2048x1, .i32⟩ : BufTy).Contents (Elt F) → (⟨S8x2048x1, .f32⟩ : BufTy).Contents (Elt F)),
    StableHlo.unary main_v33 main_v34 (broadcastInDim S8x2048x256 ![0, 1, 2] bcast_S8x2048x1_S8x2048x256_0_1_2 : (⟨S8x2048x1, .f32⟩ : BufTy).Contents (Elt F) → (⟨S8x2048x256, .f32⟩ : BufTy).Contents (Elt F)),
    StableHlo.binary main_v31 main_v34 main_v35 (Host.divf : (⟨S8x2048x256, .f32⟩ : BufTy).Contents (Elt F) → (⟨S8x2048x256, .f32⟩ : BufTy).Contents (Elt F) → (⟨S8x2048x256, .f32⟩ : BufTy).Contents (Elt F)),
    StableHlo.nullary main_c_5 (constantI S_ 32 0#32),
    StableHlo.unary main_c_5 main_v36 (broadcastInDim S8x2048 ![] bcast_S_S8x2048 : (⟨S_, .i32⟩ : BufTy).Contents (Elt F) → (⟨S8x2048, .i32⟩ : BufTy).Contents (Elt F)),
    StableHlo.binary main_arg0 main_v36 main_v37 (cmpi .slt : (⟨S8x2048, .i32⟩ : BufTy).Contents (Elt F) → (⟨S8x2048, .i32⟩ : BufTy).Contents (Elt F) → (⟨S8x2048, .i1⟩ : BufTy).Contents (Elt F)),
    StableHlo.nullary main_c_6 (constantI S_ 32 50000#32),
    StableHlo.unary main_c_6 main_v38 (broadcastInDim S8x2048 ![] bcast_S_S8x2048 : (⟨S_, .i32⟩ : BufTy).Contents (Elt F) → (⟨S8x2048, .i32⟩ : BufTy).Contents (Elt F)),
    StableHlo.binary main_arg0 main_v38 main_v39 (addi : (⟨S8x2048, .i32⟩ : BufTy).Contents (Elt F) → (⟨S8x2048, .i32⟩ : BufTy).Contents (Elt F) → (⟨S8x2048, .i32⟩ : BufTy).Contents (Elt F)),
    StableHlo.ternary main_v37 main_v39 main_arg0 main_v40 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    StableHlo.unary main_v40 main_v41 (broadcastInDim S8x2048x1 ![0, 1] bcast_S8x2048_S8x2048x1_0_1 : (⟨S8x2048, .i32⟩ : BufTy).Contents (Elt F) → (⟨S8x2048x1, .i32⟩ : BufTy).Contents (Elt F)),
    StableHlo.binary main_arg6 main_v41 main_v42 ((fun x i => Host.gather gather_S50000x11_S8x2048x1_S8x2048x11_2_0_n_n_0_2_111 x i) : (⟨S50000x11, .i32⟩ : BufTy).Contents (Elt F) → (⟨S8x2048x1, .i32⟩ : BufTy).Contents (Elt F) → (⟨S8x2048x11, .i32⟩ : BufTy).Contents (Elt F)),
    StableHlo.nullary main_c_7 (constantI S_ 32 0#32),
    StableHlo.unary main_c_7 main_v43 (broadcastInDim S8x2048 ![] bcast_S_S8x2048 : (⟨S_, .i32⟩ : BufTy).Contents (Elt F) → (⟨S8x2048, .i32⟩ : BufTy).Contents (Elt F)),
    StableHlo.binary main_arg0 main_v43 main_v44 (cmpi .slt : (⟨S8x2048, .i32⟩ : BufTy).Contents (Elt F) → (⟨S8x2048, .i32⟩ : BufTy).Contents (Elt F) → (⟨S8x2048, .i1⟩ : BufTy).Contents (Elt F)),
    StableHlo.nullary main_c_8 (constantI S_ 32 50000#32),
    StableHlo.unary main_c_8 main_v45 (broadcastInDim S8x2048 ![] bcast_S_S8x2048 : (⟨S_, .i32⟩ : BufTy).Contents (Elt F) → (⟨S8x2048, .i32⟩ : BufTy).Contents (Elt F)),
    StableHlo.binary main_arg0 main_v45 main_v46 (addi : (⟨S8x2048, .i32⟩ : BufTy).Contents (Elt F) → (⟨S8x2048, .i32⟩ : BufTy).Contents (Elt F) → (⟨S8x2048, .i32⟩ : BufTy).Contents (Elt F)),
    StableHlo.ternary main_v44 main_v46 main_arg0 main_v47 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    StableHlo.unary main_v47 main_v48 (broadcastInDim S8x2048x1 ![0, 1] bcast_S8x2048_S8x2048x1_0_1 : (⟨S8x2048, .i32⟩ : BufTy).Contents (Elt F) → (⟨S8x2048x1, .i32⟩ : BufTy).Contents (Elt F)),
    StableHlo.binary main_arg9 main_v48 main_v49 ((fun x i => Host.gather gather_S50000_S8x2048x1_S8x2048_n_0_n_n_0_2_1 x i) : (⟨S50000, .i32⟩ : BufTy).Contents (Elt F) → (⟨S8x2048x1, .i32⟩ : BufTy).Contents (Elt F) → (⟨S8x2048, .i32⟩ : BufTy).Contents (Elt F)),
    StableHlo.nullary main_c_9 (constantI S_ 32 0#32),
    StableHlo.unary main_c_9 main_v50 (broadcastInDim S8x2048x11 ![] bcast_S_S8x2048x11 : (⟨S_, .i32⟩ : BufTy).Contents (Elt F) → (⟨S8x2048x11, .i32⟩ : BufTy).Contents (Elt F)),
    StableHlo.binary main_v42 main_v50 main_v51 (cmpi .slt : (⟨S8x2048x11, .i32⟩ : BufTy).Contents (Elt F) → (⟨S8x2048x11, .i32⟩ : BufTy).Contents (Elt F) → (⟨S8x2048x11, .i1⟩ : BufTy).Contents (Elt F)),
    StableHlo.nullary main_c_10 (constantI S_ 32 10001#32),
    StableHlo.unary main_c_10 main_v52 (broadcastInDim S8x2048x11 ![] bcast_S_S8x2048x11 : (⟨S_, .i32⟩ : BufTy).Contents (Elt F) → (⟨S8x2048x11, .i32⟩ : BufTy).Contents (Elt F)),
    StableHlo.binary main_v42 main_v52 main_v53 (addi : (⟨S8x2048x11, .i32⟩ : BufTy).Contents (Elt F) → (⟨S8x2048x11, .i32⟩ : BufTy).Contents (Elt F) → (⟨S8x2048x11, .i32⟩ : BufTy).Contents (Elt F)),
    StableHlo.ternary main_v51 main_v53 main_v42 main_v54 (select : (⟨S8x2048x11, .i1⟩ : BufTy).Contents (Elt F) → (⟨S8x2048x11, .i32⟩ : BufTy).Contents (Elt F) → (⟨S8x2048x11, .i32⟩ : BufTy).Contents (Elt F) → (⟨S8x2048x11, .i32⟩ : BufTy).Contents (Elt F)),
    StableHlo.unary main_v54 main_v55 (broadcastInDim S8x2048x11x1 ![0, 1, 2] bcast_S8x2048x11_S8x2048x11x1_0_1_2 : (⟨S8x2048x11, .i32⟩ : BufTy).Contents (Elt F) → (⟨S8x2048x11x1, .i32⟩ : BufTy).Contents (Elt F)),
    StableHlo.binary main_arg3 main_v55 main_v56 ((fun x i => Host.gather gather_S10001x256_S8x2048x11x1_S8x2048x11x256_3_0_n_n_0_3_1256 x i) : (⟨S10001x256, .f32⟩ : BufTy).Contents (Elt F) → (⟨S8x2048x11x1, .i32⟩ : BufTy).Contents (Elt F) → (⟨S8x2048x11x256, .f32⟩ : BufTy).Contents (Elt F)),
    StableHlo.nullary main_v57 (iotaInDim S11 32 0),
    StableHlo.unary main_v49 main_v58 (broadcastInDim S8x2048x1 ![0, 1] bcast_S8x2048_S8x2048x1_0_1 : (⟨S8x2048, .i32⟩ : BufTy).Contents (Elt F) → (⟨S8x2048x1, .i32⟩ : BufTy).Contents (Elt F)),
    StableHlo.unary main_v57 main_v59 (broadcastInDim S1x1x11 ![2] bcast_S11_S1x1x11_2 : (⟨S11, .i32⟩ : BufTy).Contents (Elt F) → (⟨S1x1x11, .i32⟩ : BufTy).Contents (Elt F)),
    StableHlo.unary main_v59 main_v60 (broadcastInDim S8x2048x11 ![0, 1, 2] bcast_S1x1x11_S8x2048x11_0_1_2 : (⟨S1x1x11, .i32⟩ : BufTy).Contents (Elt F) → (⟨S8x2048x11, .i32⟩ : BufTy).Contents (Elt F)),
    StableHlo.unary main_v58 main_v61 (broadcastInDim S8x2048x11 ![0, 1, 2] bcast_S8x2048x1_S8x2048x11_0_1_2 : (⟨S8x2048x1, .i32⟩ : BufTy).Contents (Elt F) → (⟨S8x2048x11, .i32⟩ : BufTy).Contents (Elt F)),
    StableHlo.binary main_v60 main_v61 main_v62 (cmpi .slt : (⟨S8x2048x11, .i32⟩ : BufTy).Contents (Elt F) → (⟨S8x2048x11, .i32⟩ : BufTy).Contents (Elt F) → (⟨S8x2048x11, .i1⟩ : BufTy).Contents (Elt F)),
    StableHlo.unary main_v62 main_v63 (uitofp .f32 : (⟨S8x2048x11, .i1⟩ : BufTy).Contents (Elt F) → (⟨S8x2048x11, .f32⟩ : BufTy).Contents (Elt F)),
    StableHlo.unary main_v63 main_v64 (broadcastInDim S8x2048x11x1 ![0, 1, 2] bcast_S8x2048x11_S8x2048x11x1_0_1_2 : (⟨S8x2048x11, .f32⟩ : BufTy).Contents (Elt F) → (⟨S8x2048x11x1, .f32⟩ : BufTy).Contents (Elt F)),
    StableHlo.unary main_v64 main_v65 (broadcastInDim S8x2048x11x256 ![0, 1, 2, 3] bcast_S8x2048x11x1_S8x2048x11x256_0_1_2_3 : (⟨S8x2048x11x1, .f32⟩ : BufTy).Contents (Elt F) → (⟨S8x2048x11x256, .f32⟩ : BufTy).Contents (Elt F)),
    StableHlo.binary main_v56 main_v65 main_v66 (mulf : (⟨S8x2048x11x256, .f32⟩ : BufTy).Contents (Elt F) → (⟨S8x2048x11x256, .f32⟩ : BufTy).Contents (Elt F) → (⟨S8x2048x11x256, .f32⟩ : BufTy).Contents (Elt F)),
    StableHlo.nullary main_cst_11 (constant S_ .f32 0x00000000#32),
    StableHlo.binary main_v66 main_cst_11 main_v67 ((fun x v => Host.reduceAdd x v reducesTo_S8x2048x11x256_S8x2048x256_d2 h_S_) : (⟨S8x2048x11x256, .f32⟩ : BufTy).Contents (Elt F) → (⟨S_, .f32⟩ : BufTy).Contents (Elt F) → (⟨S8x2048x256, .f32⟩ : BufTy).Contents (Elt F)),
    StableHlo.unary main_v49 main_v68 (broadcastInDim S8x2048x1 ![0, 1] bcast_S8x2048_S8x2048x1_0_1 : (⟨S8x2048, .i32⟩ : BufTy).Contents (Elt F) → (⟨S8x2048x1, .i32⟩ : BufTy).Contents (Elt F)),
    StableHlo.unary main_v68 main_v69 (sitofp .f32 : (⟨S8x2048x1, .i32⟩ : BufTy).Contents (Elt F) → (⟨S8x2048x1, .f32⟩ : BufTy).Contents (Elt F)),
    StableHlo.unary main_v69 main_v70 (broadcastInDim S8x2048x256 ![0, 1, 2] bcast_S8x2048x1_S8x2048x256_0_1_2 : (⟨S8x2048x1, .f32⟩ : BufTy).Contents (Elt F) → (⟨S8x2048x256, .f32⟩ : BufTy).Contents (Elt F)),
    StableHlo.binary main_v67 main_v70 main_v71 (Host.divf : (⟨S8x2048x256, .f32⟩ : BufTy).Contents (Elt F) → (⟨S8x2048x256, .f32⟩ : BufTy).Contents (Elt F) → (⟨S8x2048x256, .f32⟩ : BufTy).Contents (Elt F)),
    StableHlo.nullary main_c_12 (constantI S_ 32 0#32),
    StableHlo.unary main_c_12 main_v72 (broadcastInDim S8x2048 ![] bcast_S_S8x2048 : (⟨S_, .i32⟩ : BufTy).Contents (Elt F) → (⟨S8x2048, .i32⟩ : BufTy).Contents (Elt F)),
    StableHlo.binary main_arg0 main_v72 main_v73 (cmpi .slt : (⟨S8x2048, .i32⟩ : BufTy).Contents (Elt F) → (⟨S8x2048, .i32⟩ : BufTy).Contents (Elt F) → (⟨S8x2048, .i1⟩ : BufTy).Contents (Elt F)),
    StableHlo.nullary main_c_13 (constantI S_ 32 50000#32),
    StableHlo.unary main_c_13 main_v74 (broadcastInDim S8x2048 ![] bcast_S_S8x2048 : (⟨S_, .i32⟩ : BufTy).Contents (Elt F) → (⟨S8x2048, .i32⟩ : BufTy).Contents (Elt F)),
    StableHlo.binary main_arg0 main_v74 main_v75 (addi : (⟨S8x2048, .i32⟩ : BufTy).Contents (Elt F) → (⟨S8x2048, .i32⟩ : BufTy).Contents (Elt F) → (⟨S8x2048, .i32⟩ : BufTy).Contents (Elt F)),
    StableHlo.ternary main_v73 main_v75 main_arg0 main_v76 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    StableHlo.unary main_v76 main_v77 (broadcastInDim S8x2048x1 ![0, 1] bcast_S8x2048_S8x2048x1_0_1 : (⟨S8x2048, .i32⟩ : BufTy).Contents (Elt F) → (⟨S8x2048x1, .i32⟩ : BufTy).Contents (Elt F)),
    StableHlo.binary main_arg7 main_v77 main_v78 ((fun x i => Host.gather gather_S50000x10_S8x2048x1_S8x2048x10_2_0_n_n_0_2_110 x i) : (⟨S50000x10, .i32⟩ : BufTy).Contents (Elt F) → (⟨S8x2048x1, .i32⟩ : BufTy).Contents (Elt F) → (⟨S8x2048x10, .i32⟩ : BufTy).Contents (Elt F)),
    StableHlo.nullary main_c_14 (constantI S_ 32 0#32),
    StableHlo.unary main_c_14 main_v79 (broadcastInDim S8x2048 ![] bcast_S_S8x2048 : (⟨S_, .i32⟩ : BufTy).Contents (Elt F) → (⟨S8x2048, .i32⟩ : BufTy).Contents (Elt F)),
    StableHlo.binary main_arg0 main_v79 main_v80 (cmpi .slt : (⟨S8x2048, .i32⟩ : BufTy).Contents (Elt F) → (⟨S8x2048, .i32⟩ : BufTy).Contents (Elt F) → (⟨S8x2048, .i1⟩ : BufTy).Contents (Elt F)),
    StableHlo.nullary main_c_15 (constantI S_ 32 50000#32),
    StableHlo.unary main_c_15 main_v81 (broadcastInDim S8x2048 ![] bcast_S_S8x2048 : (⟨S_, .i32⟩ : BufTy).Contents (Elt F) → (⟨S8x2048, .i32⟩ : BufTy).Contents (Elt F)),
    StableHlo.binary main_arg0 main_v81 main_v82 (addi : (⟨S8x2048, .i32⟩ : BufTy).Contents (Elt F) → (⟨S8x2048, .i32⟩ : BufTy).Contents (Elt F) → (⟨S8x2048, .i32⟩ : BufTy).Contents (Elt F)),
    StableHlo.ternary main_v80 main_v82 main_arg0 main_v83 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    StableHlo.unary main_v83 main_v84 (broadcastInDim S8x2048x1 ![0, 1] bcast_S8x2048_S8x2048x1_0_1 : (⟨S8x2048, .i32⟩ : BufTy).Contents (Elt F) → (⟨S8x2048x1, .i32⟩ : BufTy).Contents (Elt F)),
    StableHlo.binary main_arg10 main_v84 main_v85 ((fun x i => Host.gather gather_S50000_S8x2048x1_S8x2048_n_0_n_n_0_2_1 x i) : (⟨S50000, .i32⟩ : BufTy).Contents (Elt F) → (⟨S8x2048x1, .i32⟩ : BufTy).Contents (Elt F) → (⟨S8x2048, .i32⟩ : BufTy).Contents (Elt F)),
    StableHlo.nullary main_c_16 (constantI S_ 32 0#32),
    StableHlo.unary main_c_16 main_v86 (broadcastInDim S8x2048x10 ![] bcast_S_S8x2048x10 : (⟨S_, .i32⟩ : BufTy).Contents (Elt F) → (⟨S8x2048x10, .i32⟩ : BufTy).Contents (Elt F)),
    StableHlo.binary main_v78 main_v86 main_v87 (cmpi .slt : (⟨S8x2048x10, .i32⟩ : BufTy).Contents (Elt F) → (⟨S8x2048x10, .i32⟩ : BufTy).Contents (Elt F) → (⟨S8x2048x10, .i1⟩ : BufTy).Contents (Elt F)),
    StableHlo.nullary main_c_17 (constantI S_ 32 50001#32),
    StableHlo.unary main_c_17 main_v88 (broadcastInDim S8x2048x10 ![] bcast_S_S8x2048x10 : (⟨S_, .i32⟩ : BufTy).Contents (Elt F) → (⟨S8x2048x10, .i32⟩ : BufTy).Contents (Elt F)),
    StableHlo.binary main_v78 main_v88 main_v89 (addi : (⟨S8x2048x10, .i32⟩ : BufTy).Contents (Elt F) → (⟨S8x2048x10, .i32⟩ : BufTy).Contents (Elt F) → (⟨S8x2048x10, .i32⟩ : BufTy).Contents (Elt F)),
    StableHlo.ternary main_v87 main_v89 main_v78 main_v90 (select : (⟨S8x2048x10, .i1⟩ : BufTy).Contents (Elt F) → (⟨S8x2048x10, .i32⟩ : BufTy).Contents (Elt F) → (⟨S8x2048x10, .i32⟩ : BufTy).Contents (Elt F) → (⟨S8x2048x10, .i32⟩ : BufTy).Contents (Elt F)),
    StableHlo.unary main_v90 main_v91 (broadcastInDim S8x2048x10x1 ![0, 1, 2] bcast_S8x2048x10_S8x2048x10x1_0_1_2 : (⟨S8x2048x10, .i32⟩ : BufTy).Contents (Elt F) → (⟨S8x2048x10x1, .i32⟩ : BufTy).Contents (Elt F)),
    StableHlo.binary main_arg4 main_v91 main_v92 ((fun x i => Host.gather gather_S50001x256_S8x2048x10x1_S8x2048x10x256_3_0_n_n_0_3_1256 x i) : (⟨S50001x256, .f32⟩ : BufTy).Contents (Elt F) → (⟨S8x2048x10x1, .i32⟩ : BufTy).Contents (Elt F) → (⟨S8x2048x10x256, .f32⟩ : BufTy).Contents (Elt F)),
    StableHlo.nullary main_v93 (iotaInDim S10 32 0),
    StableHlo.unary main_v85 main_v94 (broadcastInDim S8x2048x1 ![0, 1] bcast_S8x2048_S8x2048x1_0_1 : (⟨S8x2048, .i32⟩ : BufTy).Contents (Elt F) → (⟨S8x2048x1, .i32⟩ : BufTy).Contents (Elt F)),
    StableHlo.unary main_v93 main_v95 (broadcastInDim S1x1x10 ![2] bcast_S10_S1x1x10_2 : (⟨S10, .i32⟩ : BufTy).Contents (Elt F) → (⟨S1x1x10, .i32⟩ : BufTy).Contents (Elt F)),
    StableHlo.unary main_v95 main_v96 (broadcastInDim S8x2048x10 ![0, 1, 2] bcast_S1x1x10_S8x2048x10_0_1_2 : (⟨S1x1x10, .i32⟩ : BufTy).Contents (Elt F) → (⟨S8x2048x10, .i32⟩ : BufTy).Contents (Elt F)),
    StableHlo.unary main_v94 main_v97 (broadcastInDim S8x2048x10 ![0, 1, 2] bcast_S8x2048x1_S8x2048x10_0_1_2 : (⟨S8x2048x1, .i32⟩ : BufTy).Contents (Elt F) → (⟨S8x2048x10, .i32⟩ : BufTy).Contents (Elt F)),
    StableHlo.binary main_v96 main_v97 main_v98 (cmpi .slt : (⟨S8x2048x10, .i32⟩ : BufTy).Contents (Elt F) → (⟨S8x2048x10, .i32⟩ : BufTy).Contents (Elt F) → (⟨S8x2048x10, .i1⟩ : BufTy).Contents (Elt F)),
    StableHlo.unary main_v98 main_v99 (uitofp .f32 : (⟨S8x2048x10, .i1⟩ : BufTy).Contents (Elt F) → (⟨S8x2048x10, .f32⟩ : BufTy).Contents (Elt F)),
    StableHlo.unary main_v99 main_v100 (broadcastInDim S8x2048x10x1 ![0, 1, 2] bcast_S8x2048x10_S8x2048x10x1_0_1_2 : (⟨S8x2048x10, .f32⟩ : BufTy).Contents (Elt F) → (⟨S8x2048x10x1, .f32⟩ : BufTy).Contents (Elt F)),
    StableHlo.unary main_v100 main_v101 (broadcastInDim S8x2048x10x256 ![0, 1, 2, 3] bcast_S8x2048x10x1_S8x2048x10x256_0_1_2_3 : (⟨S8x2048x10x1, .f32⟩ : BufTy).Contents (Elt F) → (⟨S8x2048x10x256, .f32⟩ : BufTy).Contents (Elt F)),
    StableHlo.binary main_v92 main_v101 main_v102 (mulf : (⟨S8x2048x10x256, .f32⟩ : BufTy).Contents (Elt F) → (⟨S8x2048x10x256, .f32⟩ : BufTy).Contents (Elt F) → (⟨S8x2048x10x256, .f32⟩ : BufTy).Contents (Elt F)),
    StableHlo.nullary main_cst_18 (constant S_ .f32 0x00000000#32),
    StableHlo.binary main_v102 main_cst_18 main_v103 ((fun x v => Host.reduceAdd x v reducesTo_S8x2048x10x256_S8x2048x256_d2 h_S_) : (⟨S8x2048x10x256, .f32⟩ : BufTy).Contents (Elt F) → (⟨S_, .f32⟩ : BufTy).Contents (Elt F) → (⟨S8x2048x256, .f32⟩ : BufTy).Contents (Elt F)),
    StableHlo.unary main_v85 main_v104 (broadcastInDim S8x2048x1 ![0, 1] bcast_S8x2048_S8x2048x1_0_1 : (⟨S8x2048, .i32⟩ : BufTy).Contents (Elt F) → (⟨S8x2048x1, .i32⟩ : BufTy).Contents (Elt F)),
    StableHlo.unary main_v104 main_v105 (sitofp .f32 : (⟨S8x2048x1, .i32⟩ : BufTy).Contents (Elt F) → (⟨S8x2048x1, .f32⟩ : BufTy).Contents (Elt F)),
    StableHlo.unary main_v105 main_v106 (broadcastInDim S8x2048x256 ![0, 1, 2] bcast_S8x2048x1_S8x2048x256_0_1_2 : (⟨S8x2048x1, .f32⟩ : BufTy).Contents (Elt F) → (⟨S8x2048x256, .f32⟩ : BufTy).Contents (Elt F)),
    StableHlo.binary main_v103 main_v106 main_v107 (Host.divf : (⟨S8x2048x256, .f32⟩ : BufTy).Contents (Elt F) → (⟨S8x2048x256, .f32⟩ : BufTy).Contents (Elt F) → (⟨S8x2048x256, .f32⟩ : BufTy).Contents (Elt F)),
    StableHlo.nary ![main_v35, main_v71, main_v107] main_v108 (fun u => concatenate S8x2048x768 2 [⟨S8x2048x256, u 0⟩, ⟨S8x2048x256, u 1⟩, ⟨S8x2048x256, u 2⟩] concatenates_S8x2048x256_S8x2048x256_S8x2048x256_S8x2048x768_d2),
    StableHlo.nullary main_c_19 (constantI S_ 32 0#32),
    StableHlo.nullary main_c_20 (constantI S_ 32 3#32),
    StableHlo.TRef.unary (.of main_c_19 : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S8x2048, .i32⟩) (broadcastInDim S8x2048 ![] bcast_S_S8x2048),
    StableHlo.TRef.binary (.of main_call0_v1 : StableHlo.TRef sig ⟨S8x2048, .i32⟩) (.of main_arg0 : StableHlo.TRef sig ⟨S8x2048, .i32⟩) (.of main_call0_v2 : StableHlo.TRef sig ⟨S8x2048, .i32⟩) maxsi,
    StableHlo.TRef.unary (.of main_c_20 : StableHlo.TRef sig ⟨S_, .i32⟩) (.of main_call0_v3 : StableHlo.TRef sig ⟨S_, .i32⟩) id,
    StableHlo.TRef.unary (.of main_call0_v3 : StableHlo.TRef sig ⟨S_, .i32⟩) (.of main_call0_v4 : StableHlo.TRef sig ⟨S8x2048, .i32⟩) (broadcastInDim S8x2048 ![] bcast_S_S8x2048),
    StableHlo.TRef.binary (.of main_call0_v4 : StableHlo.TRef sig ⟨S8x2048, .i32⟩) (.of main_call0_v2 : StableHlo.TRef sig ⟨S8x2048, .i32⟩) (.of main_v109 : StableHlo.TRef sig ⟨S8x2048, .i32⟩) minsi,
    StableHlo.nullary main_c_21 (constantI S_ 32 0#32),
    StableHlo.unary main_c_21 main_v110 (broadcastInDim S8x2048 ![] bcast_S_S8x2048 : (⟨S_, .i32⟩ : BufTy).Contents (Elt F) → (⟨S8x2048, .i32⟩ : BufTy).Contents (Elt F)),
    StableHlo.binary main_v109 main_v110 main_v111 (cmpi .slt : (⟨S8x2048, .i32⟩ : BufTy).Contents (Elt F) → (⟨S8x2048, .i32⟩ : BufTy).Contents (Elt F) → (⟨S8x2048, .i1⟩ : BufTy).Contents (Elt F)),
    StableHlo.nullary main_c_22 (constantI S_ 32 4#32),
    StableHlo.unary main_c_22 main_v112 (broadcastInDim S8x2048 ![] bcast_S_S8x2048 : (⟨S_, .i32⟩ : BufTy).Contents (Elt F) → (⟨S8x2048, .i32⟩ : BufTy).Contents (Elt F)),
    StableHlo.binary main_v109 main_v112 main_v113 (addi : (⟨S8x2048, .i32⟩ : BufTy).Contents (Elt F) → (⟨S8x2048, .i32⟩ : BufTy).Contents (Elt F) → (⟨S8x2048, .i32⟩ : BufTy).Contents (Elt F)),
    StableHlo.ternary main_v111 main_v113 main_v109 main_v114 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    StableHlo.unary main_v114 main_v115 (broadcastInDim S8x2048x1 ![0, 1] bcast_S8x2048_S8x2048x1_0_1 : (⟨S8x2048, .i32⟩ : BufTy).Contents (Elt F) → (⟨S8x2048x1, .i32⟩ : BufTy).Contents (Elt F)),
    StableHlo.binary main_arg1 main_v115 main_v116 ((fun x i => Host.gather gather_S4x768_S8x2048x1_S8x2048x768_2_0_n_n_0_2_1768 x i) : (⟨S4x768, .f32⟩ : BufTy).Contents (Elt F) → (⟨S8x2048x1, .i32⟩ : BufTy).Contents (Elt F) → (⟨S8x2048x768, .f32⟩ : BufTy).Contents (Elt F)),
    StableHlo.nullary main_c_23 (constantI S_ 32 4#32),
    StableHlo.unary main_c_23 main_v117 (broadcastInDim S8x2048 ![] bcast_S_S8x2048 : (⟨S_, .i32⟩ : BufTy).Contents (Elt F) → (⟨S8x2048, .i32⟩ : BufTy).Contents (Elt F)),
    StableHlo.binary main_arg0 main_v117 main_v118 (cmpi .slt : (⟨S8x2048, .i32⟩ : BufTy).Contents (Elt F) → (⟨S8x2048, .i32⟩ : BufTy).Contents (Elt F) → (⟨S8x2048, .i1⟩ : BufTy).Contents (Elt F)),
    StableHlo.unary main_v118 main_v119 (broadcastInDim S8x2048x1 ![0, 1] bcast_S8x2048_S8x2048x1_0_1 : (⟨S8x2048, .i1⟩ : BufTy).Contents (Elt F) → (⟨S8x2048x1, .i1⟩ : BufTy).Contents (Elt F)),
    StableHlo.TRef.unary (.of main_v119 : StableHlo.TRef sig ⟨S8x2048x1, .i1⟩) (.of main_call1_v0 : StableHlo.TRef sig ⟨S8x2048x768, .i1⟩) (broadcastInDim S8x2048x768 ![0, 1, 2] bcast_S8x2048x1_S8x2048x768_0_1_2),
    StableHlo.TRef.ternary (.of main_call1_v0 : StableHlo.TRef sig ⟨S8x2048x768, .i1⟩) (.of main_v116 : StableHlo.TRef sig ⟨S8x2048x768, .f32⟩) (.of main_v108 : StableHlo.TRef sig ⟨S8x2048x768, .f32⟩) (.of main_v120 : StableHlo.TRef sig ⟨S8x2048x768, .f32⟩) select ]

set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., unary_bufs_sub .., binary_bufs_sub .., unary_bufs_sub .., unary_bufs_sub .., unary_bufs_sub .., binary_bufs_sub .., nullary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., unary_bufs_sub .., binary_bufs_sub .., unary_bufs_sub .., unary_bufs_sub .., unary_bufs_sub .., binary_bufs_sub .., nullary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., unary_bufs_sub .., binary_bufs_sub .., unary_bufs_sub .., unary_bufs_sub .., unary_bufs_sub .., binary_bufs_sub .., nullary_bufs_sub .., binary_bufs_sub .., unary_bufs_sub .., unary_bufs_sub .., unary_bufs_sub .., binary_bufs_sub .., nary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., unary_bufs_sub .., ternary_bufs_sub ..⟩

/-- The program's eleven arguments. -/
abbrev argRefs : List (Ref sig .tc) := [main_arg0, main_arg1, main_arg2, main_arg3, main_arg4, main_arg5, main_arg6, main_arg7, main_arg8, main_arg9, main_arg10]

set_option maxHeartbeats 4000000 in
/-- No operation writes an argument. -/
theorem kept (V : Valuation τ sig (Elt F)) (b : Ref sig .tc) (hb : b ∈ argRefs) :
    after (ops (F := F)) V (Proc.devRef .tc b) = V (Proc.devRef .tc b) :=
  after_of_forall_not_mem (b := Proc.devRef .tc b) _ _ (List.forall_iff_forall_mem.mp (by
    simp only [ops, List.Forall, nullary_writes, unary_writes, binary_writes, ternary_writes, nary_writes, Finset.mem_singleton]
    repeat' apply And.intro
    all_goals exact devRef_ne_of_ne (fun e => absurd (e ▸ hb) (by decide))))

set_option maxHeartbeats 8000000 in
/-- The fold read at the result buffer. -/
theorem read (V : Valuation τ sig (Elt Ideal)) : after (ops (F := Ideal)) V (Proc.devRef .tc main_v120)
    = combine (V (Proc.devRef .tc main_arg0)) (V (Proc.devRef .tc main_arg1))
        (stage1 (gathE1 (V (Proc.devRef .tc main_arg0)) (V (Proc.devRef .tc main_arg5)) (V (Proc.devRef .tc main_arg2))) (gathC1 (V (Proc.devRef .tc main_arg0)) (V (Proc.devRef .tc main_arg8))))
        (stage2 (gathE2 (V (Proc.devRef .tc main_arg0)) (V (Proc.devRef .tc main_arg6)) (V (Proc.devRef .tc main_arg3))) (gathC2 (V (Proc.devRef .tc main_arg0)) (V (Proc.devRef .tc main_arg9))))
        (stage3 (gathE3 (V (Proc.devRef .tc main_arg0)) (V (Proc.devRef .tc main_arg7)) (V (Proc.devRef .tc main_arg4))) (gathC3 (V (Proc.devRef .tc main_arg0)) (V (Proc.devRef .tc main_arg10)))) := by
  after_results_simp
  simp only [TRef.toBuf, TRef.ofBuf, cast_eq]
  rfl

/-- Every weakly fair execution of the reference from `m` (all counters zero) terminates without a fault, with the
    result buffer at `combine` of the three orders' stages of their gathered arrays and the arguments unchanged. -/
theorem run_hand (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v120)
        = combine (m ((c.tc : Thread nD τ).loc main_arg0)) (m ((c.tc : Thread nD τ).loc main_arg1))
            (stage1 (gathE1 (m ((c.tc : Thread nD τ).loc main_arg0)) (m ((c.tc : Thread nD τ).loc main_arg5)) (m ((c.tc : Thread nD τ).loc main_arg2))) (gathC1 (m ((c.tc : Thread nD τ).loc main_arg0)) (m ((c.tc : Thread nD τ).loc main_arg8))))
            (stage2 (gathE2 (m ((c.tc : Thread nD τ).loc main_arg0)) (m ((c.tc : Thread nD τ).loc main_arg6)) (m ((c.tc : Thread nD τ).loc main_arg3))) (gathC2 (m ((c.tc : Thread nD τ).loc main_arg0)) (m ((c.tc : Thread nD τ).loc main_arg9))))
            (stage3 (gathE3 (m ((c.tc : Thread nD τ).loc main_arg0)) (m ((c.tc : Thread nD τ).loc main_arg7)) (m ((c.tc : Thread nD τ).loc main_arg4))) (gathC3 (m ((c.tc : Thread nD τ).loc main_arg0)) (m ((c.tc : Thread nD τ).loc main_arg10))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v120).trans (read (launchContents m c)),
      (h c main_arg0).trans (kept (launchContents m c) main_arg0 (by decide)),
      (h c main_arg1).trans (kept (launchContents m c) main_arg1 (by decide)),
      (h c main_arg2).trans (kept (launchContents m c) main_arg2 (by decide)),
      (h c main_arg3).trans (kept (launchContents m c) main_arg3 (by decide)),
      (h c main_arg4).trans (kept (launchContents m c) main_arg4 (by decide)),
      (h c main_arg5).trans (kept (launchContents m c) main_arg5 (by decide)),
      (h c main_arg6).trans (kept (launchContents m c) main_arg6 (by decide)),
      (h c main_arg7).trans (kept (launchContents m c) main_arg7 (by decide)),
      (h c main_arg8).trans (kept (launchContents m c) main_arg8 (by decide)),
      (h c main_arg9).trans (kept (launchContents m c) main_arg9 (by decide)),
      (h c main_arg10).trans (kept (launchContents m c) main_arg10 (by decide))⟩)
    (run_seq scopedRefs_eq scopedSems_eq defs main (fun _ => ops) main_eq (fun _ => ops_sub) m ρ)

end Cert.ReferenceIdeal.RefHand

end
-- ==== Proof.RefWords.lean ====
/-
  Two facts about 32-bit words used by the masked means: a small natural number read back signed, and the
  bit of a signed comparison of a position number with a count, read as an extended real, as the weight of
  that position.
-/
import proofs.«140809_j7954279432569_2_alg».proof.Proof.Spec
import Idealize.ShloMosaic.Lib.Affine

noncomputable section

namespace Cert.ReferenceIdeal.RefMean

open Idealize.ShloMosaic Idealize.ShloMosaic.ValueIdx

/-- A natural number below `2^31`, as a 32-bit word read signed, is itself. -/
theorem toInt_ofNat_small (l : ℕ) (hl : l < 2147483648) : (BitVec.ofNat 32 l).toInt = (l : ℤ) := by
  rw [BitVec.toInt_eq_toNat_of_lt (by rw [BitVec.toNat_ofNat]; omega), BitVec.toNat_ofNat]
  omega

/-- The signed comparison of position `l` with the count `c`, its bit read as an unsigned integer at the extended
    reals, is the weight of position `l`: one when `l < c`, zero otherwise. -/
theorem mask_eq (l : ℕ) (hl : l < 2147483648) (c : BitVec 32) :
    (FloatOps.uitofp (F := Ideal) .f32 (IntOp.cmpi .slt (BitVec.ofNat 32 l) c) : EReal) = Cert.NGram.keep l c := by
  unfold Cert.NGram.keep
  by_cases h : (l : ℤ) < c.toInt
  · have h1 : IntOp.cmpi .slt (BitVec.ofNat 32 l) c = 1#1 :=
      IntOp.cmpi_slt.mpr (by rw [toInt_ofNat_small l hl]; exact h)
    rw [h1, if_pos h]
    show (((1#1 : BitVec 1).toNat : ℝ) : EReal) = 1
    norm_num
  · have h0 : IntOp.cmpi .slt (BitVec.ofNat 32 l) c = 0#1 :=
      eq_zero_of_ne_one fun hh => h (by rw [← toInt_ofNat_small l hl]; exact IntOp.cmpi_slt.mp hh)
    rw [h0, if_neg h]
    show (((0#1 : BitVec 1).toNat : ℝ) : EReal) = 0
    norm_num

end Cert.ReferenceIdeal.RefMean

end
-- ==== Proof.RefStages.lean ====
/-
  The reference's per-order stages after the gathers, as functions of an arbitrary array of gram embeddings
  and an arbitrary array of counts, and the proof that they compute the masked mean: read at an index, the
  weights are the position's weight against the token's count, the sum from the zero constant is the plain
  sum over the positions, and the divisor is the count read as a signed integer.
-/
import proofs.«140809_j7954279432569_2_alg».proof.Proof.RefStageDefs
import proofs.«140809_j7954279432569_2_alg».proof.Proof.RefWords
import Idealize.ShloMosaic.Lib.Pipeline.Value
import Idealize.ShloMosaic.PureOps.Ideal.Laws

noncomputable section

open scoped BigOperators

namespace Cert.ReferenceIdeal.RefHand

open Cert.ReferenceIdeal Cert.ReferenceIdeal.Gen Cert.ReferenceIdeal.RefMean Idealize.ShloMosaic Idealize.ShloMosaic.ValueIdx

/-! ## Order 1: 12 gram positions -/

/-- Order 1's weights on every embedding coordinate: the position numbers `0 … 11` compared (signed) with the
    token's count, the bit read as an unsigned integer, repeated along the embedding axis. -/
def weights1 (c : Vec Ideal S8x2048 .i32) : FVec Ideal S8x2048x12x256 .f32 :=
  broadcastInDim S8x2048x12x256 ![0, 1, 2, 3] bcast_S8x2048x12x1_S8x2048x12x256_0_1_2_3
    (broadcastInDim S8x2048x12x1 ![0, 1, 2] bcast_S8x2048x12_S8x2048x12x1_0_1_2
      (uitofp (F := Ideal) .f32
        (cmpi .slt
          (broadcastInDim S8x2048x12 ![0, 1, 2] bcast_S1x1x12_S8x2048x12_0_1_2
            (broadcastInDim S1x1x12 ![2] bcast_S12_S1x1x12_2 (iotaInDim S12 32 0)))
          (broadcastInDim S8x2048x12 ![0, 1, 2] bcast_S8x2048x1_S8x2048x12_0_1_2
            (broadcastInDim S8x2048x1 ![0, 1] bcast_S8x2048_S8x2048x1_0_1 c)))))

/-- The weight at `(b, s, l, d)` is the weight of position `l` against the count of token `(b, s)`. -/
theorem weights1_apply (c : Vec Ideal S8x2048 .i32) (b : Fin 8) (s : Fin 2048) (l : Fin 12) (d : Fin 256) :
    weights1 c (ix4 b s l d) = Cert.NGram.keep l.val (c (ix2 b s)) := by
  unfold weights1
  rw [broadcastInDim_apply _ bcast_S8x2048x12x1_S8x2048x12x256_0_1_2_3 _ (ix4 b s l d) (ix4 b s l 0) (by intro a; match a with | ⟨0, _⟩ => rfl | ⟨1, _⟩ => rfl | ⟨2, _⟩ => rfl | ⟨3, _⟩ => rfl),
    broadcastInDim_apply _ bcast_S8x2048x12_S8x2048x12x1_0_1_2 _ (ix4 b s l 0) (ix3 b s l) (by intro a; match a with | ⟨0, _⟩ => rfl | ⟨1, _⟩ => rfl | ⟨2, _⟩ => rfl)]
  show (FloatOps.uitofp (F := Ideal) .f32 (IntOp.cmpi .slt
    (broadcastInDim S8x2048x12 ![0, 1, 2] bcast_S1x1x12_S8x2048x12_0_1_2
      (broadcastInDim S1x1x12 ![2] bcast_S12_S1x1x12_2 (iotaInDim S12 32 0)) (ix3 b s l))
    (broadcastInDim S8x2048x12 ![0, 1, 2] bcast_S8x2048x1_S8x2048x12_0_1_2
      (broadcastInDim S8x2048x1 ![0, 1] bcast_S8x2048_S8x2048x1_0_1 c) (ix3 b s l))) : EReal) = _
  rw [broadcastInDim_apply _ bcast_S1x1x12_S8x2048x12_0_1_2 _ (ix3 b s l) (ix3 0 0 l) (by intro a; match a with | ⟨0, _⟩ => rfl | ⟨1, _⟩ => rfl | ⟨2, _⟩ => rfl),
    broadcastInDim_apply _ bcast_S12_S1x1x12_2 _ (ix3 0 0 l) (ix1 l) (by intro a; match a with | ⟨0, _⟩ => rfl),
    broadcastInDim_apply _ bcast_S8x2048x1_S8x2048x12_0_1_2 _ (ix3 b s l) (ix3 b s 0) (by intro a; match a with | ⟨0, _⟩ => rfl | ⟨1, _⟩ => rfl | ⟨2, _⟩ => rfl),
    broadcastInDim_apply _ bcast_S8x2048_S8x2048x1_0_1 _ (ix3 b s 0) (ix2 b s) (by intro a; match a with | ⟨0, _⟩ => rfl | ⟨1, _⟩ => rfl)]
  exact mask_eq l.val (by have := l.isLt; omega) _

/-- The divisor at `(b, s, d)` is the count of token `(b, s)` read as a signed integer. -/
theorem divisor1_apply (c : Vec Ideal S8x2048 .i32) (b : Fin 8) (s : Fin 2048) (d : Fin 256) :
    broadcastInDim S8x2048x256 ![0, 1, 2] bcast_S8x2048x1_S8x2048x256_0_1_2
      (sitofp (F := Ideal) .f32 (broadcastInDim S8x2048x1 ![0, 1] bcast_S8x2048_S8x2048x1_0_1 c)) (ix3 b s d)
      = (((c (ix2 b s)).toInt : ℝ) : EReal) := by
  rw [broadcastInDim_apply _ bcast_S8x2048x1_S8x2048x256_0_1_2 _ (ix3 b s d) (ix3 b s 0) (by intro a; match a with | ⟨0, _⟩ => rfl | ⟨1, _⟩ => rfl | ⟨2, _⟩ => rfl)]
  show FloatOps.sitofp (F := Ideal) .f32 (broadcastInDim S8x2048x1 ![0, 1] bcast_S8x2048_S8x2048x1_0_1 c (ix3 b s 0)) = _
  rw [broadcastInDim_apply _ bcast_S8x2048_S8x2048x1_0_1 _ (ix3 b s 0) (ix2 b s) (by intro a; match a with | ⟨0, _⟩ => rfl | ⟨1, _⟩ => rfl)]
  rfl

/-- Order 1's stages compute the masked mean of `e` with `c`. -/
theorem stage1_eq (e : FVec Ideal S8x2048x12x256 .f32) (c : Vec Ideal S8x2048 .i32) :
    stage1 e c = Cert.NGram.orderMean 2048 12 e c := by
  funext i
  obtain ⟨b, s, d, rfl⟩ : ∃ b s d, i = ix3 b s d := ⟨i 0, i 1, i 2, eq_ix3 i⟩
  rw [Cert.NGram.orderMean_apply]
  unfold stage1 Cert.NGram.meanAt
  show Ideal.div
    (Ideal.hostReduceAdd reducesTo_S8x2048x12x256_S8x2048x256_d2 (mulf e (weights1 c)) (Ideal.ofBits .f32 0x00000000#32) (ix3 b s d))
    (broadcastInDim S8x2048x256 ![0, 1, 2] bcast_S8x2048x1_S8x2048x256_0_1_2
      (sitofp (F := Ideal) .f32 (broadcastInDim S8x2048x1 ![0, 1] bcast_S8x2048_S8x2048x1_0_1 c)) (ix3 b s d)) = _
  rw [divisor1_apply, Ideal.hostReduceAdd_single reducesTo_S8x2048x12x256_S8x2048x256_d2 (by decide), Ideal.ofBits_zero_f32, zero_add]
  refine congrArg (fun t => Ideal.div t _) (Finset.sum_congr rfl fun (l : Fin 12) _ => ?_)
  have hl : Shape.Reduces.lift (by decide : S8x2048x12x256.Reduces [2] S8x2048x256) (ix3 b s d) l = ix4 b s l d := by
    funext a
    match a with
    | ⟨0, _⟩ => exact Fin.ext rfl
    | ⟨1, _⟩ => exact Fin.ext rfl
    | ⟨2, _⟩ => exact Fin.ext rfl
    | ⟨3, _⟩ => exact Fin.ext rfl
  rw [hl]
  show e (ix4 b s l d) * weights1 c (ix4 b s l d) = _
  rw [weights1_apply]

/-! ## Order 2: 11 gram positions -/

/-- Order 2's weights on every embedding coordinate: the position numbers `0 … 10` compared (signed) with the
    token's count, the bit read as an unsigned integer, repeated along the embedding axis. -/
def weights2 (c : Vec Ideal S8x2048 .i32) : FVec Ideal S8x2048x11x256 .f32 :=
  broadcastInDim S8x2048x11x256 ![0, 1, 2, 3] bcast_S8x2048x11x1_S8x2048x11x256_0_1_2_3
    (broadcastInDim S8x2048x11x1 ![0, 1, 2] bcast_S8x2048x11_S8x2048x11x1_0_1_2
      (uitofp (F := Ideal) .f32
        (cmpi .slt
          (broadcastInDim S8x2048x11 ![0, 1, 2] bcast_S1x1x11_S8x2048x11_0_1_2
            (broadcastInDim S1x1x11 ![2] bcast_S11_S1x1x11_2 (iotaInDim S11 32 0)))
          (broadcastInDim S8x2048x11 ![0, 1, 2] bcast_S8x2048x1_S8x2048x11_0_1_2
            (broadcastInDim S8x2048x1 ![0, 1] bcast_S8x2048_S8x2048x1_0_1 c)))))

/-- The weight at `(b, s, l, d)` is the weight of position `l` against the count of token `(b, s)`. -/
theorem weights2_apply (c : Vec Ideal S8x2048 .i32) (b : Fin 8) (s : Fin 2048) (l : Fin 11) (d : Fin 256) :
    weights2 c (ix4 b s l d) = Cert.NGram.keep l.val (c (ix2 b s)) := by
  unfold weights2
  rw [broadcastInDim_apply _ bcast_S8x2048x11x1_S8x2048x11x256_0_1_2_3 _ (ix4 b s l d) (ix4 b s l 0) (by intro a; match a with | ⟨0, _⟩ => rfl | ⟨1, _⟩ => rfl | ⟨2, _⟩ => rfl | ⟨3, _⟩ => rfl),
    broadcastInDim_apply _ bcast_S8x2048x11_S8x2048x11x1_0_1_2 _ (ix4 b s l 0) (ix3 b s l) (by intro a; match a with | ⟨0, _⟩ => rfl | ⟨1, _⟩ => rfl | ⟨2, _⟩ => rfl)]
  show (FloatOps.uitofp (F := Ideal) .f32 (IntOp.cmpi .slt
    (broadcastInDim S8x2048x11 ![0, 1, 2] bcast_S1x1x11_S8x2048x11_0_1_2
      (broadcastInDim S1x1x11 ![2] bcast_S11_S1x1x11_2 (iotaInDim S11 32 0)) (ix3 b s l))
    (broadcastInDim S8x2048x11 ![0, 1, 2] bcast_S8x2048x1_S8x2048x11_0_1_2
      (broadcastInDim S8x2048x1 ![0, 1] bcast_S8x2048_S8x2048x1_0_1 c) (ix3 b s l))) : EReal) = _
  rw [broadcastInDim_apply _ bcast_S1x1x11_S8x2048x11_0_1_2 _ (ix3 b s l) (ix3 0 0 l) (by intro a; match a with | ⟨0, _⟩ => rfl | ⟨1, _⟩ => rfl | ⟨2, _⟩ => rfl),
    broadcastInDim_apply _ bcast_S11_S1x1x11_2 _ (ix3 0 0 l) (ix1 l) (by intro a; match a with | ⟨0, _⟩ => rfl),
    broadcastInDim_apply _ bcast_S8x2048x1_S8x2048x11_0_1_2 _ (ix3 b s l) (ix3 b s 0) (by intro a; match a with | ⟨0, _⟩ => rfl | ⟨1, _⟩ => rfl | ⟨2, _⟩ => rfl),
    broadcastInDim_apply _ bcast_S8x2048_S8x2048x1_0_1 _ (ix3 b s 0) (ix2 b s) (by intro a; match a with | ⟨0, _⟩ => rfl | ⟨1, _⟩ => rfl)]
  exact mask_eq l.val (by have := l.isLt; omega) _

/-- The divisor at `(b, s, d)` is the count of token `(b, s)` read as a signed integer. -/
theorem divisor2_apply (c : Vec Ideal S8x2048 .i32) (b : Fin 8) (s : Fin 2048) (d : Fin 256) :
    broadcastInDim S8x2048x256 ![0, 1, 2] bcast_S8x2048x1_S8x2048x256_0_1_2
      (sitofp (F := Ideal) .f32 (broadcastInDim S8x2048x1 ![0, 1] bcast_S8x2048_S8x2048x1_0_1 c)) (ix3 b s d)
      = (((c (ix2 b s)).toInt : ℝ) : EReal) := by
  rw [broadcastInDim_apply _ bcast_S8x2048x1_S8x2048x256_0_1_2 _ (ix3 b s d) (ix3 b s 0) (by intro a; match a with | ⟨0, _⟩ => rfl | ⟨1, _⟩ => rfl | ⟨2, _⟩ => rfl)]
  show FloatOps.sitofp (F := Ideal) .f32 (broadcastInDim S8x2048x1 ![0, 1] bcast_S8x2048_S8x2048x1_0_1 c (ix3 b s 0)) = _
  rw [broadcastInDim_apply _ bcast_S8x2048_S8x2048x1_0_1 _ (ix3 b s 0) (ix2 b s) (by intro a; match a with | ⟨0, _⟩ => rfl | ⟨1, _⟩ => rfl)]
  rfl

/-- Order 2's stages compute the masked mean of `e` with `c`. -/
theorem stage2_eq (e : FVec Ideal S8x2048x11x256 .f32) (c : Vec Ideal S8x2048 .i32) :
    stage2 e c = Cert.NGram.orderMean 2048 11 e c := by
  funext i
  obtain ⟨b, s, d, rfl⟩ : ∃ b s d, i = ix3 b s d := ⟨i 0, i 1, i 2, eq_ix3 i⟩
  rw [Cert.NGram.orderMean_apply]
  unfold stage2 Cert.NGram.meanAt
  show Ideal.div
    (Ideal.hostReduceAdd reducesTo_S8x2048x11x256_S8x2048x256_d2 (mulf e (weights2 c)) (Ideal.ofBits .f32 0x00000000#32) (ix3 b s d))
    (broadcastInDim S8x2048x256 ![0, 1, 2] bcast_S8x2048x1_S8x2048x256_0_1_2
      (sitofp (F := Ideal) .f32 (broadcastInDim S8x2048x1 ![0, 1] bcast_S8x2048_S8x2048x1_0_1 c)) (ix3 b s d)) = _
  rw [divisor2_apply, Ideal.hostReduceAdd_single reducesTo_S8x2048x11x256_S8x2048x256_d2 (by decide), Ideal.ofBits_zero_f32, zero_add]
  refine congrArg (fun t => Ideal.div t _) (Finset.sum_congr rfl fun (l : Fin 11) _ => ?_)
  have hl : Shape.Reduces.lift (by decide : S8x2048x11x256.Reduces [2] S8x2048x256) (ix3 b s d) l = ix4 b s l d := by
    funext a
    match a with
    | ⟨0, _⟩ => exact Fin.ext rfl
    | ⟨1, _⟩ => exact Fin.ext rfl
    | ⟨2, _⟩ => exact Fin.ext rfl
    | ⟨3, _⟩ => exact Fin.ext rfl
  rw [hl]
  show e (ix4 b s l d) * weights2 c (ix4 b s l d) = _
  rw [weights2_apply]

/-! ## Order 3: 10 gram positions -/

/-- Order 3's weights on every embedding coordinate: the position numbers `0 … 9` compared (signed) with the
    token's count, the bit read as an unsigned integer, repeated along the embedding axis. -/
def weights3 (c : Vec Ideal S8x2048 .i32) : FVec Ideal S8x2048x10x256 .f32 :=
  broadcastInDim S8x2048x10x256 ![0, 1, 2, 3] bcast_S8x2048x10x1_S8x2048x10x256_0_1_2_3
    (broadcastInDim S8x2048x10x1 ![0, 1, 2] bcast_S8x2048x10_S8x2048x10x1_0_1_2
      (uitofp (F := Ideal) .f32
        (cmpi .slt
          (broadcastInDim S8x2048x10 ![0, 1, 2] bcast_S1x1x10_S8x2048x10_0_1_2
            (broadcastInDim S1x1x10 ![2] bcast_S10_S1x1x10_2 (iotaInDim S10 32 0)))
          (broadcastInDim S8x2048x10 ![0, 1, 2] bcast_S8x2048x1_S8x2048x10_0_1_2
            (broadcastInDim S8x2048x1 ![0, 1] bcast_S8x2048_S8x2048x1_0_1 c)))))

/-- The weight at `(b, s, l, d)` is the weight of position `l` against the count of token `(b, s)`. -/
theorem weights3_apply (c : Vec Ideal S8x2048 .i32) (b : Fin 8) (s : Fin 2048) (l : Fin 10) (d : Fin 256) :
    weights3 c (ix4 b s l d) = Cert.NGram.keep l.val (c (ix2 b s)) := by
  unfold weights3
  rw [broadcastInDim_apply _ bcast_S8x2048x10x1_S8x2048x10x256_0_1_2_3 _ (ix4 b s l d) (ix4 b s l 0) (by intro a; match a with | ⟨0, _⟩ => rfl | ⟨1, _⟩ => rfl | ⟨2, _⟩ => rfl | ⟨3, _⟩ => rfl),
    broadcastInDim_apply _ bcast_S8x2048x10_S8x2048x10x1_0_1_2 _ (ix4 b s l 0) (ix3 b s l) (by intro a; match a with | ⟨0, _⟩ => rfl | ⟨1, _⟩ => rfl | ⟨2, _⟩ => rfl)]
  show (FloatOps.uitofp (F := Ideal) .f32 (IntOp.cmpi .slt
    (broadcastInDim S8x2048x10 ![0, 1, 2] bcast_S1x1x10_S8x2048x10_0_1_2
      (broadcastInDim S1x1x10 ![2] bcast_S10_S1x1x10_2 (iotaInDim S10 32 0)) (ix3 b s l))
    (broadcastInDim S8x2048x10 ![0, 1, 2] bcast_S8x2048x1_S8x2048x10_0_1_2
      (broadcastInDim S8x2048x1 ![0, 1] bcast_S8x2048_S8x2048x1_0_1 c) (ix3 b s l))) : EReal) = _
  rw [broadcastInDim_apply _ bcast_S1x1x10_S8x2048x10_0_1_2 _ (ix3 b s l) (ix3 0 0 l) (by intro a; match a with | ⟨0, _⟩ => rfl | ⟨1, _⟩ => rfl | ⟨2, _⟩ => rfl),
    broadcastInDim_apply _ bcast_S10_S1x1x10_2 _ (ix3 0 0 l) (ix1 l) (by intro a; match a with | ⟨0, _⟩ => rfl),
    broadcastInDim_apply _ bcast_S8x2048x1_S8x2048x10_0_1_2 _ (ix3 b s l) (ix3 b s 0) (by intro a; match a with | ⟨0, _⟩ => rfl | ⟨1, _⟩ => rfl | ⟨2, _⟩ => rfl),
    broadcastInDim_apply _ bcast_S8x2048_S8x2048x1_0_1 _ (ix3 b s 0) (ix2 b s) (by intro a; match a with | ⟨0, _⟩ => rfl | ⟨1, _⟩ => rfl)]
  exact mask_eq l.val (by have := l.isLt; omega) _

/-- The divisor at `(b, s, d)` is the count of token `(b, s)` read as a signed integer. -/
theorem divisor3_apply (c : Vec Ideal S8x2048 .i32) (b : Fin 8) (s : Fin 2048) (d : Fin 256) :
    broadcastInDim S8x2048x256 ![0, 1, 2] bcast_S8x2048x1_S8x2048x256_0_1_2
      (sitofp (F := Ideal) .f32 (broadcastInDim S8x2048x1 ![0, 1] bcast_S8x2048_S8x2048x1_0_1 c)) (ix3 b s d)
      = (((c (ix2 b s)).toInt : ℝ) : EReal) := by
  rw [broadcastInDim_apply _ bcast_S8x2048x1_S8x2048x256_0_1_2 _ (ix3 b s d) (ix3 b s 0) (by intro a; match a with | ⟨0, _⟩ => rfl | ⟨1, _⟩ => rfl | ⟨2, _⟩ => rfl)]
  show FloatOps.sitofp (F := Ideal) .f32 (broadcastInDim S8x2048x1 ![0, 1] bcast_S8x2048_S8x2048x1_0_1 c (ix3 b s 0)) = _
  rw [broadcastInDim_apply _ bcast_S8x2048_S8x2048x1_0_1 _ (ix3 b s 0) (ix2 b s) (by intro a; match a with | ⟨0, _⟩ => rfl | ⟨1, _⟩ => rfl)]
  rfl

/-- Order 3's stages compute the masked mean of `e` with `c`. -/
theorem stage3_eq (e : FVec Ideal S8x2048x10x256 .f32) (c : Vec Ideal S8x2048 .i32) :
    stage3 e c = Cert.NGram.orderMean 2048 10 e c := by
  funext i
  obtain ⟨b, s, d, rfl⟩ : ∃ b s d, i = ix3 b s d := ⟨i 0, i 1, i 2, eq_ix3 i⟩
  rw [Cert.NGram.orderMean_apply]
  unfold stage3 Cert.NGram.meanAt
  show Ideal.div
    (Ideal.hostReduceAdd reducesTo_S8x2048x10x256_S8x2048x256_d2 (mulf e (weights3 c)) (Ideal.ofBits .f32 0x00000000#32) (ix3 b s d))
    (broadcastInDim S8x2048x256 ![0, 1, 2] bcast_S8x2048x1_S8x2048x256_0_1_2
      (sitofp (F := Ideal) .f32 (broadcastInDim S8x2048x1 ![0, 1] bcast_S8x2048_S8x2048x1_0_1 c)) (ix3 b s d)) = _
  rw [divisor3_apply, Ideal.hostReduceAdd_single reducesTo_S8x2048x10x256_S8x2048x256_d2 (by decide), Ideal.ofBits_zero_f32, zero_add]
  refine congrArg (fun t => Ideal.div t _) (Finset.sum_congr rfl fun (l : Fin 10) _ => ?_)
  have hl : Shape.Reduces.lift (by decide : S8x2048x10x256.Reduces [2] S8x2048x256) (ix3 b s d) l = ix4 b s l d := by
    funext a
    match a with
    | ⟨0, _⟩ => exact Fin.ext rfl
    | ⟨1, _⟩ => exact Fin.ext rfl
    | ⟨2, _⟩ => exact Fin.ext rfl
    | ⟨3, _⟩ => exact Fin.ext rfl
  rw [hl]
  show e (ix4 b s l d) * weights3 c (ix4 b s l d) = _
  rw [weights3_apply]

end Cert.ReferenceIdeal.RefHand

end
-- ==== Proof.lean ====
/-
  An n-gram embedding lookup: the Pallas kernel program against its jnp reference.

  For each of three n-gram orders (12, 11 and 10 gram positions) both programs gather, on the host and by the same
  operations, every token's gram embeddings `e` and its number of valid grams `c`, and compute the masked mean
  `(∑ l, e l · [l < c]) / c` of every token. The reference does it with jnp on whole arrays (an integer comparison with
  an iota, a sum over the gram axis, a quotient); the kernel program does it in one Pallas kernel per order on blocks
  of 128 tokens, accumulating the positions one after the other with a floating-point comparison against the literal
  position. On the extended reals these are the same function: the conversions of the counts and of the comparison
  bits are exact, the literals are the integers 0 … 11, and a sum does not depend on the order of its terms
  (`Cert.NGram.orderMean`, Proof/Spec.lean). Both programs then join the three results along the embedding axis and
  put the special-word embedding on the tokens whose word index is below four, by the same operations.

  The three frames: the two kernel programs run as eight segments — the host operations before the regions, the three
  regions, the host operations after them — under the launch theorem for several regions (Proof/K/Run.lean at the
  word-level instance, Proof/KI/Run.lean at the ideal one: the same text, the bodies proved for any instance); the
  reference is a host program, run as the line of its operations (Proof/RefRun.lean), and its frame is that run with
  the result dropped. The idealization rewrote nothing.
-/
import proofs.«140809_j7954279432569_2_alg».proof.Defs
import proofs.«140809_j7954279432569_2_alg».proof.Proof.Gen.Kernel
import proofs.«140809_j7954279432569_2_alg».proof.Proof.Gen.KernelIdeal
import proofs.«140809_j7954279432569_2_alg».proof.Proof.Gen.ReferenceIdeal
import proofs.«140809_j7954279432569_2_alg».proof.Proof.Gen.Pre_finite_inputs
import proofs.«140809_j7954279432569_2_alg».proof.Proof.K.Run
import proofs.«140809_j7954279432569_2_alg».proof.Proof.KI.Run
import proofs.«140809_j7954279432569_2_alg».proof.Proof.KI.Value
import proofs.«140809_j7954279432569_2_alg».proof.Proof.RefRun
import proofs.«140809_j7954279432569_2_alg».proof.Proof.RefStages
import Idealize.ShloMosaic.Adequacy
import Idealize.ShloMosaic.Init

noncomputable section

namespace Cert.Proof

open Idealize.ShloMosaic Idealize.ShloMosaic.TcCoe Idealize.SL.Sem
open Cert.ReferenceIdeal.RefMean (gathE1 gathC1 gathE2 gathC2 gathE3 gathC3 combine)

/-- The word-level kernel program runs to the end, faults nowhere and leaves its arguments unchanged. -/
theorem frame_kernel : Cert.frame_Kernel := fun m ρ _ => Cert.Kernel.Hand.frame (F := Bits) m ρ

/-- So does its idealization. -/
theorem frame_kernelIdeal : Cert.frame_KernelIdeal := fun m ρ _ => Cert.KernelIdeal.Hand.frame (F := Ideal) m ρ

/-- So does the reference: its run, the result dropped. -/
theorem frame_referenceIdeal : Cert.frame_ReferenceIdeal := fun m ρ _ =>
  (θ_run Cert.ReferenceIdeal.defs _ _).mono (fun _ h c => (h c).2) (Cert.ReferenceIdeal.RefHand.run_hand m ρ)

/-- The idealization rewrote no operation. -/
theorem preserves : Cert.preserves_Kernel_KernelIdeal := trivial

/-- Both idealized programs, from memories agreeing on the arguments, end with the same result: `combine` of the three
    orders' masked means of their gathered arrays. -/
theorem algebraic : Cert.algebraic_KernelIdeal_ReferenceIdeal := by
  intro m ρ m' ρ' _ hagree
  refine ⟨fun c => combine (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (Cert.NGram.orderMean 2048 12 (gathE1 (m ((c.tc : Thread Cert.KernelIdeal.nD Cert.KernelIdeal.τ).loc Cert.KernelIdeal.main_arg0)) (m ((c.tc : Thread Cert.KernelIdeal.nD Cert.KernelIdeal.τ).loc Cert.KernelIdeal.main_arg5)) (m ((c.tc : Thread Cert.KernelIdeal.nD Cert.KernelIdeal.τ).loc Cert.KernelIdeal.main_arg2))) (gathC1 (m ((c.tc : Thread Cert.KernelIdeal.nD Cert.KernelIdeal.τ).loc Cert.KernelIdeal.main_arg0)) (m ((c.tc : Thread Cert.KernelIdeal.nD Cert.KernelIdeal.τ).loc Cert.KernelIdeal.main_arg8))))
      (Cert.NGram.orderMean 2048 11 (gathE2 (m ((c.tc : Thread Cert.KernelIdeal.nD Cert.KernelIdeal.τ).loc Cert.KernelIdeal.main_arg0)) (m ((c.tc : Thread Cert.KernelIdeal.nD Cert.KernelIdeal.τ).loc Cert.KernelIdeal.main_arg6)) (m ((c.tc : Thread Cert.KernelIdeal.nD Cert.KernelIdeal.τ).loc Cert.KernelIdeal.main_arg3))) (gathC2 (m ((c.tc : Thread Cert.KernelIdeal.nD Cert.KernelIdeal.τ).loc Cert.KernelIdeal.main_arg0)) (m ((c.tc : Thread Cert.KernelIdeal.nD Cert.KernelIdeal.τ).loc Cert.KernelIdeal.main_arg9))))
      (Cert.NGram.orderMean 2048 10 (gathE3 (m ((c.tc : Thread Cert.KernelIdeal.nD Cert.KernelIdeal.τ).loc Cert.KernelIdeal.main_arg0)) (m ((c.tc : Thread Cert.KernelIdeal.nD Cert.KernelIdeal.τ).loc Cert.KernelIdeal.main_arg7)) (m ((c.tc : Thread Cert.KernelIdeal.nD Cert.KernelIdeal.τ).loc Cert.KernelIdeal.main_arg4))) (gathC3 (m ((c.tc : Thread Cert.KernelIdeal.nD Cert.KernelIdeal.τ).loc Cert.KernelIdeal.main_arg0)) (m ((c.tc : Thread Cert.KernelIdeal.nD Cert.KernelIdeal.τ).loc Cert.KernelIdeal.main_arg10)))), ?_, ?_⟩
  · exact (θ_run Cert.KernelIdeal.defs _ _).mono (fun _ h c =>
      ⟨(h c Cert.KernelIdeal.main_v78 (by decide)).trans (Cert.KernelIdeal.Hand.value m ρ c),
       (h c Cert.KernelIdeal.main_arg0 (by decide)).trans (Cert.KernelIdeal.Hand.W8_arg m ρ c Cert.KernelIdeal.main_arg0 (by decide)),
       (h c Cert.KernelIdeal.main_arg1 (by decide)).trans (Cert.KernelIdeal.Hand.W8_arg m ρ c Cert.KernelIdeal.main_arg1 (by decide)),
       (h c Cert.KernelIdeal.main_arg2 (by decide)).trans (Cert.KernelIdeal.Hand.W8_arg m ρ c Cert.KernelIdeal.main_arg2 (by decide)),
       (h c Cert.KernelIdeal.main_arg3 (by decide)).trans (Cert.KernelIdeal.Hand.W8_arg m ρ c Cert.KernelIdeal.main_arg3 (by decide)),
       (h c Cert.KernelIdeal.main_arg4 (by decide)).trans (Cert.KernelIdeal.Hand.W8_arg m ρ c Cert.KernelIdeal.main_arg4 (by decide)),
       (h c Cert.KernelIdeal.main_arg5 (by decide)).trans (Cert.KernelIdeal.Hand.W8_arg m ρ c Cert.KernelIdeal.main_arg5 (by decide)),
       (h c Cert.KernelIdeal.main_arg6 (by decide)).trans (Cert.KernelIdeal.Hand.W8_arg m ρ c Cert.KernelIdeal.main_arg6 (by decide)),
       (h c Cert.KernelIdeal.main_arg7 (by decide)).trans (Cert.KernelIdeal.Hand.W8_arg m ρ c Cert.KernelIdeal.main_arg7 (by decide)),
       (h c Cert.KernelIdeal.main_arg8 (by decide)).trans (Cert.KernelIdeal.Hand.W8_arg m ρ c Cert.KernelIdeal.main_arg8 (by decide)),
       (h c Cert.KernelIdeal.main_arg9 (by decide)).trans (Cert.KernelIdeal.Hand.W8_arg m ρ c Cert.KernelIdeal.main_arg9 (by decide)),
       (h c Cert.KernelIdeal.main_arg10 (by decide)).trans (Cert.KernelIdeal.Hand.W8_arg m ρ c Cert.KernelIdeal.main_arg10 (by decide))⟩)
      (Cert.KernelIdeal.Hand.run_fold (F := Ideal) m ρ)
  · refine (θ_run Cert.ReferenceIdeal.defs _ _).mono (fun _ h c => ⟨?_, (h c).2⟩)
      (Cert.ReferenceIdeal.RefHand.run_hand m' ρ')
    rw [(h c).1, Cert.ReferenceIdeal.RefHand.stage1_eq, Cert.ReferenceIdeal.RefHand.stage2_eq, Cert.ReferenceIdeal.RefHand.stage3_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1,
      (hagree c).2.2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
